-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x1024x32 : Shape := ⟨4, ![32, 4, 1024, 32]⟩
abbrev S64x64 : Shape := ⟨2, ![64, 64]⟩
abbrev S2048x2048 : Shape := ⟨2, ![2048, 2048]⟩
abbrev S2048 : Shape := ⟨1, ![2048]⟩
abbrev S_ : Shape := ⟨0, ![]⟩

class Facts : Prop where
  bcast_S_S32x4x1024x32 : S_.BroadcastsInDim S32x4x1024x32 (![] : Fin 0 → Fin S32x4x1024x32.rank)
  reducesTo_S32x4x1024x32_S_d0_1_2_3 : S32x4x1024x32.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  reducesTo_S_S_d : S_.ReducesTo [] S_

variable [Facts]

def fn_part3 {F : FTy → Type} [FloatOps F] (main_arg11 : FVec F S2048 .f32) (main_arg12 : FVec F S_ .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S_ .f32 := Host.absf main_arg12
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  main_v62

def fn_part2 {F : FTy → Type} [FloatOps F] (main_arg7 : FVec F S2048 .f32) (main_arg8 : FVec F S2048x2048 .f32) (main_arg9 : FVec F S2048 .f32) (main_arg10 : FVec F S2048 .f32) (main_arg11 : FVec F S2048 .f32) (main_arg12 : FVec F S_ .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048 .f32) (main_arg11 : FVec F S2048 .f32) (main_arg12 : FVec F S_ .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x4x1024x32 .f32) (main_arg1 : FVec F S64x64 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048 .f32) (main_arg11 : FVec F S2048 .f32) (main_arg12 : FVec F S_ .f32) : IVec S_ 1 :=
  let main_v0 : FVec F S32x4x1024x32 .f32 := Host.absf main_arg0
  let main_cst : FVec F S_ .f32 := constant S_ .f32 0x7F800000#32
  let main_v1 : FVec F S32x4x1024x32 .f32 := broadcastInDim S32x4x1024x32 ![] bcast_S_S32x4x1024x32 main_cst
  let main_v2 : IVec S32x4x1024x32 1 := cmpf .olt main_v0 main_v1
  let main_c : IVec S_ 1 := constantI S_ 1 1#1
  let main_v3 : IVec S_ 1 := (fun x v => Host.reduce IntOp.andi x v reducesTo_S32x4x1024x32_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_v13 main_v16
-- ==== Kernel.lean ====
abbrev S32x4x1024x32 : Shape := ⟨4, ![32, 4, 1024, 32]⟩
abbrev S64x64 : Shape := ⟨2, ![64, 64]⟩
abbrev S2048x2048 : Shape := ⟨2, ![2048, 2048]⟩
abbrev S2048 : Shape := ⟨1, ![2048]⟩
abbrev S_ : Shape := ⟨0, ![]⟩
abbrev S6144x2048 : Shape := ⟨2, ![6144, 2048]⟩
abbrev S2048x6144 : Shape := ⟨2, ![2048, 6144]⟩
abbrev S6144 : Shape := ⟨1, ![6144]⟩
abbrev S1x6144 : Shape := ⟨2, ![1, 6144]⟩
abbrev S2048x1024 : Shape := ⟨2, ![2048, 1024]⟩
abbrev S1x1024 : Shape := ⟨2, ![1, 1024]⟩
abbrev S32x64x6144 : Shape := ⟨3, ![32, 64, 6144]⟩
abbrev S32x64x2048 : Shape := ⟨3, ![32, 64, 2048]⟩
abbrev S1x2048 : Shape := ⟨2, ![1, 2048]⟩
abbrev S1x1 : Shape := ⟨2, ![1, 1]⟩
abbrev S1x64x2048 : Shape := ⟨3, ![1, 64, 2048]⟩
abbrev S64x2048 : Shape := ⟨2, ![64, 2048]⟩
abbrev S2048x64 : Shape := ⟨2, ![2048, 64]⟩
abbrev S64x32x64 : Shape := ⟨3, ![64, 32, 64]⟩
abbrev S32 : Shape := ⟨1, ![32]⟩
abbrev S1x32x1 : Shape := ⟨3, ![1, 32, 1]⟩
abbrev S32x1024x128 : Shape := ⟨3, ![32, 1024, 128]⟩

abbrev nBuf : Space → Nat
  | .hbm => 33
  | .vmem => 21
  | .smem => 0
  | _ => 0

abbrev bufTy : (tb : Table) → Fin (tcTables nBuf tb) → BufTy
  | .hbm, ⟨0, _⟩ => ⟨S32x4x1024x32, .f32⟩
  | .hbm, ⟨1, _⟩ => ⟨S64x64, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048x2048, .f32⟩
  | .hbm, ⟨14, _⟩ => ⟨S2048x2048, .bf16⟩
  | .hbm, ⟨15, _⟩ => ⟨S6144x2048, .f32⟩
  | .hbm, ⟨16, _⟩ => ⟨S2048x6144, .f32⟩
  | .hbm, ⟨17, _⟩ => ⟨S2048x6144, .bf16⟩
  | .hbm, ⟨18, _⟩ => ⟨S6144, .f32⟩
  | .hbm, ⟨19, _⟩ => ⟨S1x6144, .f32⟩
  | .hbm, ⟨20, _⟩ => ⟨S2048x6144, .f32⟩
  | .hbm, ⟨21, _⟩ => ⟨S32x64x6144, .f32⟩
  | .hbm, ⟨22, _⟩ => ⟨S32x64x2048, .f32⟩
  | .hbm, ⟨23, _⟩ => ⟨S32x64x2048, .f32⟩
  | .hbm, ⟨24, _⟩ => ⟨S32x64x2048, .f32⟩
  | .hbm, ⟨25, _⟩ => ⟨S2048x2048, .f32⟩
  | .hbm, ⟨26, _⟩ => ⟨S2048x2048, .bf16⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x1, .f32⟩
  | .hbm, ⟨31, _⟩ => ⟨S32x64x2048, .f32⟩
  | .hbm, ⟨32, _⟩ => ⟨S32x1024x128, .f32⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024, .f32⟩
  | .local _ .vmem, ⟨4, _⟩ => ⟨S1x1024, .f32⟩
  | .local _ .vmem, ⟨5, _⟩ => ⟨S2048x1024, .f32⟩
  | .local _ .vmem, ⟨6, _⟩ => ⟨S2048x1024, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S64x64, .f32⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x1, .f32⟩
  | .local _ .vmem, ⟨19, _⟩ => ⟨S1x64x2048, .f32⟩
  | .local _ .vmem, ⟨20, _⟩ => ⟨S1x64x2048, .f32⟩
  | _, _ => ⟨S32x4x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x64x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S32x4x1024x32_S2048x2048 : S32x4x1024x32.ShapeCasts S2048x2048
  bitsLt_bf16_f32 : FTy.bits .bf16 < FTy.bits .f32
  concatenates_S2048x2048_S2048x2048_S2048x2048_S6144x2048_d0 : Shape.Concatenates [S2048x2048, S2048x2048, S2048x2048] S6144x2048 0
  transposes_S6144x2048_S2048x6144_1_0 : S6144x2048.Transposes [1, 0] S2048x6144
  concatenates_S2048_S2048_S2048_S6144_d0 : Shape.Concatenates [S2048, S2048, S2048] S6144 0
  shapeCasts_S6144_S1x6144 : S6144.ShapeCasts S1x6144
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S2048x6144_S32x64x6144 : S2048x6144.ShapeCasts S32x64x6144
  slices_S32x64x6144_S32x64x2048_0_0_0 : S32x64x6144.Slices ![0, 0, 0] S32x64x2048
  slices_S32x64x6144_S32x64x2048_0_0_2048 : S32x64x6144.Slices ![0, 0, 2048] S32x64x2048
  slices_S32x64x6144_S32x64x2048_0_0_4096 : S32x64x6144.Slices ![0, 0, 4096] S32x64x2048
  transposes_S2048x2048_S2048x2048_1_0 : S2048x2048.Transposes [1, 0] S2048x2048
  shapeCasts_S2048_S1x2048 : S2048.ShapeCasts S1x2048
  shapeCasts_S_S1x1 : S_.ShapeCasts S1x1
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  transposes_S64x2048_p1_0_S2048x64 : S64x2048.Transposes [1, 0] S2048x64
  inb_S64x64_S64x64_0_0 : ∀ a, (![0, 0] : Fin 2 → Nat) a + S64x64.size a ≤ S64x64.size a
  h_S64x64 : 0 < S64x64.numel
  shapeCasts_S64x2048_S64x32x64 : S64x2048.ShapeCasts S64x32x64
  reduces_S64x32x64_S32 : S64x32x64.Reduces [0, 2] S32
  shapeCasts_S32_S1x32x1 : S32.ShapeCasts S1x32x1
  broadcasts_S1x32x1_S64x32x64 : S1x32x1.Broadcasts S64x32x64
  shapeCasts_S64x32x64_S64x2048 : S64x32x64.ShapeCasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S64x2048_S1x64x2048 : S64x2048.ShapeCasts S1x64x2048
  shapeCasts_S32x64x2048_S32x1024x128 : S32x64x2048.ShapeCasts S32x1024x128
  dot_S2048x2048_S2048x1024_S2048x1024_1_0_0_1_n_n_wf : DotDims.WF S2048x2048 S2048x1024 S2048x1024 [1] [0] [0] [1] [] []
  dot_S64x2048_S2048x64_S64x64_1_0_0_1_n_n_wf : DotDims.WF S64x2048 S2048x64 S64x64 [1] [0] [0] [1] [] []
  dot_S64x64_S64x2048_S64x2048_1_0_0_1_n_n_wf : DotDims.WF S64x64 S64x2048 S64x2048 [1] [0] [0] [1] [] []
  dot_S64x2048_S2048x2048_S64x2048_1_0_0_1_n_n_wf : DotDims.WF S64x2048 S2048x2048 S64x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x6144.size a
  hwx0_1 : ∀ i : grid0.Coords, EltTy.bits .bf16 = 32 ∨ (Rect.block (s := S2048x6144) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x6144.size a
  hwx0_2 : ∀ i : grid0.Coords, EltTy.bits .f32 = 32 ∨ (Rect.block (s := S1x6144) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x6144.size a
  hwx0_3 : ∀ i : grid0.Coords, EltTy.bits .f32 = 32 ∨ (Rect.block (s := S2048x6144) S2048x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x2048.size a ≤ S32x64x2048.size a
  hwx1_0 : ∀ i : grid1.Coords, EltTy.bits .f32 = 32 ∨ (Rect.block (s := S32x64x2048) S1x64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x2048.size a ≤ S32x64x2048.size a
  hwx1_1 : ∀ i : grid1.Coords, EltTy.bits .f32 = 32 ∨ (Rect.block (s := S32x64x2048) S1x64x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x2048.size a ≤ S32x64x2048.size a
  hwx1_2 : ∀ i : grid1.Coords, EltTy.bits .f32 = 32 ∨ (Rect.block (s := S32x64x2048) S1x64x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x2048.size a ≤ S2048x2048.size a
  hwx1_4 : ∀ i : grid1.Coords, EltTy.bits .bf16 = 32 ∨ (Rect.block (s := S2048x2048) S2048x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x64x2048.size a ≤ S32x64x2048.size a
  hwx1_9 : ∀ i : grid1.Coords, EltTy.bits .f32 = 32 ∨ (Rect.block (s := S32x64x2048) S1x64x2048.size (cc1_transform_9 i) (hinb1_9 i)).WholeWords (EltTy.packing .f32)

variable [Facts₀]

def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S64x2048_S2048x64_S64x64_1_0_0_1_n_n : DotDims S64x2048 S2048x64 S64x64 where
  lhsContracting := [1]
  rhsContracting := [0]
  lhsNonContracting := [0]
  rhsNonContracting := [1]
  lhsBatch := []
  rhsBatch := []
  wf := dot_S64x2048_S2048x64_S64x64_1_0_0_1_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf

abbrev win0_0 : Pipeline.Window sig grid0 :=
  Pipeline.Window.ofSpec (Memref.whole main_v1) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S2048x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S1x64x2048.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S32x4x1024x32 : Shape := ⟨4, ![32, 4, 1024, 32]⟩
abbrev S64x64 : Shape := ⟨2, ![64, 64]⟩
abbrev S2048x2048 : Shape := ⟨2, ![2048, 2048]⟩
abbrev S2048 : Shape := ⟨1, ![2048]⟩
abbrev S_ : Shape := ⟨0, ![]⟩
abbrev S32x64x2048 : Shape := ⟨3, ![32, 64, 2048]⟩
abbrev S1x1x2048 : Shape := ⟨3, ![1, 1, 2048]⟩
abbrev S32x64x64 : Shape := ⟨3, ![32, 64, 64]⟩
abbrev S1x64x64 : Shape := ⟨3, ![1, 64, 64]⟩
abbrev S32x2048x64 : Shape := ⟨3, ![32, 2048, 64]⟩
abbrev S32x32x4096 : Shape := ⟨3, ![32, 32, 4096]⟩
abbrev S32x32 : Shape := ⟨2, ![32, 32]⟩
abbrev S32x32x1 : Shape := ⟨3, ![32, 32, 1]⟩
abbrev S1x2048x1 : Shape := ⟨3, ![1, 2048, 1]⟩
abbrev S32x1024x128 : Shape := ⟨3, ![32, 1024, 128]⟩

abbrev nBuf : Space → Nat
  | .hbm => 90
  | .vmem => 0
  | .smem => 0
  | _ => 0

abbrev bufTy : (tb : Table) → Fin (tcTables nBuf tb) → BufTy
  | .hbm, ⟨0, _⟩ => ⟨S32x4x1024x32, .f32⟩
  | .hbm, ⟨1, _⟩ => ⟨S64x64, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S32x64x2048, .f32⟩
  | .hbm, ⟨14, _⟩ => ⟨S32x64x2048, .f32⟩
  | .hbm, ⟨15, _⟩ => ⟨S1x1x2048, .f32⟩
  | .hbm, ⟨16, _⟩ => ⟨S32x64x2048, .f32⟩
  | .hbm, ⟨17, _⟩ => ⟨S32x64x2048, .f32⟩
  | .hbm, ⟨18, _⟩ => ⟨S32x64x2048, .f32⟩
  | .hbm, ⟨19, _⟩ => ⟨S1x1x2048, .f32⟩
  | .hbm, ⟨20, _⟩ => ⟨S32x64x2048, .f32⟩
  | .hbm, ⟨21, _⟩ => ⟨S32x64x2048, .f32⟩
  | .hbm, ⟨22, _⟩ => ⟨S32x64x2048, .f32⟩
  | .hbm, ⟨23, _⟩ => ⟨S1x1x2048, .f32⟩
  | .hbm, ⟨24, _⟩ => ⟨S32x64x2048, .f32⟩
  | .hbm, ⟨25, _⟩ => ⟨S32x64x2048, .f32⟩
  | .hbm, ⟨26, _⟩ => ⟨S32x64x64, .f32⟩
  | .hbm, ⟨27, _⟩ => ⟨S1x64x64, .f32⟩
  | .hbm, ⟨28, _⟩ => ⟨S32x64x64, .f32⟩
  | .hbm, ⟨29, _⟩ => ⟨S32x64x64, .f32⟩
  | .hbm, ⟨30, _⟩ => ⟨S32x64x2048, .f32⟩
  | .hbm, ⟨31, _⟩ => ⟨S32x2048x64, .f32⟩
  | .hbm, ⟨32, _⟩ => ⟨S32x32x4096, .f32⟩
  | .hbm, ⟨33, _⟩ => ⟨S_, .f32⟩
  | .hbm, ⟨34, _⟩ => ⟨S32x32, .f32⟩
  | .hbm, ⟨35, _⟩ => ⟨S32x32x1, .f32⟩
  | .hbm, ⟨36, _⟩ => ⟨S_, .f32⟩
  | .hbm, ⟨37, _⟩ => ⟨S32x32x1, .f32⟩
  | .hbm, ⟨38, _⟩ => ⟨S32x32x1, .f32⟩
  | .hbm, ⟨39, _⟩ => ⟨S_, .i32⟩
  | .hbm, ⟨40, _⟩ => ⟨S_, .f32⟩
  | .hbm, ⟨41, _⟩ => ⟨S32x32, .f32⟩
  | .hbm, ⟨42, _⟩ => ⟨S32x32x1, .f32⟩
  | .hbm, ⟨43, _⟩ => ⟨S_, .f32⟩
  | .hbm, ⟨44, _⟩ => ⟨S32x32x1, .f32⟩
  | .hbm, ⟨45, _⟩ => ⟨S32x32x1, .f32⟩
  | .hbm, ⟨46, _⟩ => ⟨S32x32x4096, .f32⟩
  | .hbm, ⟨47, _⟩ => ⟨S32x32x4096, .f32⟩
  | .hbm, ⟨48, _⟩ => ⟨S32x32x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S32x32, .f32⟩
  | .hbm, ⟨54, _⟩ => ⟨S32x32x1, .f32⟩
  | .hbm, ⟨55, _⟩ => ⟨S32x32x1, .f32⟩
  | .hbm, ⟨56, _⟩ => ⟨S32x32x1, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S32x32x1, .f32⟩
  | .hbm, ⟨62, _⟩ => ⟨S32x32x1, .f32⟩
  | .hbm, ⟨63, _⟩ => ⟨S32x32x4096, .f32⟩
  | .hbm, ⟨64, _⟩ => ⟨S32x32x4096, .f32⟩
  | .hbm, ⟨65, _⟩ => ⟨S_, .f32⟩
  | .hbm, ⟨66, _⟩ => ⟨S32x32x1, .f32⟩
  | .hbm, ⟨67, _⟩ => ⟨S32x32x1, .f32⟩
  | .hbm, ⟨68, _⟩ => ⟨S32x32x1, .f32⟩
  | .hbm, ⟨69, _⟩ => ⟨S32x32x4096, .f32⟩
  | .hbm, ⟨70, _⟩ => ⟨S32x32x4096, .f32⟩
  | .hbm, ⟨71, _⟩ => ⟨S32x2048x64, .f32⟩
  | .hbm, ⟨72, _⟩ => ⟨S1x2048x1, .f32⟩
  | .hbm, ⟨73, _⟩ => ⟨S32x2048x64, .f32⟩
  | .hbm, ⟨74, _⟩ => ⟨S32x2048x64, .f32⟩
  | .hbm, ⟨75, _⟩ => ⟨S1x2048x1, .f32⟩
  | .hbm, ⟨76, _⟩ => ⟨S32x2048x64, .f32⟩
  | .hbm, ⟨77, _⟩ => ⟨S32x2048x64, .f32⟩
  | .hbm, ⟨78, _⟩ => ⟨S32x64x2048, .f32⟩
  | .hbm, ⟨79, _⟩ => ⟨S32x64x2048, .f32⟩
  | .hbm, ⟨80, _⟩ => ⟨S1x1x2048, .f32⟩
  | .hbm, ⟨81, _⟩ => ⟨S32x64x2048, .f32⟩
  | .hbm, ⟨82, _⟩ => ⟨S32x64x2048, .f32⟩
  | .hbm, ⟨83, _⟩ => ⟨S_, .f32⟩
  | .hbm, ⟨84, _⟩ => ⟨S32x64x2048, .f32⟩
  | .hbm, ⟨85, _⟩ => ⟨S32x64x2048, .i1⟩
  | .hbm, ⟨86, _⟩ => ⟨S32x64x2048, .f32⟩
  | .hbm, ⟨87, _⟩ => ⟨S32x64x2048, .f32⟩
  | .hbm, ⟨88, _⟩ => ⟨S32x64x2048, .f32⟩
  | .hbm, ⟨89, _⟩ => ⟨S32x1024x128, .f32⟩
  | _, _ => ⟨S32x4x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_cst_3 : Ref sig .tc := ⟨.hbm, 57, rfl⟩
abbrev main_call0_v13 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_2 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩

abbrev nD : Nat := 1
abbrev τ : Topo := Topo.v7x

variable {F : FTy → Type} [FloatOps F]

class Facts₀ : Prop where
  shapeCasts_S32x4x1024x32_S32x64x2048 : S32x4x1024x32.ShapeCasts S32x64x2048
  bcast_S2048_S1x1x2048_2 : S2048.BroadcastsInDim S1x1x2048 (![2] : Fin 1 → Fin S1x1x2048.rank)
  bcast_S1x1x2048_S32x64x2048_0_1_2 : S1x1x2048.BroadcastsInDim S32x64x2048 (![0, 1, 2] : Fin 3 → Fin S32x64x2048.rank)
  bcast_S64x64_S1x64x64_1_2 : S64x64.BroadcastsInDim S1x64x64 (![1, 2] : Fin 2 → Fin S1x64x64.rank)
  bcast_S1x64x64_S32x64x64_0_1_2 : S1x64x64.BroadcastsInDim S32x64x64 (![0, 1, 2] : Fin 3 → Fin S32x64x64.rank)
  transposes_S32x64x2048_S32x2048x64_0_2_1 : S32x64x2048.Transposes [0, 2, 1] S32x2048x64
  shapeCasts_S32x2048x64_S32x32x4096 : S32x2048x64.ShapeCasts S32x32x4096
  reducesTo_S32x32x4096_S32x32_d2 : S32x32x4096.ReducesTo [2] S32x32
  h_S_ : 0 < S_.numel
  bcast_S32x32_S32x32x1_0_1 : S32x32.BroadcastsInDim S32x32x1 (![0, 1] : Fin 2 → Fin S32x32x1.rank)
  bcast_S_S32x32x1 : S_.BroadcastsInDim S32x32x1 (![] : Fin 0 → Fin S32x32x1.rank)
  bcast_S32x32x1_S32x32x4096_0_1_2 : S32x32x1.BroadcastsInDim S32x32x4096 (![0, 1, 2] : Fin 3 → Fin S32x32x4096.rank)
  shapeCasts_S32x32x4096_S32x2048x64 : S32x32x4096.ShapeCasts S32x2048x64
  bcast_S2048_S1x2048x1_1 : S2048.BroadcastsInDim S1x2048x1 (![1] : Fin 1 → Fin S1x2048x1.rank)
  bcast_S1x2048x1_S32x2048x64_0_1_2 : S1x2048x1.BroadcastsInDim S32x2048x64 (![0, 1, 2] : Fin 3 → Fin S32x2048x64.rank)
  transposes_S32x2048x64_S32x64x2048_0_2_1 : S32x2048x64.Transposes [0, 2, 1] S32x64x2048
  bcast_S_S32x64x2048 : S_.BroadcastsInDim S32x64x2048 (![] : Fin 0 → Fin S32x64x2048.rank)
  shapeCasts_S32x64x2048_S32x1024x128 : S32x64x2048.ShapeCasts S32x1024x128
  dot_S32x64x2048_S2048x2048_S32x64x2048_2_1_01_0_n_n_wf : DotDims.WF S32x64x2048 S2048x2048 S32x64x2048 [2] [1] [0, 1] [0] [] []
  dot_S32x64x2048_S32x64x2048_S32x64x64_2_2_1_1_0_0_wf : DotDims.WF S32x64x2048 S32x64x2048 S32x64x64 [2] [2] [1] [1] [0] [0]
  dot_S32x64x64_S32x64x2048_S32x64x2048_2_1_1_2_0_0_wf : DotDims.WF S32x64x64 S32x64x2048 S32x64x2048 [2] [1] [1] [2] [0] [0]

variable [Facts₀]

def dot_S32x64x2048_S2048x2048_S32x64x2048_2_1_01_0_n_n : DotDims S32x64x2048 S2048x2048 S32x64x2048 where
  lhsContracting := [2]
  rhsContracting := [1]
  lhsNonContracting := [0, 1]
  rhsNonContracting := [0]
  lhsBatch := []
  rhsBatch := []
  wf := dot_S32x64x2048_S2048x2048_S32x64x2048_2_1_01_0_n_n_wf
def dot_S32x64x2048_S32x64x2048_S32x64x64_2_2_1_1_0_0 : DotDims S32x64x2048 S32x64x2048 S32x64x64 where
  lhsContracting := [2]
  rhsContracting := [2]
  lhsNonContracting := [1]
  rhsNonContracting := [1]
  lhsBatch := [0]
  rhsBatch := [0]
  wf := dot_S32x64x2048_S32x64x2048_S32x64x64_2_2_1_1_0_0_wf
def dot_S32x64x64_S32x64x2048_S32x64x2048_2_1_1_2_0_0 : DotDims S32x64x64 S32x64x2048 S32x64x2048 where
  lhsContracting := [2]
  rhsContracting := [1]
  lhsNonContracting := [1]
  rhsNonContracting := [2]
  lhsBatch := [0]
  rhsBatch := [0]
  wf := dot_S32x64x64_S32x64x2048_S32x64x2048_2_1_1_2_0_0_wf

class Facts : Prop extends Facts₀ where

variable [Facts]
-- ==== Proof.BitsRegion0.lean ====
/-
  The first kernel region (the fused Q/K/V projection), as the pipeline runs it. The region has four windows: the
  whole [2048, 2048] input matrix, a [2048, 1024] column block of the stacked and transposed weights, the matching
  [1, 1024] piece of the stacked bias, and the [2048, 1024] output block. At each of the six grid points the body
  reads the three input blocks and stores, over the whole output block, the product of the input by the weight
  block plus the bias row broadcast over the rows. This module states what a window's block is at a point, what the
  body leaves in the output block as a function of the three input blocks, the body's Hoare triple, and the
  per-point obligation the pipeline's launch theorem asks for — all at any float instance, and for any contents
  `V` of the buffers at the moment the region is entered.
-/
import proofs.«172676_j81381040325184_1_alg».proof.Proof.Gen.Kernel.Launch
import proofs.«172676_j81381040325184_1_alg».proof.Proof.Gen.Kernel.Skeleton
import proofs.«172676_j81381040325184_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block of the entry contents at every point, whether the
    pipeline fetched it there or not (an unfetched window's index has not moved since its last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry contents at every point, whether the
    pipeline fetched it there or not (an unfetched window's index has not moved since its last fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry contents at every point, whether the
    pipeline fetched it there or not (an unfetched window's index has not moved since its last fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S2048x2048 := Rect.unit (s := S2048x2048) ![0, 0] S2048x2048.size inb_S2048x2048_S2048x2048_0_0
abbrev rW : Rect S2048x1024 := Rect.unit (s := S2048x1024) ![0, 0] S2048x1024.size inb_S2048x1024_S2048x1024_0_0
abbrev rB : Rect S1x1024 := Rect.unit (s := S1x1024) ![0, 0] S1x1024.size inb_S1x1024_S1x1024_0_0

/-- What the body leaves in the output block: its one store, over the whole block, of the product-plus-bias of the
    three input blocks. -/
def out0_3 (x0 : Vec F S2048x2048 .bf16) (x1 : Vec F S2048x1024 .bf16) (x2 : Vec F S1x1024 .f32) : Vec F S2048x1024 .f32 :=
  View.canon [⟨rW, k0_pay1 (View.ld x0 rX) (View.ld x1 rW) (View.ld x2 rB)⟩]

/-- The one store covers the output block. -/
theorem cover0_3 (p0 : Vec F S2048x1024 .f32) (y : S2048x1024.Idx) :
    ∃ pc ∈ ([⟨rW, p0⟩] : List (View.Piece (Elt F) S2048x1024 .f32)), y ∈ pc.1.set :=
  View.cover_of_tiled [⟨rW, p0⟩] S2048x1024.size (by rfl) y

set_option maxHeartbeats 1000000 in
/-- The body's triple: from the three input buffers at contents `x0 x1 x2` and the output buffer at anything, it
    runs to the end leaving the inputs as they were and the output at `out0_3 x0 x1 x2`. -/
theorem sound_kernel0 (c : Dev nD) (E : Set ℕ) (i : grid0.Coords)
    (arg1 : Memref sig .tc .vmem S2048x2048 .bf16) (harg1 : arg1.IsWhole) (arg2 : Memref sig .tc .vmem S2048x1024 .bf16) (harg2 : arg2.IsWhole)
    (arg3 : Memref sig .tc .vmem S1x1024 .f32) (harg3 : arg3.IsWhole) (arg4 : Memref sig .tc .vmem S2048x1024 .f32) (harg4 : arg4.IsWhole)
    (x0 : Vec F S2048x2048 .bf16) (x1 : Vec F S2048x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the windows' arrays as the region finds them; after the body at point `t`
    each input buffer still at its block and the output buffer at `out0_3` of the three input blocks; the invariant
    is the rest of the scoped memory and the generator register, which the body does not touch; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for this region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.BitsRegion1.lean ====
/-
  The second kernel region (retention, group normalisation, output projection and the parametric rectifier), as the
  pipeline runs it, one grid point per batch entry. Ten windows: the batch entry's [1, 64, 2048] blocks of the
  queries, keys and values; the whole [64, 64] decay mask; the whole transposed output weights; the output bias, the
  normalisation's scale and shift as [1, 2048] rows; the rectifier's slope as a [1, 1] array; and the batch entry's
  [1, 64, 2048] output block. The body reads the nine input blocks and stores one value over the whole output block.
  This module states a window's block at a point, what the body leaves in the output block as a function of the nine
  input blocks, the body's Hoare triple, and the per-point obligation of the pipeline's launch theorem, at any float
  instance and for any contents `V` of the buffers when the region is entered.
-/
import proofs.«172676_j81381040325184_1_alg».proof.Proof.Gen.Kernel.Launch
import proofs.«172676_j81381040325184_1_alg».proof.Proof.Gen.Kernel.Skeleton
import proofs.«172676_j81381040325184_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block of the entry contents at every point, whether the
    pipeline fetched it there or not (an unfetched window's index has not moved since its last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1Q : Rect S1x64x2048 := Rect.unit (s := S1x64x2048) ![0, 0, 0] S1x64x2048.size inb_S1x64x2048_S1x64x2048_0_0_0
abbrev r1D : Rect S64x64 := Rect.unit (s := S64x64) ![0, 0] S64x64.size inb_S64x64_S64x64_0_0
abbrev r1W : Rect S2048x2048 := Rect.unit (s := S2048x2048) ![0, 0] S2048x2048.size inb_S2048x2048_S2048x2048_0_0
abbrev r1R : Rect S1x2048 := Rect.unit (s := S1x2048) ![0, 0] S1x2048.size inb_S1x2048_S1x2048_0_0
abbrev r1A : Rect S1x1 := Rect.unit (s := S1x1) ![0, 0] S1x1.size inb_S1x1_S1x1_0_0

/-- What the body leaves in the output block: its one store, over the whole block, of the rectified projection of
    the normalised retention, a function of the nine input blocks (queries, keys, values, mask, output weights,
    output bias, scale, shift, slope, in the windows' order). -/
def out1_9 (x0 : Vec F S1x64x2048 .f32) (x1 : Vec F S1x64x2048 .f32) (x2 : Vec F S1x64x2048 .f32) (x3 : Vec F S64x64 .f32) (x4 : Vec F S2048x2048 .bf16) (x5 : Vec F S1x2048 .f32) (x6 : Vec F S1x2048 .f32) (x7 : Vec F S1x2048 .f32) (x8 : Vec F S1x1 .f32) : Vec F S1x64x2048 .f32 :=
  View.canon [⟨r1Q, k1_pay1 (k1_pay2 (View.ld x0 r1Q) (View.ld x1 r1Q) (View.ld x2 r1Q) (View.ld x3 r1D) (View.ld x6 r1R)) (k1_pay3 (View.ld x7 r1R))
    (View.ld x4 r1W) (View.ld x5 r1R) (View.ld x8 r1A)⟩]

/-- The one store covers the output block. -/
theorem cover1_9 (p0 : Vec F S1x64x2048 .f32) (y : S1x64x2048.Idx) :
    ∃ pc ∈ ([⟨r1Q, p0⟩] : List (View.Piece (Elt F) S1x64x2048 .f32)), y ∈ pc.1.set :=
  View.cover_of_tiled [⟨r1Q, p0⟩] S1x64x2048.size (by rfl) y

set_option maxHeartbeats 2000000 in
/-- The body's triple: from the nine input buffers at contents `x0 … x8` and the output buffer at anything, it runs
    to the end leaving the inputs as they were and the output at `out1_9 x0 … x8`. -/
theorem sound_kernel1 (c : Dev nD) (E : Set ℕ) (i : grid1.Coords)
    (arg1 : Memref sig .tc .vmem S1x64x2048 .f32) (harg1 : arg1.IsWhole) (arg2 : Memref sig .tc .vmem S1x64x2048 .f32) (harg2 : arg2.IsWhole) (arg3 : Memref sig .tc .vmem S1x64x2048 .f32) (harg3 : arg3.IsWhole) (arg4 : Memref sig .tc .vmem S64x64 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x1 .f32) (harg9 : arg9.IsWhole) (arg10 : Memref sig .tc .vmem S1x64x2048 .f32) (harg10 : arg10.IsWhole)
    (x0 : Vec F S1x64x2048 .f32) (x1 : Vec F S1x64x2048 .f32) (x2 : Vec F S1x64x2048 .f32) (x3 : Vec F S64x64 .f32) (x4 : Vec F S2048x2048 .bf16) (x5 : Vec F S1x2048 .f32) (x6 : Vec F S1x2048 .f32) (x7 : Vec F S1x2048 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-- The region's proof data on core `c`: the windows' arrays as the region finds them; after the body at point `t`
    each input buffer still at its block and the output buffer at `out1_9` of the nine input blocks; the invariant
    is the rest of the scoped memory and the generator register, which the body does not touch; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the input buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for this region, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Frame

end
-- ==== Proof.BitsRun.lean ====
/-
  The run of the whole program: a stretch of host operations, the projection region, a second stretch, the retention
  region, and a last reshape. The contents of the core's buffers are followed through these five segments as a fold
  from the launch memory: a host stretch applies its operations' functions, a region replaces its windows' arrays
  by what the pipeline's write-backs leave and keeps every other buffer. Each region is a segment record built from
  its per-point obligation; the launch theorem for several regions then says that every weakly fair execution
  terminates without a fault in a state whose every unscoped buffer holds the last fold — from which both the
  frame (no segment writes an argument) and the value of the result are read.
-/
import proofs.«172676_j81381040325184_1_alg».proof.Proof.Gen.Kernel.Launch
import proofs.«172676_j81381040325184_1_alg».proof.Proof.Gen.Kernel.Skeleton
import proofs.«172676_j81381040325184_1_alg».proof.Proof.Gen.Kernel.Points
import proofs.«172676_j81381040325184_1_alg».proof.Proof.BitsRegion0
import proofs.«172676_j81381040325184_1_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: the contents the projection region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its windows' arrays at what the pipeline leaves (an input as entered, the output's
    write-backs folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the contents the retention region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its windows' arrays at what the pipeline leaves (an input as entered, the output's
    write-backs folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents at the return. -/
abbrev W5 : Dev nD → Valuation τ sig (Elt F) := fun c => StableHlo.after hostOps2 (W4 m ρ c)

/-! ## The proof data family and the thread state -/

/-- No region has a prefetched table. -/
abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the program allocates a buffer. -/
theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
/-- Region 0 as a segment of the run: entered with every unscoped buffer at `W1`, left with them at `W2`. Its
    windows' arrays are split out of the unscoped buffers on entry and put back, at what the pipeline's write-backs
    leave, on exit; the generator register goes into the region's invariant and comes back; nothing is owed and the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment of the run: entered with every unscoped buffer at `W3`, left with them at `W4`. Its
    windows' arrays are split out of the unscoped buffers on entry and put back, at what the pipeline's write-backs
    leave, on exit; the generator register goes into the region's invariant and comes back; nothing is owed and the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five segments, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ),
    .host (hseg hostOps2 hostOps2_sub ops2_fresh (W4 m ρ)) ]
/-- The program IS the run of the segments. -/
theorem main_run (c : Dev nD) : main (F := F) c = Pipeline.Seg.run (segs m ρ) := (main_chain c).trans (by chain_rfl)

set_option backward.isDefEq.respectTransparency.types false in
/-- THE RUN. From any memory `m` with zero counters, every weakly fair execution of the program on the TensorCores
    terminates, nothing faulting, in a state whose every unscoped buffer holds the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Frame

end
-- ==== Proof.BitsFrame.lean ====
/-
  The frame: every argument array ends holding its launch contents. No host operation writes an argument, the first
  region's windows are all intermediate arrays, and the only argument the second region touches is the decay mask,
  which it reads through an input window (an input window's array is never written back). So the last fold of the
  buffer contents, read at an argument, walks back through the five segments to the launch memory.
-/
import proofs.«172676_j81381040325184_1_alg».proof.Proof.BitsRun
import proofs.«172676_j81381040325184_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no window's array of either region ends as launched. -/
theorem W5_kept (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r hw1
    _ = W2 m ρ c (Proc.devRef .tc r) := StableHlo.after_of_writes_sub hostOps1 _ hostOps1_writes h1
    _ = W1 m ρ c (Proc.devRef .tc r) := W2_of_ne m ρ c r hw0
    _ = W0 m ρ c (Proc.devRef .tc r) := StableHlo.after_of_writes_sub hostOps0 _ hostOps0_writes h0
    _ = m ((c : Thread nD τ).loc r) := rfl

/-- The decay mask is the array of an input window of the second region: kept by the region, written by no one. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- THE FRAME, at any float instance: the program runs to the end without a fault and leaves every argument array
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_kept m ρ c main_arg0 (by decide) (by decide) (by decide) (by decide) (by decide)),
      (h c _ (mem_uc main_arg1 (by decide))).trans (W5_main_arg1 m ρ c),
      (h c _ (mem_uc main_arg2 (by decide))).trans (W5_kept m ρ c main_arg2 (by decide) (by decide) (by decide) (by decide) (by decide)),
      (h c _ (mem_uc main_arg3 (by decide))).trans (W5_kept m ρ c main_arg3 (by decide) (by decide) (by decide) (by decide) (by decide)),
      (h c _ (mem_uc main_arg4 (by decide))).trans (W5_kept m ρ c main_arg4 (by decide) (by decide) (by decide) (by decide) (by decide)),
      (h c _ (mem_uc main_arg5 (by decide))).trans (W5_kept m ρ c main_arg5 (by decide) (by decide) (by decide) (by decide) (by decide)),
      (h c _ (mem_uc main_arg6 (by decide))).trans (W5_kept m ρ c main_arg6 (by decide) (by decide) (by decide) (by decide) (by decide)),
      (h c _ (mem_uc main_arg7 (by decide))).trans (W5_kept m ρ c main_arg7 (by decide) (by decide) (by decide) (by decide) (by decide)),
      (h c _ (mem_uc main_arg8 (by decide))).trans (W5_kept m ρ c main_arg8 (by decide) (by decide) (by decide) (by decide) (by decide)),
      (h c _ (mem_uc main_arg9 (by decide))).trans (W5_kept m ρ c main_arg9 (by decide) (by decide) (by decide) (by decide) (by decide)),
      (h c _ (mem_uc main_arg10 (by decide))).trans (W5_kept m ρ c main_arg10 (by decide) (by decide) (by decide) (by decide) (by decide)),
      (h c _ (mem_uc main_arg11 (by decide))).trans (W5_kept m ρ c main_arg11 (by decide) (by decide) (by decide) (by decide) (by decide)),
      (h c _ (mem_uc main_arg12 (by decide))).trans (W5_kept m ρ c main_arg12 (by decide) (by decide) (by decide) (by decide) (by decide))⟩) (run_all m ρ)

end Cert.Kernel.Frame

end
-- ==== Proof.IdealRegion0.lean ====
/-
  The first kernel region (the fused Q/K/V projection), as the pipeline runs it. The region has four windows: the
  whole [2048, 2048] input matrix, a [2048, 1024] column block of the stacked and transposed weights, the matching
  [1, 1024] piece of the stacked bias, and the [2048, 1024] output block. At each of the six grid points the body
  reads the three input blocks and stores, over the whole output block, the product of the input by the weight
  block plus the bias row broadcast over the rows. This module states what a window's block is at a point, what the
  body leaves in the output block as a function of the three input blocks, the body's Hoare triple, and the
  per-point obligation the pipeline's launch theorem asks for — all at any float instance, and for any contents
  `V` of the buffers at the moment the region is entered.
-/
import proofs.«172676_j81381040325184_1_alg».proof.Proof.Gen.KernelIdeal.Launch
import proofs.«172676_j81381040325184_1_alg».proof.Proof.Gen.KernelIdeal.Skeleton
import proofs.«172676_j81381040325184_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block of the entry contents at every point, whether the
    pipeline fetched it there or not (an unfetched window's index has not moved since its last fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry contents at every point, whether the
    pipeline fetched it there or not (an unfetched window's index has not moved since its last fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block of the entry contents at every point, whether the
    pipeline fetched it there or not (an unfetched window's index has not moved since its last fetch). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rX : Rect S2048x2048 := Rect.unit (s := S2048x2048) ![0, 0] S2048x2048.size inb_S2048x2048_S2048x2048_0_0
abbrev rW : Rect S2048x1024 := Rect.unit (s := S2048x1024) ![0, 0] S2048x1024.size inb_S2048x1024_S2048x1024_0_0
abbrev rB : Rect S1x1024 := Rect.unit (s := S1x1024) ![0, 0] S1x1024.size inb_S1x1024_S1x1024_0_0

/-- What the body leaves in the output block: its one store, over the whole block, of the product-plus-bias of the
    three input blocks. -/
def out0_3 (x0 : Vec F S2048x2048 .bf16) (x1 : Vec F S2048x1024 .bf16) (x2 : Vec F S1x1024 .f32) : Vec F S2048x1024 .f32 :=
  View.canon [⟨rW, k0_pay1 (View.ld x0 rX) (View.ld x1 rW) (View.ld x2 rB)⟩]

/-- The one store covers the output block. -/
theorem cover0_3 (p0 : Vec F S2048x1024 .f32) (y : S2048x1024.Idx) :
    ∃ pc ∈ ([⟨rW, p0⟩] : List (View.Piece (Elt F) S2048x1024 .f32)), y ∈ pc.1.set :=
  View.cover_of_tiled [⟨rW, p0⟩] S2048x1024.size (by rfl) y

set_option maxHeartbeats 1000000 in
/-- The body's triple: from the three input buffers at contents `x0 x1 x2` and the output buffer at anything, it
    runs to the end leaving the inputs as they were and the output at `out0_3 x0 x1 x2`. -/
theorem sound_kernel0 (c : Dev nD) (E : Set ℕ) (i : grid0.Coords)
    (arg1 : Memref sig .tc .vmem S2048x2048 .bf16) (harg1 : arg1.IsWhole) (arg2 : Memref sig .tc .vmem S2048x1024 .bf16) (harg2 : arg2.IsWhole)
    (arg3 : Memref sig .tc .vmem S1x1024 .f32) (harg3 : arg3.IsWhole) (arg4 : Memref sig .tc .vmem S2048x1024 .f32) (harg4 : arg4.IsWhole)
    (x0 : Vec F S2048x2048 .bf16) (x1 : Vec F S2048x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the windows' arrays as the region finds them; after the body at point `t`
    each input buffer still at its block and the output buffer at `out0_3` of the three input blocks; the invariant
    is the rest of the scoped memory and the generator register, which the body does not touch; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation for this region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.IdealRegion1.lean ====
/-
  The second kernel region (retention, group normalisation, output projection and the parametric rectifier), as the
  pipeline runs it, one grid point per batch entry. Ten windows: the batch entry's [1, 64, 2048] blocks of the
  queries, keys and values; the whole [64, 64] decay mask; the whole transposed output weights; the output bias, the
  normalisation's scale and shift as [1, 2048] rows; the rectifier's slope as a [1, 1] array; and the batch entry's
  [1, 64, 2048] output block. The body reads the nine input blocks and stores one value over the whole output block.
  This module states a window's block at a point, what the body leaves in the output block as a function of the nine
  input blocks, the body's Hoare triple, and the per-point obligation of the pipeline's launch theorem, at any float
  instance and for any contents `V` of the buffers when the region is entered.
-/
import proofs.«172676_j81381040325184_1_alg».proof.Proof.Gen.KernelIdeal.Launch
import proofs.«172676_j81381040325184_1_alg».proof.Proof.Gen.KernelIdeal.Skeleton
import proofs.«172676_j81381040325184_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block of the entry contents at every point, whether the
    pipeline fetched it there or not (an unfetched window's index has not moved since its last fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block of the entry contents at every point, whether the
    pipeline fetched it there or not (an unfetched window's index has not moved since its last fetch). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1Q : Rect S1x64x2048 := Rect.unit (s := S1x64x2048) ![0, 0, 0] S1x64x2048.size inb_S1x64x2048_S1x64x2048_0_0_0
abbrev r1D : Rect S64x64 := Rect.unit (s := S64x64) ![0, 0] S64x64.size inb_S64x64_S64x64_0_0
abbrev r1W : Rect S2048x2048 := Rect.unit (s := S2048x2048) ![0, 0] S2048x2048.size inb_S2048x2048_S2048x2048_0_0
abbrev r1R : Rect S1x2048 := Rect.unit (s := S1x2048) ![0, 0] S1x2048.size inb_S1x2048_S1x2048_0_0
abbrev r1A : Rect S1x1 := Rect.unit (s := S1x1) ![0, 0] S1x1.size inb_S1x1_S1x1_0_0

/-- What the body leaves in the output block: its one store, over the whole block, of the rectified projection of
    the normalised retention, a function of the nine input blocks (queries, keys, values, mask, output weights,
    output bias, scale, shift, slope, in the windows' order). -/
def out1_9 (x0 : Vec F S1x64x2048 .f32) (x1 : Vec F S1x64x2048 .f32) (x2 : Vec F S1x64x2048 .f32) (x3 : Vec F S64x64 .f32) (x4 : Vec F S2048x2048 .bf16) (x5 : Vec F S1x2048 .f32) (x6 : Vec F S1x2048 .f32) (x7 : Vec F S1x2048 .f32) (x8 : Vec F S1x1 .f32) : Vec F S1x64x2048 .f32 :=
  View.canon [⟨r1Q, k1_pay1 (k1_pay2 (View.ld x0 r1Q) (View.ld x1 r1Q) (View.ld x2 r1Q) (View.ld x3 r1D) (View.ld x6 r1R)) (k1_pay3 (View.ld x7 r1R))
    (View.ld x4 r1W) (View.ld x5 r1R) (View.ld x8 r1A)⟩]

/-- The one store covers the output block. -/
theorem cover1_9 (p0 : Vec F S1x64x2048 .f32) (y : S1x64x2048.Idx) :
    ∃ pc ∈ ([⟨r1Q, p0⟩] : List (View.Piece (Elt F) S1x64x2048 .f32)), y ∈ pc.1.set :=
  View.cover_of_tiled [⟨r1Q, p0⟩] S1x64x2048.size (by rfl) y

set_option maxHeartbeats 2000000 in
/-- The body's triple: from the nine input buffers at contents `x0 … x8` and the output buffer at anything, it runs
    to the end leaving the inputs as they were and the output at `out1_9 x0 … x8`. -/
theorem sound_kernel1 (c : Dev nD) (E : Set ℕ) (i : grid1.Coords)
    (arg1 : Memref sig .tc .vmem S1x64x2048 .f32) (harg1 : arg1.IsWhole) (arg2 : Memref sig .tc .vmem S1x64x2048 .f32) (harg2 : arg2.IsWhole) (arg3 : Memref sig .tc .vmem S1x64x2048 .f32) (harg3 : arg3.IsWhole) (arg4 : Memref sig .tc .vmem S64x64 .f32) (harg4 : arg4.IsWhole) (arg5 : Memref sig .tc .vmem S2048x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x1 .f32) (harg9 : arg9.IsWhole) (arg10 : Memref sig .tc .vmem S1x64x2048 .f32) (harg10 : arg10.IsWhole)
    (x0 : Vec F S1x64x2048 .f32) (x1 : Vec F S1x64x2048 .f32) (x2 : Vec F S1x64x2048 .f32) (x3 : Vec F S64x64 .f32) (x4 : Vec F S2048x2048 .bf16) (x5 : Vec F S1x2048 .f32) (x6 : Vec F S1x2048 .f32) (x7 : Vec F S1x2048 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-- The region's proof data on core `c`: the windows' arrays as the region finds them; after the body at point `t`
    each input buffer still at its block and the output buffer at `out1_9` of the nine input blocks; the invariant
    is the rest of the scoped memory and the generator register, which the body does not touch; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the input buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation for this region, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Frame

end
-- ==== Proof.IdealRun.lean ====
/-
  The run of the whole program: a stretch of host operations, the projection region, a second stretch, the retention
  region, and a last reshape. The contents of the core's buffers are followed through these five segments as a fold
  from the launch memory: a host stretch applies its operations' functions, a region replaces its windows' arrays
  by what the pipeline's write-backs leave and keeps every other buffer. Each region is a segment record built from
  its per-point obligation; the launch theorem for several regions then says that every weakly fair execution
  terminates without a fault in a state whose every unscoped buffer holds the last fold — from which both the
  frame (no segment writes an argument) and the value of the result are read.
-/
import proofs.«172676_j81381040325184_1_alg».proof.Proof.Gen.KernelIdeal.Launch
import proofs.«172676_j81381040325184_1_alg».proof.Proof.Gen.KernelIdeal.Skeleton
import proofs.«172676_j81381040325184_1_alg».proof.Proof.Gen.KernelIdeal.Points
import proofs.«172676_j81381040325184_1_alg».proof.Proof.IdealRegion0
import proofs.«172676_j81381040325184_1_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: the contents the projection region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its windows' arrays at what the pipeline leaves (an input as entered, the output's
    write-backs folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the contents the retention region is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its windows' arrays at what the pipeline leaves (an input as entered, the output's
    write-backs folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents at the return. -/
abbrev W5 : Dev nD → Valuation τ sig (Elt F) := fun c => StableHlo.after hostOps2 (W4 m ρ c)

/-! ## The proof data family and the thread state -/

/-- No region has a prefetched table. -/
abbrev adm : (p : Fin 2) → (pcfgs (F := F) p).Adm := fun p => (cfgs p).toPCfg_adm
/-- Each region's proof data at its own entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the program allocates a buffer. -/
theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tₙ (c : Dev nD) : sProp 𝕄 := iprop(StableHlo.held (c : Thread nD τ) (Pipeline.ucRefs τ sig) (W5 m ρ c) ∗ ∃ r, prngReg c r)

/-! ## The regions as segments -/

-- a library lemma stated over the pinned configuration unifies with the printed one only when unification may unfold
-- plain definitions in a metavariable's type
set_option backward.isDefEq.respectTransparency.types false in
/-- Region 0 as a segment of the run: entered with every unscoped buffer at `W1`, left with them at `W2`. Its
    windows' arrays are split out of the unscoped buffers on entry and put back, at what the pipeline's write-backs
    leave, on exit; the generator register goes into the region's invariant and comes back; nothing is owed and the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 as a segment of the run: entered with every unscoped buffer at `W3`, left with them at `W4`. Its
    windows' arrays are split out of the unscoped buffers on entry and put back, at what the pipeline's write-backs
    leave, on exit; the generator register goes into the region's invariant and comes back; nothing is owed and the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its five segments, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ),
    .host (hseg hostOps2 hostOps2_sub ops2_fresh (W4 m ρ)) ]
/-- The program IS the run of the segments. -/
theorem main_run (c : Dev nD) : main (F := F) c = Pipeline.Seg.run (segs m ρ) := (main_chain c).trans (by chain_rfl)

set_option backward.isDefEq.respectTransparency.types false in
/-- THE RUN. From any memory `m` with zero counters, every weakly fair execution of the program on the TensorCores
    terminates, nothing faulting, in a state whose every unscoped buffer holds the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Frame

end
-- ==== Proof.IdealFrame.lean ====
/-
  The frame: every argument array ends holding its launch contents. No host operation writes an argument, the first
  region's windows are all intermediate arrays, and the only argument the second region touches is the decay mask,
  which it reads through an input window (an input window's array is never written back). So the last fold of the
  buffer contents, read at an argument, walks back through the five segments to the launch memory.
-/
import proofs.«172676_j81381040325184_1_alg».proof.Proof.IdealRun
import proofs.«172676_j81381040325184_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no window's array of either region ends as launched. -/
theorem W5_kept (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r hw1
    _ = W2 m ρ c (Proc.devRef .tc r) := StableHlo.after_of_writes_sub hostOps1 _ hostOps1_writes h1
    _ = W1 m ρ c (Proc.devRef .tc r) := W2_of_ne m ρ c r hw0
    _ = W0 m ρ c (Proc.devRef .tc r) := StableHlo.after_of_writes_sub hostOps0 _ hostOps0_writes h0
    _ = m ((c : Thread nD τ).loc r) := rfl

/-- The decay mask is the array of an input window of the second region: kept by the region, written by no one. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- THE FRAME, at any float instance: the program runs to the end without a fault and leaves every argument array
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_kept m ρ c main_arg0 (by decide) (by decide) (by decide) (by decide) (by decide)),
      (h c _ (mem_uc main_arg1 (by decide))).trans (W5_main_arg1 m ρ c),
      (h c _ (mem_uc main_arg2 (by decide))).trans (W5_kept m ρ c main_arg2 (by decide) (by decide) (by decide) (by decide) (by decide)),
      (h c _ (mem_uc main_arg3 (by decide))).trans (W5_kept m ρ c main_arg3 (by decide) (by decide) (by decide) (by decide) (by decide)),
      (h c _ (mem_uc main_arg4 (by decide))).trans (W5_kept m ρ c main_arg4 (by decide) (by decide) (by decide) (by decide) (by decide)),
      (h c _ (mem_uc main_arg5 (by decide))).trans (W5_kept m ρ c main_arg5 (by decide) (by decide) (by decide) (by decide) (by decide)),
      (h c _ (mem_uc main_arg6 (by decide))).trans (W5_kept m ρ c main_arg6 (by decide) (by decide) (by decide) (by decide) (by decide)),
      (h c _ (mem_uc main_arg7 (by decide))).trans (W5_kept m ρ c main_arg7 (by decide) (by decide) (by decide) (by decide) (by decide)),
      (h c _ (mem_uc main_arg8 (by decide))).trans (W5_kept m ρ c main_arg8 (by decide) (by decide) (by decide) (by decide) (by decide)),
      (h c _ (mem_uc main_arg9 (by decide))).trans (W5_kept m ρ c main_arg9 (by decide) (by decide) (by decide) (by decide) (by decide)),
      (h c _ (mem_uc main_arg10 (by decide))).trans (W5_kept m ρ c main_arg10 (by decide) (by decide) (by decide) (by decide) (by decide)),
      (h c _ (mem_uc main_arg11 (by decide))).trans (W5_kept m ρ c main_arg11 (by decide) (by decide) (by decide) (by decide) (by decide)),
      (h c _ (mem_uc main_arg12 (by decide))).trans (W5_kept m ρ c main_arg12 (by decide) (by decide) (by decide) (by decide) (by decide))⟩) (run_all m ρ)

end Cert.KernelIdeal.Frame

end
-- ==== Proof.IdealRunVal.lean ====
/-
  The kernel program's run with its result named: every weakly fair execution terminates, nothing faulting, with the
  result buffer holding the last fold of the buffer contents read at that buffer, and every argument as launched.
-/
import proofs.«172676_j81381040325184_1_alg».proof.Proof.IdealFrame
import Idealize.ShloMosaic.PureOps.Ideal

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_val : θ_run defs (onTc (τ := τ) (main (F := F))) ⟨m, fun _ => 0, ρ⟩ (fun r => ∀ c : Dev nD,
      r.2.mem ((c.tc : Thread nD τ).loc main_v19) = W5 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v19 (by decide)),
      (h c _ (mem_uc main_arg0 (by decide))).trans (W5_kept m ρ c main_arg0 (by decide) (by decide) (by decide) (by decide) (by decide)),
      (h c _ (mem_uc main_arg1 (by decide))).trans (W5_main_arg1 m ρ c),
      (h c _ (mem_uc main_arg2 (by decide))).trans (W5_kept m ρ c main_arg2 (by decide) (by decide) (by decide) (by decide) (by decide)),
      (h c _ (mem_uc main_arg3 (by decide))).trans (W5_kept m ρ c main_arg3 (by decide) (by decide) (by decide) (by decide) (by decide)),
      (h c _ (mem_uc main_arg4 (by decide))).trans (W5_kept m ρ c main_arg4 (by decide) (by decide) (by decide) (by decide) (by decide)),
      (h c _ (mem_uc main_arg5 (by decide))).trans (W5_kept m ρ c main_arg5 (by decide) (by decide) (by decide) (by decide) (by decide)),
      (h c _ (mem_uc main_arg6 (by decide))).trans (W5_kept m ρ c main_arg6 (by decide) (by decide) (by decide) (by decide) (by decide)),
      (h c _ (mem_uc main_arg7 (by decide))).trans (W5_kept m ρ c main_arg7 (by decide) (by decide) (by decide) (by decide) (by decide)),
      (h c _ (mem_uc main_arg8 (by decide))).trans (W5_kept m ρ c main_arg8 (by decide) (by decide) (by decide) (by decide) (by decide)),
      (h c _ (mem_uc main_arg9 (by decide))).trans (W5_kept m ρ c main_arg9 (by decide) (by decide) (by decide) (by decide) (by decide)),
      (h c _ (mem_uc main_arg10 (by decide))).trans (W5_kept m ρ c main_arg10 (by decide) (by decide) (by decide) (by decide) (by decide)),
      (h c _ (mem_uc main_arg11 (by decide))).trans (W5_kept m ρ c main_arg11 (by decide) (by decide) (by decide) (by decide) (by decide)),
      (h c _ (mem_uc main_arg12 (by decide))).trans (W5_kept m ρ c main_arg12 (by decide) (by decide) (by decide) (by decide) (by decide))⟩) (run_all m ρ)

end Cert.KernelIdeal.Frame

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.KPay0.lean ====
/-
  The first kernel body's stored value, read at one entry, at the exact (extended-real) values.

  The body multiplies a block of 2048 rows of 2048 features by a 2048 × 1024 block of weights, accumulating into
  zero, and adds a bias row of 1024 entries to every row of the product.  So the entry at row `r`, column `j` is
  `(∑ i, x (r, i) · w (i, j)) + bias (0, j)`: a plain finite sum of products plus one term.  The two casts of a block
  to its own shape are the identity, a change of float format is the identity at the exact values, and the zero word
  the product accumulates into is the extended real `0`.
-/
import proofs.«172676_j81381040325184_1_alg».proof.Proof.Gen.KernelIdeal.Skeleton
import proofs.«172676_j81381040325184_1_alg».proof.Proof.LibMatProd
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Idealize.ShloMosaic Idealize.ShloMosaic.ValueIdx Cert.KernelIdeal Cert.KernelIdeal.Gen

/-- The first body's dimension record contracts the rows' 2048 features with the weight block's 2048 rows. -/
theorem contracts_k0 : Cert.Linear.Contracts dot_S2048x2048_S2048x1024_S2048x1024_1_0_0_1_n_n where
  rank := rfl
  size := rfl
  lhs0 := fun i q => by
    unfold DotDims.lhsIdx
    rw [dif_neg (by decide), dif_pos (by decide)]
    rfl
  lhs1 := fun i q => DotDims.lhsIdx_val_of_single _ rfl i q
  rhs0 := fun i q => DotDims.rhsIdx_val_of_single _ rfl i q
  rhs1 := fun i q => by
    unfold DotDims.rhsIdx
    rw [dif_neg (by decide), dif_pos (by decide)]
    rfl

/-- THE FIRST BODY'S VALUE AT `(r, j)`: row `r` of the block against column `j` of the weights, plus the bias at `j`. -/
theorem k0_pay1_apply (x0 : Vec Ideal S2048x2048 .bf16) (x1 : Vec Ideal S2048x1024 .bf16) (x2 : Vec Ideal S1x1024 .f32)
    (r : Fin 2048) (j : Fin 1024) :
    k0_pay1 (F := Ideal) x0 x1 x2 (ix2 r j) = (∑ i : Fin 2048, x0 (ix2 r i) * x1 (ix2 i j)) + x2 (ix2 0 j) := by
  unfold k0_pay1
  rw [shapeCast_self, shapeCast_self, shapeCast_self]
  refine (addf_apply _ _ _).trans ?_
  refine congrArg₂ (· + ·) ?_ ?_
  · exact congrFun (Cert.Linear.matmul_zero_eq contracts_k0 none
      (x0 : FVec Ideal S2048x2048 .bf16) (x1 : FVec Ideal S2048x1024 .bf16)) (ix2 r j)
  · exact broadcastTo_1b_ab_apply x2 _ r j

end Cert.KernelIdeal.KPay

end
-- ==== Proof.IdealValue0.lean ====
/-
  The first region's result as ONE function of the three arrays it reads. At grid point t the body writes, over the
  t-th [2048, 1024] column block of the [2048, 6144] result, the product of the whole [2048, 2048] input by the t-th
  column block of the stacked weights plus the t-th piece of the stacked bias; the six blocks tile the result, so the
  result array is G0: entry (r, col) = Σ_k X(r, k) · Wt(k, col) + Bt(0, col).
-/
import proofs.«172676_j81381040325184_1_alg».proof.Proof.IdealRun
import proofs.«172676_j81381040325184_1_alg».proof.Proof.KPay0
import Idealize.ShloMosaic.Lib.Pipeline.Value
import Idealize.ShloMosaic.Lib.ValueIdx
import Idealize.ShloMosaic.PureOps.Ideal

set_option maxRecDepth 16384

noncomputable section

namespace Cert.KernelIdeal.KValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- Entry (r, col) of the projection: the row of the input against the column of the weights, plus the bias. -/
def G0 (X : S2048x2048.Idx → EReal) (Wt : S2048x6144.Idx → EReal) (Bt : S1x6144.Idx → EReal) : S2048x6144.Idx → EReal :=
  fun i => (∑ k : Fin 2048, X (ix2 (⟨(i 0).val, (i 0).isLt⟩ : Fin 2048) k) * Wt (ix2 k (⟨(i 1).val, (i 1).isLt⟩ : Fin 6144)))
    + Bt (ix2 (0 : Fin 1) (⟨(i 1).val, (i 1).isLt⟩ : Fin 6144))

theorem hz2 : (![0, 0] : Fin 2 → Nat) = fun _ => 0 := funext fun a => by fin_cases a <;> rfl

/-- Where each window's block sits at point t: the input whole; the weights', the bias's and the result's blocks
    the t-th along the columns. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val ∧ t.val < 6 :=
  (by decide +kernel : ∀ t : Fin grid0.N, _)

/-- The body's value at one entry of the block, for blocks that are the t-th pieces of three arrays. -/
theorem point0 (x0 : Vec Ideal S2048x2048 .bf16) (x1 : Vec Ideal S2048x1024 .bf16) (x2 : Vec Ideal S1x1024 .f32)
    (X : S2048x2048.Idx → EReal) (Wt : S2048x6144.Idx → EReal) (Bt : S1x6144.Idx → EReal) (tv : Nat) (htv : tv < 6)
    (h0 : ∀ (p i : Fin 2048), x0 (ix2 p i) = X (ix2 p i))
    (h1 : ∀ (i : Fin 2048) (q : Fin 1024), x1 (ix2 i q) = Wt (ix2 i (⟨tv * 1024 + q.val, by omega⟩ : Fin 6144)))
    (h2 : ∀ (q : Fin 1024), x2 (ix2 (0 : Fin 1) q) = Bt (ix2 (0 : Fin 1) (⟨tv * 1024 + q.val, by omega⟩ : Fin 6144)))
    (p : Fin 2048) (q : Fin 1024) :
    k0_pay1 (F := Ideal) x0 x1 x2 (ix2 p q) = G0 X Wt Bt (ix2 p (⟨tv * 1024 + q.val, by omega⟩ : Fin 6144)) := by
  rw [Cert.KernelIdeal.KPay.k0_pay1_apply]
  unfold G0
  simp only [h0, h1, h2]

variable (V : (c : Dev nD) → (b : Ref sig .tc) → Buf (Elt Ideal) ((c : Thread nD τ).loc b)) (c : Dev nD)

/-- The input window's block at any point is the whole input array. -/
theorem blk0_0_apply (t : Fin cfg0.N) (p i : Fin 2048) :
    iblk0 V c 0 t (ix2 p i) = V c (Pipeline.arrRef spec0 0) (ix2 p i) := by
  obtain ⟨e00, e01, e10, e11, e20, e21, e30, e31, ht⟩ := idx_facts0 t
  show V c (Pipeline.arrRef spec0 0) (((cfg0.win 0).blk t).view.emb (ix2 p i)) = V c (Pipeline.arrRef spec0 0) (ix2 p i)
  refine congrArg (V c (Pipeline.arrRef spec0 0)) (funext fun a => Fin.ext ?_)
  match a with
  | ⟨0, _⟩ => show win0_0.index t (0 : Fin 2) * 2048 + 1 * p.val = p.val; omega
  | ⟨1, _⟩ => show win0_0.index t (1 : Fin 2) * 2048 + 1 * i.val = i.val; omega

/-- The weights' block at point t is the t-th column block of the stacked weights. -/
theorem blk0_1_apply (t : Fin cfg0.N) (ht : t.val < 6) (i : Fin 2048) (q : Fin 1024) :
    iblk0 V c 1 t (ix2 i q) = V c (Pipeline.arrRef spec0 1) (ix2 i (⟨t.val * 1024 + q.val, by omega⟩ : Fin 6144)) := by
  obtain ⟨e00, e01, e10, e11, e20, e21, e30, e31, -⟩ := idx_facts0 t
  show V c (Pipeline.arrRef spec0 1) (((cfg0.win 1).blk t).view.emb (ix2 i q)) = V c (Pipeline.arrRef spec0 1) (ix2 i (⟨t.val * 1024 + q.val, by omega⟩ : Fin 6144))
  refine congrArg (V c (Pipeline.arrRef spec0 1)) (funext fun a => Fin.ext ?_)
  match a with
  | ⟨0, _⟩ => show win0_1.index t (0 : Fin 2) * 2048 + 1 * i.val = i.val; omega
  | ⟨1, _⟩ => show win0_1.index t (1 : Fin 2) * 1024 + 1 * q.val = t.val * 1024 + q.val; omega

/-- The bias's block at point t is the t-th piece of the stacked bias. -/
theorem blk0_2_apply (t : Fin cfg0.N) (ht : t.val < 6) (q : Fin 1024) :
    iblk0 V c 2 t (ix2 (0 : Fin 1) q) = V c (Pipeline.arrRef spec0 2) (ix2 (0 : Fin 1) (⟨t.val * 1024 + q.val, by omega⟩ : Fin 6144)) := by
  obtain ⟨e00, e01, e10, e11, e20, e21, e30, e31, -⟩ := idx_facts0 t
  show V c (Pipeline.arrRef spec0 2) (((cfg0.win 2).blk t).view.emb (ix2 (0 : Fin 1) q)) = V c (Pipeline.arrRef spec0 2) (ix2 (0 : Fin 1) (⟨t.val * 1024 + q.val, by omega⟩ : Fin 6144))
  refine congrArg (V c (Pipeline.arrRef spec0 2)) (funext fun a => Fin.ext ?_)
  match a with
  | ⟨0, _⟩ => show win0_2.index t (0 : Fin 2) * 1 + 1 * 0 = 0; omega
  | ⟨1, _⟩ => show win0_2.index t (1 : Fin 2) * 1024 + 1 * q.val = t.val * 1024 + q.val; omega

/-- WHAT POINT t WRITES BACK is block t of G0 of the three arrays as the region finds them. -/
theorem flushed3_eq (t : Fin cfg0.N) :
    (dat0 V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S2048x2048) hz2, View.ld_unit_zero (S := S2048x1024) hz2, View.ld_unit_zero (S := S1x1024) hz2]
  obtain ⟨e00, e01, e10, e11, e20, e21, e30, e31, ht⟩ := idx_facts0 t
  funext j
  obtain ⟨p, q, rfl⟩ : ∃ (p : Fin 2048) (q : Fin 1024), j = ix2 p q := ⟨j 0, j 1, eq_ix2 j⟩
  refine (point0 _ _ _ _ _ _ t.val ht (blk0_0_apply V c t) (blk0_1_apply V c t ht) (blk0_2_apply V c t ht) p q).trans ?_
  rw [View.read_apply]
  refine congrArg _ (funext fun a => Fin.ext ?_)
  match a with
  | ⟨0, _⟩ => show p.val = win0_3.index t (0 : Fin 2) * 2048 + 1 * p.val; omega
  | ⟨1, _⟩ => show t.val * 1024 + q.val = win0_3.index t (1 : Fin 2) * 1024 + 1 * q.val; omega

/-- An index of the result is in point t's block iff each coordinate is in the block's range on its axis. -/
theorem mem_blk3 (t : Fin cfg0.N) (i : S2048x6144.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v7).slice (win0_3.rect t)).set ↔ _
  rw [View.set_slice_whole, Rect.mem_set_unit]
  exact Iff.rfl

/-- Every block index 0 … 5 along the columns is some point's. -/
theorem idx_onto3 : ∀ (q1 : Fin 6), ∃ t : Fin cfg0.N, win0_3.index t = ![0, q1.val] :=
  (by decide +kernel : ∀ (q1 : Fin 6), ∃ t : Fin grid0.N, win0_3.index t = ![0, q1.val])

/-- The six blocks cover the result. -/
theorem cover3 (i : S2048x6144.Idx) : ∃ t : Fin cfg0.N, (cfg0.win 3).flush t = true ∧ i ∈ ((cfg0.win 3).blk t).view.set := by
  have hi0 : (i 0).val < 2048 := (i 0).isLt
  have hi1 : (i 1).val < 6144 := (i 1).isLt
  obtain ⟨t, ht⟩ := idx_onto3 ⟨(i 1).val / 1024, by omega⟩
  have q0 : win0_3.index t (0 : Fin 2) = 0 := congrFun ht 0
  have q1 : win0_3.index t (1 : Fin 2) = (i 1).val / 1024 := congrFun ht 1
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- THE RESULT ARRAY after the region: G0 of the three arrays the region reads. -/
theorem final3 : (dat0 V c).arrAt 3 cfg0.N
    = G0 (V c (Pipeline.arrRef spec0 0)) (V c (Pipeline.arrRef spec0 1)) (V c (Pipeline.arrRef spec0 2)) :=
  (dat0 V c).arrAt_eq_of_cover 3 _ (fun t _ => flushed3_eq V c t) (cover3)

end Cert.KernelIdeal.KValue

end
-- ==== Proof.KPay1Defs.lean ====
/-
  The second kernel body's first stored value cut at its one seam: the retention block, and the group
  normalisation of a block.

  The body first forms, for one batch entry, the scores `(q · kᵀ) ∘ dg` (a 64 × 64 product of the queries against
  the transposed keys, multiplied entrywise by the decay matrix) and applies them to the values: the retention block
  `retV`, 64 tokens by 2048 channels.  It then normalises that block per group of 64 channels and scales it by the
  per-channel row `gw`: `gnV`.  Both are spelled here operation by operation as the body spells them, so that the
  body's value is `gnV (retV q k v dg) gw` by unfolding, and each half is read at an index in a module of its own.
-/
import proofs.«172676_j81381040325184_1_alg».proof.Proof.Gen.KernelIdeal.Skeleton
import proofs.«172676_j81381040325184_1_alg».proof.Proof.LibMatProd

noncomputable section

namespace Cert.KernelIdeal.KPay

open Idealize.ShloMosaic Cert.KernelIdeal Cert.KernelIdeal.Gen

/-- The retention block of one batch entry: `((q · kᵀ) ∘ dg) · v`, as the body spells it. -/
def retV (q k v : Vec Ideal S1x64x2048 .f32) (dg : Vec Ideal S64x64 .f32) : FVec Ideal S64x2048 .f32 :=
  have v1 : FVec Ideal S64x2048 .f32 := shapeCast S64x2048 q shapeCasts_S1x64x2048_S64x2048
  have v3 : FVec Ideal S64x2048 .f32 := shapeCast S64x2048 k shapeCasts_S1x64x2048_S64x2048
  have v5 : FVec Ideal S64x2048 .f32 := shapeCast S64x2048 v shapeCasts_S1x64x2048_S64x2048
  have v6 : FVec Ideal S2048x64 .f32 := transpose S2048x64 [1, 0] v3 transposes_S64x2048_p1_0_S2048x64
  have cst : FVec Ideal S64x64 .f32 := constant S64x64 .f32 0x00000000#32
  have v7 : FVec Ideal S64x64 .f32 := matmul dot_S64x2048_S2048x64_S64x64_1_0_0_1_n_n none v1 v6 cst
  have v9 : FVec Ideal S64x64 .f32 := mulf v7 dg
  have cst_10 : FVec Ideal S64x2048 .f32 := constant S64x2048 .f32 0x00000000#32
  matmul dot_S64x64_S64x2048_S64x2048_1_0_0_1_n_n none v9 v5 cst_10

/-- The group normalisation of a 64 × 2048 block, scaled by the row `gw`, as the body spells it: the block viewed as
    64 × 32 × 64, its sums and sums of squares over tokens and lanes divided by the count, the variance as their
    difference, and the centred block times the reciprocal root. -/
def gnV (v10 : FVec Ideal S64x2048 .f32) (v31 : Vec Ideal S1x2048 .f32) : FVec Ideal S64x2048 .f32 :=
  have v11 : FVec Ideal S64x32x64 .f32 := shapeCast S64x32x64 v10 shapeCasts_S64x2048_S64x32x64
  have v12 : FVec Ideal S32 .f32 := multiReduction .add [0, 2] S32 v11 0x00000000#32 reduces_S64x32x64_S32 (.inl rfl) rfl
  have v13 : FVec Ideal S1x32x1 .f32 := shapeCast S1x32x1 v12 shapeCasts_S32_S1x32x1
  have cst_12 : Ideal .f32 := Scalar.ofBits .f32 0x45800000#32
  have v14 : FVec Ideal S1x32x1 .f32 := broadcast S1x32x1 cst_12
  have v15 : FVec Ideal S1x32x1 .f32 := divf v13 v14
  have v16 : FVec Ideal S64x32x64 .f32 := mulf v11 v11
  have v17 : FVec Ideal S32 .f32 := multiReduction .add [0, 2] S32 v16 0x00000000#32 reduces_S64x32x64_S32 (.inl rfl) rfl
  have v18 : FVec Ideal S1x32x1 .f32 := shapeCast S1x32x1 v17 shapeCasts_S32_S1x32x1
  have cst_14 : Ideal .f32 := Scalar.ofBits .f32 0x45800000#32
  have v19 : FVec Ideal S1x32x1 .f32 := broadcast S1x32x1 cst_14
  have v20 : FVec Ideal S1x32x1 .f32 := divf v18 v19
  have v21 : FVec Ideal S1x32x1 .f32 := mulf v15 v15
  have v22 : FVec Ideal S1x32x1 .f32 := subf v20 v21
  have v23 : FVec Ideal S64x32x64 .f32 := broadcastTo S64x32x64 v15 broadcasts_S1x32x1_S64x32x64
  have v24 : FVec Ideal S64x32x64 .f32 := subf v11 v23
  have cst_15 : Ideal .f32 := Scalar.ofBits .f32 0x3727C5AC#32
  have v25 : FVec Ideal S1x32x1 .f32 := broadcast S1x32x1 cst_15
  have v26 : FVec Ideal S1x32x1 .f32 := addf v22 v25
  have v27 : FVec Ideal S1x32x1 .f32 := rsqrt v26
  have v28 : FVec Ideal S64x32x64 .f32 := broadcastTo S64x32x64 v27 broadcasts_S1x32x1_S64x32x64
  have v29 : FVec Ideal S64x32x64 .f32 := mulf v24 v28
  have v30 : FVec Ideal S64x2048 .f32 := shapeCast S64x2048 v29 shapeCasts_S64x32x64_S64x2048
  have v32 : FVec Ideal S1x2048 .f32 := shapeCast S1x2048 v31 shapeCasts_S1x2048_S1x2048
  have v33 : FVec Ideal S64x2048 .f32 := broadcastTo S64x2048 v32 broadcasts_S1x2048_S64x2048
  mulf v30 v33

/-- The body's first stored value is the normalisation of the retention block. -/
theorem k1_pay2_eq (q k v : Vec Ideal S1x64x2048 .f32) (dg : Vec Ideal S64x64 .f32) (gw : Vec Ideal S1x2048 .f32) :
    k1_pay2 (F := Ideal) q k v dg gw = gnV (retV q k v dg) gw := rfl

/-- The scores' dimension record contracts the queries' 2048 channels with the transposed keys' 2048 rows. -/
theorem contracts_qk : Cert.Linear.Contracts dot_S64x2048_S2048x64_S64x64_1_0_0_1_n_n where
  rank := rfl
  size := rfl
  lhs0 := fun i q => by
    unfold DotDims.lhsIdx
    rw [dif_neg (by decide), dif_pos (by decide)]
    rfl
  lhs1 := fun i q => DotDims.lhsIdx_val_of_single _ rfl i q
  rhs0 := fun i q => DotDims.rhsIdx_val_of_single _ rfl i q
  rhs1 := fun i q => by
    unfold DotDims.rhsIdx
    rw [dif_neg (by decide), dif_pos (by decide)]
    rfl

/-- The retention's dimension record contracts the scores' 64 source tokens with the values' 64 rows. -/
theorem contracts_sv : Cert.Linear.Contracts dot_S64x64_S64x2048_S64x2048_1_0_0_1_n_n where
  rank := rfl
  size := rfl
  lhs0 := fun i q => by
    unfold DotDims.lhsIdx
    rw [dif_neg (by decide), dif_pos (by decide)]
    rfl
  lhs1 := fun i q => DotDims.lhsIdx_val_of_single _ rfl i q
  rhs0 := fun i q => DotDims.rhsIdx_val_of_single _ rfl i q
  rhs1 := fun i q => by
    unfold DotDims.rhsIdx
    rw [dif_neg (by decide), dif_pos (by decide)]
    rfl

/-- The output projection's dimension record contracts the 2048 channels with the weight block's 2048 rows. -/
theorem contracts_out : Cert.Linear.Contracts dot_S64x2048_S2048x2048_S64x2048_1_0_0_1_n_n where
  rank := rfl
  size := rfl
  lhs0 := fun i q => by
    unfold DotDims.lhsIdx
    rw [dif_neg (by decide), dif_pos (by decide)]
    rfl
  lhs1 := fun i q => DotDims.lhsIdx_val_of_single _ rfl i q
  rhs0 := fun i q => DotDims.rhsIdx_val_of_single _ rfl i q
  rhs1 := fun i q => by
    unfold DotDims.rhsIdx
    rw [dif_neg (by decide), dif_pos (by decide)]
    rfl

end Cert.KernelIdeal.KPay

end
-- ==== Proof.KPay1Ret.lean ====
/-
  The retention block read at one entry, at the exact (extended-real) values.

  Entry `(t, d)` of `((q · kᵀ) ∘ dg) · v` is `∑ s, ((∑ e, q (t, e) · k (s, e)) · dg (t, s)) · v (s, d)`: the outer
  product contracts the 64 source tokens `s`, the inner one the 2048 channels `e`; the transposed keys hold at
  `(e, s)` the keys' entry `(s, e)`; the blocks arrive with a leading unit axis, dropped by a cast that reads
  `(0, t, e)` at `(t, e)`; both products accumulate into zero.
-/
import proofs.«172676_j81381040325184_1_alg».proof.Proof.KPay1Defs
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KPay

open Idealize.ShloMosaic Idealize.ShloMosaic.ValueIdx Cert.KernelIdeal Cert.KernelIdeal.Gen

/-- THE RETENTION BLOCK AT `(t, d)`: the scores of token `t` against every source token `s`, each times the decay
    `dg (t, s)`, applied to the values' channel `d`. -/
theorem retV_apply (q k v : Vec Ideal S1x64x2048 .f32) (dg : Vec Ideal S64x64 .f32) (t : Fin 64) (d : Fin 2048) :
    retV q k v dg (ix2 t d)
      = ∑ s : Fin 64, ((∑ e : Fin 2048, q (ix3 0 t e) * k (ix3 0 s e)) * dg (ix2 t s)) * v (ix3 0 s d) := by
  unfold retV
  refine (congrFun (Cert.Linear.matmul_zero_eq contracts_sv none _ _) (ix2 t d)).trans ?_
  unfold Cert.Linear.matProd
  refine Finset.sum_congr rfl fun s _ => ?_
  refine congrArg₂ (· * ·) ?_ (shapeCast_1ab_ab_apply v _ s d)
  refine (mulf_apply _ _ _).trans ?_
  refine congrArg (· * dg (ix2 t s)) ?_
  refine (congrFun (Cert.Linear.matmul_zero_eq contracts_qk none _ _) (ix2 t s)).trans ?_
  unfold Cert.Linear.matProd
  refine Finset.sum_congr rfl fun e _ => ?_
  refine congrArg₂ (· * ·) (shapeCast_1ab_ab_apply q _ t e) ?_
  exact (transpose_ix2_apply _ _ e s).trans (shapeCast_1ab_ab_apply k _ s e)

end Cert.KernelIdeal.KPay

end
-- ==== Proof.LibReduce02.lean ====
/-
  A host float sum over the two outer axes of a rank-3 array, read at the exact (extended-real) values.

  The sum over axes 0 and 2 of x : [n0, n1, n2] is the rank-1 array whose entry j is the initial value plus
  ∑ a, ∑ c, x[a, j, c].  The reduction is defined as a sum over the set of source indices whose kept coordinate is j;
  that set is {(a, j, c)}, which the lemma re-indexes by (a, c).
-/
import Idealize.ShloMosaic.PureOps.Ideal.Laws
import Idealize.ShloMosaic.Lib.ValueIdx

noncomputable section

namespace Cert.LibReduce02

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping axes 0 and 2 of a rank-3 index keeps its middle coordinate: the dropped index is `j` exactly when the
    middle coordinate is `j`. -/
theorem drop_axes02_eq_iff {n0 n1 n2 : Nat} (h' : (⟨3, ![n0, n1, n2]⟩ : Shape).ReducesTo [0, 2] ⟨1, ![n1]⟩)
    (i : (⟨3, ![n0, n1, n2]⟩ : Shape).Idx) (j : Fin n1) : h'.drop i = ix1 j ↔ i 1 = j := by
  have hv : ((h'.drop i 0 : Fin n1) : Nat) = (i 1 : Fin n1) := rfl
  constructor
  · intro h
    have h0 : h'.drop i 0 = j := congrFun h 0
    exact Fin.ext (by rw [← hv, h0])
  · intro h
    funext b
    match b with
    | ⟨0, _⟩ => exact Fin.ext (by rw [← h]; exact hv)

/-- The host's float sum over axes 0 and 2 of a rank-3 array, at the exact values: entry `j` of the result is the
    initial value plus the double sum, over the two reduced coordinates, of the array's entries at middle coordinate `j`. -/
theorem hostReduceAdd_axes02 {n0 n1 n2 : Nat} (h' : (⟨3, ![n0, n1, n2]⟩ : Shape).ReducesTo [0, 2] ⟨1, ![n1]⟩)
    (x : (⟨3, ![n0, n1, n2]⟩ : Shape).Idx → EReal) (init : EReal) (j : Fin n1) :
    Ideal.hostReduceAdd h' x init (ix1 j) = init + ∑ a : Fin n0, ∑ c : Fin n2, x (ix3 a j c) := by
  unfold Ideal.hostReduceAdd
  congr 1
  rw [Finset.sum_filter, sum_idx3]
  refine Finset.sum_congr rfl fun a _ => ?_
  rw [Finset.sum_comm]
  refine Finset.sum_congr rfl fun c _ => ?_
  have hb : ∀ b : Fin n1, (if h'.drop (ix3 a b c) = ix1 j then x (ix3 a b c) else 0)
      = if b = j then x (ix3 a b c) else 0 :=
    fun b => if_congr (drop_axes02_eq_iff h' (ix3 a b c) j) rfl rfl
  rw [Finset.sum_congr rfl fun b _ => hb b, Finset.sum_ite_eq' Finset.univ j (fun b => x (ix3 a b c)),
    if_pos (Finset.mem_univ j)]

end Cert.LibReduce02

end
-- ==== Proof.LibGroups.lean ====
/-
  GENERAL LEMMAS: a matrix whose columns fall into groups of equal width, viewed as a rank-3 array, and the layout of
  per-group statistics, each read at an index given by coordinates.

  An `a × n` array with `n = g · c` viewed as `a × g × c` holds at `(t, p, l)` the entry `(t, p · c + l)`; viewed
  back, entry `(t, d)` is `(t, d / c, d % c)`: both views keep the row-major position.  A vector of `g` entries viewed
  as `1 × g × 1` holds entry `p` at `(0, p, 0)`, and that array broadcast to `a × g × c` holds at `(t, p, l)` its entry
  `(0, p, 0)`.  The float sum of an `n0 × n1 × n2` array over its two outer axes is, at `j`, the double sum over the two
  reduced coordinates of the entries whose middle coordinate is `j`: the set of source indices that reduce to `j` is
  `{(a, j, c)}`.  Indices are written with the literal-size constructors `ix1`, `ix2`, `ix3`.
-/
import Idealize.ShloMosaic.Lib.Pipeline.Value
import Idealize.ShloMosaic.Lib.ValueIdx
import Idealize.ShloMosaic.PureOps.Ideal.Laws
import proofs.«172676_j81381040325184_1_alg».proof.Proof.LibReduce02

open scoped BigOperators

namespace Cert.LibGroups

open Idealize.ShloMosaic Idealize.ShloMosaic.ValueIdx

variable {α : Type}

/-- Lane `l` of group `p`, among `g` groups of `c` lanes, is a position below `g · c`. -/
theorem lane_lt {g c : ℕ} (p : Fin g) (l : Fin c) : p.val * c + l.val < g * c := by
  have hp : p.val + 1 ≤ g := p.isLt
  calc p.val * c + l.val < p.val * c + c := Nat.add_lt_add_left l.isLt _
    _ = (p.val + 1) * c := by rw [Nat.add_mul, Nat.one_mul]
    _ ≤ g * c := Nat.mul_le_mul_right c hp

/-- An `a × n` array, `n = g · c`, viewed as `a × g × c`, reads at `(t, p, l)` the entry `(t, p · c + l)`. -/
theorem shapeCast_an_agc_apply {a n g c : ℕ} (hn : g * c = n) (x : (⟨2, ![a, n]⟩ : Shape).Idx → α)
    (h : (⟨2, ![a, n]⟩ : Shape).ShapeCasts ⟨3, ![a, g, c]⟩) (t : Fin a) (p : Fin g) (l : Fin c) :
    shapeCast ⟨3, ![a, g, c]⟩ x h (ix3 t p l) = x (ix2 t ⟨p.val * c + l.val, hn ▸ lane_lt p l⟩) :=
  shapeCast_apply x h _ _ (by
    rw [Shape.rowMajor_val_two, Shape.rowMajor_val_three]
    show t.val * n + (p.val * c + l.val) = (t.val * g + p.val) * c + l.val
    rw [← hn, Nat.add_mul, Nat.mul_assoc, Nat.add_assoc])

/-- An `a × g × c` array viewed as `a × n`, `n = g · c`, reads at `(t, d)` the entry `(t, d / c, d % c)`. -/
theorem shapeCast_agc_an_apply {a n g c : ℕ} (hn : g * c = n) (hc : 0 < c) (y : (⟨3, ![a, g, c]⟩ : Shape).Idx → α)
    (h : (⟨3, ![a, g, c]⟩ : Shape).ShapeCasts ⟨2, ![a, n]⟩) (t : Fin a) (d : Fin n) :
    shapeCast ⟨2, ![a, n]⟩ y h (ix2 t d)
      = y (ix3 t ⟨d.val / c, Nat.div_lt_of_lt_mul (by rw [Nat.mul_comm, hn]; exact d.isLt)⟩ ⟨d.val % c, Nat.mod_lt _ hc⟩) :=
  shapeCast_apply y h _ _ (by
    rw [Shape.rowMajor_val_two, Shape.rowMajor_val_three]
    show (t.val * g + d.val / c) * c + d.val % c = t.val * n + d.val
    have key : ∀ e : ℕ, (t.val * g + e / c) * c + e % c = t.val * n + e := fun e => by
      rw [← hn, Nat.add_mul, Nat.add_assoc, Nat.mul_comm (e / c) c, Nat.div_add_mod, Nat.mul_assoc]
    exact key d.val)

/-- A vector of `g` entries viewed as `1 × g × 1` reads entry `p` at `(0, p, 0)`. -/
theorem shapeCast_g_1g1_apply {g : ℕ} (x : (⟨1, ![g]⟩ : Shape).Idx → α) (h : (⟨1, ![g]⟩ : Shape).ShapeCasts ⟨3, ![1, g, 1]⟩)
    (u : Fin 1) (p : Fin g) (w : Fin 1) : shapeCast ⟨3, ![1, g, 1]⟩ x h (ix3 u p w) = x (ix1 p) :=
  shapeCast_apply x h _ _ (by
    have hu : u.val = 0 := by omega
    have hw : w.val = 0 := by omega
    rw [Shape.rowMajor_val_one, Shape.rowMajor_val_three]
    show p.val = (u.val * g + p.val) * 1 + w.val
    rw [hu, hw, Nat.zero_mul, Nat.zero_add, Nat.mul_one, Nat.add_zero])

/-- A `1 × g × 1` array broadcast to `a × g × c` reads at `(t, p, l)` its entry `(0, p, 0)`. -/
theorem broadcastTo_1g1_agc_apply {a g c : ℕ} (v : (⟨3, ![1, g, 1]⟩ : Shape).Idx → α)
    (h : (⟨3, ![1, g, 1]⟩ : Shape).Broadcasts ⟨3, ![a, g, c]⟩) (t : Fin a) (p : Fin g) (l : Fin c) :
    broadcastTo ⟨3, ![a, g, c]⟩ v h (ix3 t p l) = v (ix3 (0 : Fin 1) p (0 : Fin 1)) := by
  refine broadcastTo_apply v h (ix3 t p l) (ix3 (0 : Fin 1) p (0 : Fin 1)) fun ax => ?_
  match ax with
  | ⟨0, _⟩ => rfl
  | ⟨1, _⟩ =>
    show p.val = if g = 1 then 0 else p.val
    split
    · have := p.isLt; omega
    · rfl
  | ⟨2, _⟩ => rfl

variable {φ : FTy}

/-- SUMS OVER THE TWO OUTER AXES. At the extended reals the float sum of an `n0 × n1 × n2` array over axes 0 and 2 is,
    at `j`, the double sum over `a` and `c` of the entries `(a, j, c)`: the vector unit's reduction sums the same set of
    source entries as the host's, from no initial term. -/
theorem multiReduction_add_axes02 {n0 n1 n2 : ℕ} (src : FVec Ideal ⟨3, ![n0, n1, n2]⟩ φ) (acc : BitVec φ.bits)
    (h : (⟨3, ![n0, n1, n2]⟩ : Shape).Reduces [0, 2] ⟨1, ![n1]⟩) (hφ : FKind.Formats φ) (hacc : acc = FKind.add.neutral φ hφ)
    (j : Fin n1) :
    multiReduction .add [0, 2] ⟨1, ![n1]⟩ src acc h hφ hacc (ix1 j) = ∑ a : Fin n0, ∑ c : Fin n2, src (ix3 a j c) := by
  have e := Cert.LibReduce02.hostReduceAdd_axes02 h.reducesTo src 0 j
  rw [zero_add] at e
  refine Eq.trans ?_ e
  show Ideal.reduceAdd h src (ix1 j) = Ideal.hostReduceAdd h.reducesTo src 0 (ix1 j)
  unfold Ideal.reduceAdd Ideal.hostReduceAdd
  exact (zero_add _).symm

end Cert.LibGroups
-- ==== Proof.Spec.lean ====
/- The specification both programs are compared against: the attention block with a per-group normalisation,
   written once over plain index functions into the extended reals. Every definition here is a formula; no proof.

   Shapes. `x b t i` (32 batches, 64 tokens, 2048 features); the weights `w o i` (2048 × 2048), the biases and the
   normalisation's scale and shift indexed by the 2048 channels; the decay matrix `dg t s` (64 × 64); `a` the slope
   of the final activation. The 2048 channels fall into 32 groups of 64: channel `d` is lane `d % 64` of group
   `d / 64`.

   Two variants are spelled wherever the two programs differ:
   • the scores: `scK` multiplies the contraction by the decay on the right, `scR` on the left;
   • the group statistics: `varK` is the mean of squares minus the squared mean over the 64 · 64 entries
     `(t, c)` of a group, `varR` the mean of squared deviations over the same entries laid out as one row of
     4096, entry `k` being token `k % 64` of lane `k / 64`.
   Everything else is common. Sums are plain finite sums with no initial term. -/
import Idealize.ShloMosaic.PureOps.Ideal

noncomputable section

namespace Cert.Spec

open Idealize.ShloMosaic
open scoped BigOperators

/-- The number of entries of one group, `4096.0`, as the word both programs spell. -/
def N : EReal := Ideal.ofBits .f32 0x45800000#32

/-- The stabiliser under the square root, the `f32` nearest `1e-5`, as the word both programs spell. -/
def eps : EReal := Ideal.ofBits .f32 0x3727C5AC#32

/-- A linear projection with bias: `(∑ i, x b t i · w o i) + bias o`. -/
def proj (x : Fin 32 → Fin 64 → Fin 2048 → EReal) (w : Fin 2048 → Fin 2048 → EReal) (b : Fin 2048 → EReal) :
    Fin 32 → Fin 64 → Fin 2048 → EReal :=
  fun bb t o => (∑ i : Fin 2048, x bb t i * w o i) + b o

/-- Scores, the decay on the right. -/
def scK (q k : Fin 32 → Fin 64 → Fin 2048 → EReal) (dg : Fin 64 → Fin 64 → EReal) :
    Fin 32 → Fin 64 → Fin 64 → EReal :=
  fun bb t s => (∑ d : Fin 2048, q bb t d * k bb s d) * dg t s

/-- Scores, the decay on the left. -/
def scR (q k : Fin 32 → Fin 64 → Fin 2048 → EReal) (dg : Fin 64 → Fin 64 → EReal) :
    Fin 32 → Fin 64 → Fin 64 → EReal :=
  fun bb t s => dg t s * (∑ d : Fin 2048, q bb t d * k bb s d)

/-- The scores applied to the values. -/
def ret (sc : Fin 32 → Fin 64 → Fin 64 → EReal) (v : Fin 32 → Fin 64 → Fin 2048 → EReal) :
    Fin 32 → Fin 64 → Fin 2048 → EReal :=
  fun bb t d => ∑ s : Fin 64, sc bb t s * v bb s d

/-- Lane `c` of group `g` is channel `g · 64 + c`. -/
def chan (g : Fin 32) (c : Fin 64) : Fin 2048 :=
  ⟨g.val * 64 + c.val, by have := g.isLt; have := c.isLt; omega⟩

/-- The group of a channel. -/
def grp (d : Fin 2048) : Fin 32 := ⟨d.val / 64, by have := d.isLt; omega⟩

/-- The lane of a channel within its group. -/
def lane (d : Fin 2048) : Fin 64 := ⟨d.val % 64, by omega⟩

/-! ### The group statistics of one batch, `r t d` -/

/-- Mean of a group, as a double sum over tokens and lanes. -/
def muK (r : Fin 64 → Fin 2048 → EReal) (g : Fin 32) : EReal :=
  Ideal.div (∑ t : Fin 64, ∑ c : Fin 64, r t (chan g c)) N

/-- Mean of the squares of a group. -/
def sqK (r : Fin 64 → Fin 2048 → EReal) (g : Fin 32) : EReal :=
  Ideal.div (∑ t : Fin 64, ∑ c : Fin 64, r t (chan g c) * r t (chan g c)) N

/-- Variance as mean of squares minus squared mean. -/
def varK (r : Fin 64 → Fin 2048 → EReal) (g : Fin 32) : EReal :=
  sqK r g - muK r g * muK r g

/-- The normalised value, first variant. -/
def gnK (r : Fin 64 → Fin 2048 → EReal) (t : Fin 64) (d : Fin 2048) : EReal :=
  (r t d - muK r (grp d)) * Ideal.rsqrt (varK r (grp d) + eps)

/-- A group laid out as one row of 4096: entry `k` is token `k % 64` of lane `k / 64`. -/
def gR (r : Fin 64 → Fin 2048 → EReal) (g : Fin 32) (k : Fin 4096) : EReal :=
  r ⟨k.val % 64, by omega⟩ (chan g ⟨k.val / 64, by have := k.isLt; omega⟩)

/-- Mean of a group, as one sum over the row. -/
def muR (r : Fin 64 → Fin 2048 → EReal) (g : Fin 32) : EReal :=
  Ideal.div (∑ k : Fin 4096, gR r g k) N

/-- Variance as the mean of the squared deviations. -/
def varR (r : Fin 64 → Fin 2048 → EReal) (g : Fin 32) : EReal :=
  Ideal.div (∑ k : Fin 4096, (gR r g k - muR r g) * (gR r g k - muR r g)) N

/-- The normalised value, second variant. -/
def gnR (r : Fin 64 → Fin 2048 → EReal) (t : Fin 64) (d : Fin 2048) : EReal :=
  (r t d - muR r (grp d)) * Ideal.rsqrt (varR r (grp d) + eps)

/-! ### The tail: scale and shift, output projection, activation -/

/-- Per-channel scale and shift. -/
def aff (gn : Fin 64 → Fin 2048 → EReal) (gw gb : Fin 2048 → EReal) (t : Fin 64) (d : Fin 2048) : EReal :=
  gn t d * gw d + gb d

/-- The output projection of one batch. -/
def outp (y : Fin 64 → Fin 2048 → EReal) (wo : Fin 2048 → Fin 2048 → EReal) (bo : Fin 2048 → EReal)
    (t : Fin 64) (n : Fin 2048) : EReal :=
  (∑ d : Fin 2048, y t d * wo n d) + bo n

/-- The activation: the identity on `0 ≤ o`, the slope `a` times `o` below. -/
def prelu (a o : EReal) : EReal := if 0 ≤ o then o else a * o

/-- The whole block, first variant (decay on the right; variance as mean of squares minus squared mean). -/
def outK (x : Fin 32 → Fin 64 → Fin 2048 → EReal) (wq wk wv wo : Fin 2048 → Fin 2048 → EReal)
    (bq bk bv bo gw gb : Fin 2048 → EReal) (dg : Fin 64 → Fin 64 → EReal) (a : EReal) :
    Fin 32 → Fin 64 → Fin 2048 → EReal :=
  fun bb t n =>
    prelu a (outp (aff (gnK (ret (scK (proj x wq bq) (proj x wk bk) dg) (proj x wv bv) bb)) gw gb) wo bo t n)

/-- The whole block, second variant (decay on the left; variance as mean of squared deviations). -/
def outR (x : Fin 32 → Fin 64 → Fin 2048 → EReal) (wq wk wv wo : Fin 2048 → Fin 2048 → EReal)
    (bq bk bv bo gw gb : Fin 2048 → EReal) (dg : Fin 64 → Fin 64 → EReal) (a : EReal) :
    Fin 32 → Fin 64 → Fin 2048 → EReal :=
  fun bb t n =>
    prelu a (outp (aff (gnR (ret (scR (proj x wq bq) (proj x wk bk) dg) (proj x wv bv) bb)) gw gb) wo bo t n)

end Cert.Spec

end
-- ==== Proof.KPay1Stat.lean ====
/-
  One group statistic of the second kernel body, read at a group: the sum of a 64 × 32 × 64 array over its tokens
  and lanes, divided by the number of entries of a group.

  The body sums the array over its two outer axes into a vector of 32 entries, views that vector as 1 × 32 × 1, and
  divides it by the splat of the word `0x45800000` (the count 4096, kept as the word).  So at `(0, g, 0)` the statistic
  is `(∑ t, ∑ c, y (t, g, c)) / N` with the exact division of the extended reals.
-/
import proofs.«172676_j81381040325184_1_alg».proof.Proof.KPay1Defs
import proofs.«172676_j81381040325184_1_alg».proof.Proof.LibGroups
import proofs.«172676_j81381040325184_1_alg».proof.Proof.Spec

noncomputable section

open scoped BigOperators

namespace Cert.KernelIdeal.KPay

open Idealize.ShloMosaic Idealize.ShloMosaic.ValueIdx Cert.KernelIdeal Cert.KernelIdeal.Gen

/-- The per-group mean of a 64 × 32 × 64 array over tokens and lanes, as the body spells it. -/
def meanV (y : FVec Ideal S64x32x64 .f32) : FVec Ideal S1x32x1 .f32 :=
  divf (shapeCast S1x32x1 (multiReduction .add [0, 2] S32 y 0x00000000#32 reduces_S64x32x64_S32 (.inl rfl) rfl)
      shapeCasts_S32_S1x32x1)
    (broadcast S1x32x1 (Scalar.ofBits (F := Ideal) .f32 0x45800000#32))

/-- THE STATISTIC AT GROUP `g`: the double sum over tokens and lanes of the group's entries, divided by the count. -/
theorem meanV_apply (y : FVec Ideal S64x32x64 .f32) (u : Fin 1) (g : Fin 32) (w : Fin 1) :
    meanV y (ix3 u g w) = Ideal.div (∑ t : Fin 64, ∑ c : Fin 64, y (ix3 t g c)) Cert.Spec.N := by
  unfold meanV
  refine (divf_apply _ _ _).trans ?_
  refine congrArg₂ Ideal.div ?_ rfl
  refine (Cert.LibGroups.shapeCast_g_1g1_apply _ _ u g w).trans ?_
  exact Cert.LibGroups.multiReduction_add_axes02 y _ _ _ _ g

end Cert.KernelIdeal.KPay

end
-- ==== Proof.KPay1Norm.lean ====
/-
  The group normalisation of a 64 × 2048 block, read at one entry, at the exact (extended-real) values.

  Channel `d` is lane `d % 64` of group `d / 64`.  Viewed as 64 × 32 × 64 the block holds at `(t, g, c)` its entry
  `(t, g · 64 + c)`, so the group's two statistics are the mean and the mean of squares over the 64 · 64 entries
  `(t, c)` of the group, the variance is their difference `E[x²] − E[x]²`, and entry `(t, d)` of the result is
  `(x (t, d) − mean (d / 64)) · rsqrt (variance (d / 64) + eps) · gw d`: the centred entry times the reciprocal root,
  both statistics carried back to every entry of their group, times the per-channel scale.  The count and the
  stabiliser stay the words the program spells.
-/
import proofs.«172676_j81381040325184_1_alg».proof.Proof.KPay1Stat
import Idealize.ShloMosaic.Lib.ValueLayout

noncomputable section

open scoped BigOperators

namespace Cert.KernelIdeal.KPay

open Idealize.ShloMosaic Idealize.ShloMosaic.ValueIdx Cert.KernelIdeal Cert.KernelIdeal.Gen

/-- A reciprocal root at an index is the reciprocal root of the element. -/
theorem rsqrt_apply {s : Shape} {φ : FTy} (a : FVec Ideal s φ) (i : s.Idx) : rsqrt a i = Ideal.rsqrt (a i) := rfl

/-- The block viewed by groups holds at `(t, g, c)` the entry of token `t` at lane `c` of group `g`. -/
theorem view_apply (x : FVec Ideal S64x2048 .f32) (t : Fin 64) (g : Fin 32) (c : Fin 64) :
    shapeCast S64x32x64 x shapeCasts_S64x2048_S64x32x64 (ix3 t g c) = x (ix2 t (Cert.Spec.chan g c)) :=
  Cert.LibGroups.shapeCast_an_agc_apply (g := 32) (c := 64) rfl x _ t g c

/-- The first statistic of the viewed block is the group's mean. -/
theorem mean_view (x : FVec Ideal S64x2048 .f32) (u : Fin 1) (g : Fin 32) (w : Fin 1) :
    meanV (shapeCast S64x32x64 x shapeCasts_S64x2048_S64x32x64) (ix3 u g w)
      = Cert.Spec.muK (fun t d => x (ix2 t d)) g := by
  refine (meanV_apply _ u g w).trans ?_
  unfold Cert.Spec.muK
  refine congrArg (Ideal.div · Cert.Spec.N) ?_
  exact Finset.sum_congr rfl fun t _ => Finset.sum_congr rfl fun c _ => view_apply x t g c

/-- The second statistic, of the viewed block's squares, is the group's mean of squares. -/
theorem meansq_view (x : FVec Ideal S64x2048 .f32) (u : Fin 1) (g : Fin 32) (w : Fin 1) :
    meanV (mulf (shapeCast S64x32x64 x shapeCasts_S64x2048_S64x32x64)
        (shapeCast S64x32x64 x shapeCasts_S64x2048_S64x32x64)) (ix3 u g w)
      = Cert.Spec.sqK (fun t d => x (ix2 t d)) g := by
  refine (meanV_apply _ u g w).trans ?_
  unfold Cert.Spec.sqK
  refine congrArg (Ideal.div · Cert.Spec.N) ?_
  refine Finset.sum_congr rfl fun t _ => Finset.sum_congr rfl fun c _ => ?_
  refine (mulf_apply _ _ _).trans ?_
  exact congrArg₂ (· * ·) (view_apply x t g c) (view_apply x t g c)

/-- THE NORMALISED BLOCK AT `(t, d)`: the specification's normalised value of the block, times the scale of channel `d`. -/
theorem gnV_apply (x : FVec Ideal S64x2048 .f32) (gw : Vec Ideal S1x2048 .f32) (t : Fin 64) (d : Fin 2048) :
    gnV x gw (ix2 t d) = Cert.Spec.gnK (fun t d => x (ix2 t d)) t d * gw (ix2 0 d) := by
  have hd : Cert.Spec.chan (Cert.Spec.grp d) (Cert.Spec.lane d) = d := Fin.ext (Nat.div_add_mod' d.val 64)
  unfold gnV
  refine (mulf_apply _ _ _).trans ?_
  refine congrArg₂ (· * ·) ?_ ?_
  · refine (Cert.LibGroups.shapeCast_agc_an_apply (g := 32) (c := 64) rfl (by decide) _ _ t d).trans ?_
    refine (mulf_apply _ _ _).trans ?_
    unfold Cert.Spec.gnK
    refine congrArg₂ (· * ·) ?_ ?_
    · refine (subf_apply _ _ _).trans ?_
      refine congrArg₂ (· - ·) ?_ ?_
      · exact (view_apply x t (Cert.Spec.grp d) (Cert.Spec.lane d)).trans (congrArg (fun e => x (ix2 t e)) hd)
      · exact (Cert.LibGroups.broadcastTo_1g1_agc_apply _ _ t _ _).trans (mean_view x 0 (Cert.Spec.grp d) 0)
    · refine (Cert.LibGroups.broadcastTo_1g1_agc_apply _ _ t _ _).trans ?_
      refine (rsqrt_apply _ _).trans ?_
      refine congrArg Ideal.rsqrt ?_
      refine (addf_apply _ _ _).trans ?_
      refine congrArg₂ (· + ·) ?_ rfl
      unfold Cert.Spec.varK
      refine (subf_apply _ _ _).trans ?_
      refine congrArg₂ (· - ·) (meansq_view x 0 (Cert.Spec.grp d) 0) ?_
      refine (mulf_apply _ _ _).trans ?_
      exact congrArg₂ (· * ·) (mean_view x 0 (Cert.Spec.grp d) 0) (mean_view x 0 (Cert.Spec.grp d) 0)
  · refine (broadcastTo_1b_ab_apply _ _ t d).trans ?_
    rw [shapeCast_self]

end Cert.KernelIdeal.KPay

end
-- ==== Proof.KPay1Out.lean ====
/-
  The second kernel body's stored value read at one entry, at the exact (extended-real) values.

  After the normalisation the body adds the per-channel shift row, multiplies the 64 × 2048 block by the 2048 × 2048
  block of output weights (held transposed: row = contracted channel `d`, column = output feature `n`), adds the
  output bias row, and applies the activation: where `0 ≤ o` it keeps `o`, elsewhere it takes `a · o`, `a` the one
  entry of the slope block.  The comparison is against the zero word, which is the extended real `0`; a change of
  float format is the identity at the exact values; the final cast only adds a leading unit axis.  So entry
  `(0, t, n)` is the specification's activation of the output projection of the scaled and shifted normalised
  retention block.
-/
import proofs.«172676_j81381040325184_1_alg».proof.Proof.KPay1Ret
import proofs.«172676_j81381040325184_1_alg».proof.Proof.KPay1Norm

noncomputable section

open scoped BigOperators

namespace Cert.KernelIdeal.KPay

open Idealize.ShloMosaic Idealize.ShloMosaic.ValueIdx Cert.KernelIdeal Cert.KernelIdeal.Gen

/-- The activation as the body spells it — compare with the zero splat, multiply by the slope splat, select — is, at
    each entry, the identity on `0 ≤ o` and `al · o` below. -/
theorem prelu_vec_apply {s : Shape} (o : FVec Ideal s .f32) (al : Ideal .f32) (i : s.Idx) :
    select (cmpf .oge o (broadcast s (Scalar.ofBits (F := Ideal) .f32 0x00000000#32))) o (mulf (broadcast s al) o) i
      = Cert.Spec.prelu al (o i) := by
  show Scalar.select (Ideal.cmp .oge (o i) (Ideal.ofBits .f32 0x00000000#32)) (o i) (al * o i) = _
  rw [Ideal.ofBits_zero_f32]
  simp only [Scalar.select, Ideal.cmp, Cert.Spec.prelu]
  by_cases h : (0 : EReal) ≤ o i <;> simp [h]

/-- THE TAIL AT `(0, t, n)`, for any block `y` and shift row `gbr`: the activation of
    `(∑ d, (y (t, d) + gbr d) · wo (d, n)) + bo n`. -/
theorem k1_pay1_apply (y : FVec Ideal S64x2048 .f32) (gbr : FVec Ideal S1x2048 .f32) (wo : Vec Ideal S2048x2048 .bf16)
    (bo : Vec Ideal S1x2048 .f32) (a : Vec Ideal S1x1 .f32) (t : Fin 64) (n : Fin 2048) :
    k1_pay1 (F := Ideal) y gbr wo bo a (ix3 0 t n)
      = Cert.Spec.prelu (a (ix2 0 0))
          ((∑ d : Fin 2048, (y (ix2 t d) + gbr (ix2 0 d)) * wo (ix2 d n)) + bo (ix2 0 n)) := by
  unfold k1_pay1
  refine (shapeCast_ab_1ab_apply _ _ 0 t n).trans ?_
  refine (prelu_vec_apply _ _ _).trans ?_
  refine congrArg₂ Cert.Spec.prelu ?_ ?_
  · exact congrArg a (funext fun ax => Fin.ext (by
      match ax with
      | ⟨0, _⟩ => rfl
      | ⟨1, _⟩ => rfl))
  · refine (addf_apply _ _ _).trans ?_
    refine congrArg₂ (· + ·) ?_ ?_
    · refine (congrFun (Cert.Linear.matmul_zero_eq contracts_out none _ _) (ix2 t n)).trans ?_
      unfold Cert.Linear.matProd
      refine Finset.sum_congr rfl fun d _ => ?_
      refine congrArg₂ (· * ·) ?_ (congrFun (shapeCast_self wo _) (ix2 d n))
      show y (ix2 t d) + broadcastTo S64x2048 gbr broadcasts_S1x2048_S64x2048 (ix2 t d) = _
      exact congrArg (y (ix2 t d) + ·) (broadcastTo_1b_ab_apply gbr _ t d)
    · exact (broadcastTo_1b_ab_apply _ _ t n).trans (congrFun (shapeCast_self bo _) (ix2 0 n))

/-- THE SECOND BODY'S VALUE AT `(0, t, n)`: the activation, with the slope `a (0, 0)`, of the output projection of the
    normalised retention block of this batch entry, scaled by `gw` and shifted by `gb`.  The retention block is
    `r t d = ∑ s, ((∑ e, q (0, t, e) · k (0, s, e)) · dg (t, s)) · v (0, s, d)`; the weight block is read transposed. -/
theorem k1_out_apply (q k v : Vec Ideal S1x64x2048 .f32) (dg : Vec Ideal S64x64 .f32) (wo : Vec Ideal S2048x2048 .bf16)
    (bo gw gb : Vec Ideal S1x2048 .f32) (a : Vec Ideal S1x1 .f32) (t : Fin 64) (n : Fin 2048) :
    k1_pay1 (F := Ideal) (k1_pay2 q k v dg gw) (k1_pay3 gb) wo bo a (ix3 0 t n)
      = Cert.Spec.prelu (a (ix2 0 0))
          (Cert.Spec.outp
            (Cert.Spec.aff
              (Cert.Spec.gnK (fun t d => ∑ s : Fin 64,
                ((∑ e : Fin 2048, q (ix3 0 t e) * k (ix3 0 s e)) * dg (ix2 t s)) * v (ix3 0 s d)))
              (fun d => gw (ix2 0 d)) (fun d => gb (ix2 0 d)))
            (fun n d => wo (ix2 d n)) (fun n => bo (ix2 0 n)) t n) := by
  refine (k1_pay1_apply _ _ wo bo a t n).trans ?_
  unfold Cert.Spec.outp Cert.Spec.aff
  refine congrArg (Cert.Spec.prelu (a (ix2 0 0))) ?_
  refine congrArg (· + bo (ix2 0 n)) ?_
  refine Finset.sum_congr rfl fun d _ => ?_
  refine congrArg (· * wo (ix2 d n)) ?_
  refine congrArg₂ (· + ·) ?_ (congrFun (shapeCast_self gb _) (ix2 0 d))
  refine (congrFun (k1_pay2_eq q k v dg gw) (ix2 t d)).trans ?_
  refine (gnV_apply _ gw t d).trans ?_
  refine congrArg (· * gw (ix2 0 d)) ?_
  exact congrArg (fun r => Cert.Spec.gnK r t d) (funext fun t' => funext fun d' => retV_apply q k v dg t' d')

end Cert.KernelIdeal.KPay

end
-- ==== Proof.IdealValue1Spec.lean ====
/-
  The second region's result as ONE function of the nine arrays it reads: the function, where each window's block
  sits at a grid point, and the body's value at one entry for blocks that are pieces of arrays.

  Grid point t is batch entry t: the body reads the t-th [1, 64, 2048] blocks of the queries, keys and values, the
  whole decay matrix, the whole transposed output weights, the output bias, scale and shift rows and the slope, and
  writes the t-th [1, 64, 2048] block of the result. G1 is the whole result: entry (b, t, n) is the activation of the
  output projection of the scaled and shifted normalised retention block of batch entry b.
-/
import proofs.«172676_j81381040325184_1_alg».proof.Proof.IdealRun
import proofs.«172676_j81381040325184_1_alg».proof.Proof.KPay1Out
import Idealize.ShloMosaic.Lib.Pipeline.Value
import Idealize.ShloMosaic.Lib.ValueIdx
import Idealize.ShloMosaic.PureOps.Ideal

set_option maxRecDepth 16384

noncomputable section

open scoped BigOperators

namespace Cert.KernelIdeal.KValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- Entry (b, t, n) of the block: the activation, with slope A (0, 0), of the output projection of the normalised
    retention block of batch entry b, scaled by Gw and shifted by Gb. The retention block of batch entry b is
    r t d = ∑ s, ((∑ e, Q (b, t, e) · K (b, s, e)) · DG (t, s)) · Vv (b, s, d); the weights are read transposed. -/
def G1 (Q K Vv : S32x64x2048.Idx → EReal) (DG : S64x64.Idx → EReal) (WoT : S2048x2048.Idx → EReal)
    (Bo Gw Gb : S1x2048.Idx → EReal) (A : S1x1.Idx → EReal) : S32x64x2048.Idx → EReal :=
  fun i =>
    Cert.Spec.prelu (A (ix2 (0 : Fin 1) (0 : Fin 1)))
      (Cert.Spec.outp
        (Cert.Spec.aff
          (Cert.Spec.gnK (fun t d => ∑ s : Fin 64,
            ((∑ e : Fin 2048, Q (ix3 (⟨(i 0).val, (i 0).isLt⟩ : Fin 32) t e) * K (ix3 (⟨(i 0).val, (i 0).isLt⟩ : Fin 32) s e))
              * DG (ix2 t s)) * Vv (ix3 (⟨(i 0).val, (i 0).isLt⟩ : Fin 32) s d)))
          (fun d => Gw (ix2 (0 : Fin 1) d)) (fun d => Gb (ix2 (0 : Fin 1) d)))
        (fun n d => WoT (ix2 d n)) (fun n => Bo (ix2 (0 : Fin 1) n))
        (⟨(i 1).val, (i 1).isLt⟩ : Fin 64) (⟨(i 2).val, (i 2).isLt⟩ : Fin 2048))

/-- G1 at an index given by its coordinates. -/
theorem G1_apply (Q K Vv : S32x64x2048.Idx → EReal) (DG : S64x64.Idx → EReal) (WoT : S2048x2048.Idx → EReal)
    (Bo Gw Gb : S1x2048.Idx → EReal) (A : S1x1.Idx → EReal) (b : Fin 32) (t : Fin 64) (n : Fin 2048) :
    G1 Q K Vv DG WoT Bo Gw Gb A (ix3 b t n)
      = Cert.Spec.prelu (A (ix2 0 0))
          (Cert.Spec.outp
            (Cert.Spec.aff
              (Cert.Spec.gnK (fun t d => ∑ s : Fin 64,
                ((∑ e : Fin 2048, Q (ix3 b t e) * K (ix3 b s e)) * DG (ix2 t s)) * Vv (ix3 b s d)))
              (fun d => Gw (ix2 0 d)) (fun d => Gb (ix2 0 d)))
            (fun n d => WoT (ix2 d n)) (fun n => Bo (ix2 0 n)) t n) := rfl

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- Where each window's block sits at point t: the queries', keys', values' and the result's blocks the t-th along
    the leading axis; the six other windows whole. -/
theorem idx_facts1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 3) = t.val ∧ win1_9.index t (1 : Fin 3) = 0 ∧ win1_9.index t (2 : Fin 3) = 0)
    ∧ t.val < 32 :=
  (by decide +kernel : ∀ t : Fin grid1.N, _)

/-- The body's value at one entry of the block, for blocks that are batch entry b's pieces of the three moving arrays
    and the six whole arrays. -/
theorem point1 (x0 x1 x2 : Vec Ideal S1x64x2048 .f32) (x3 : Vec Ideal S64x64 .f32) (x4 : Vec Ideal S2048x2048 .bf16)
    (x5 x6 x7 : Vec Ideal S1x2048 .f32) (x8 : Vec Ideal S1x1 .f32)
    (Q K Vv : S32x64x2048.Idx → EReal) (DG : S64x64.Idx → EReal) (WoT : S2048x2048.Idx → EReal)
    (Bo Gw Gb : S1x2048.Idx → EReal) (A : S1x1.Idx → EReal) (b : Fin 32)
    (h0 : ∀ (p : Fin 64) (e : Fin 2048), x0 (ix3 (0 : Fin 1) p e) = Q (ix3 b p e))
    (h1 : ∀ (p : Fin 64) (e : Fin 2048), x1 (ix3 (0 : Fin 1) p e) = K (ix3 b p e))
    (h2 : ∀ (p : Fin 64) (e : Fin 2048), x2 (ix3 (0 : Fin 1) p e) = Vv (ix3 b p e))
    (h3 : ∀ (p s : Fin 64), x3 (ix2 p s) = DG (ix2 p s))
    (h4 : ∀ (d n : Fin 2048), x4 (ix2 d n) = WoT (ix2 d n))
    (h5 : ∀ (n : Fin 2048), x5 (ix2 (0 : Fin 1) n) = Bo (ix2 (0 : Fin 1) n))
    (h6 : ∀ (n : Fin 2048), x6 (ix2 (0 : Fin 1) n) = Gw (ix2 (0 : Fin 1) n))
    (h7 : ∀ (n : Fin 2048), x7 (ix2 (0 : Fin 1) n) = Gb (ix2 (0 : Fin 1) n))
    (h8 : x8 (ix2 (0 : Fin 1) (0 : Fin 1)) = A (ix2 (0 : Fin 1) (0 : Fin 1)))
    (p : Fin 64) (n : Fin 2048) :
    k1_pay1 (F := Ideal) (k1_pay2 x0 x1 x2 x3 x6) (k1_pay3 x7) x4 x5 x8 (ix3 (0 : Fin 1) p n)
      = G1 Q K Vv DG WoT Bo Gw Gb A (ix3 b p n) := by
  rw [Cert.KernelIdeal.KPay.k1_out_apply, G1_apply]
  simp only [h0, h1, h2, h3, h4, h5, h6, h7, h8]

end Cert.KernelIdeal.KValue

end
-- ==== Proof.IdealValue1BlkA.lean ====
/-
  The second region's moving and matrix windows read at an index: at grid point t the queries', keys' and values'
  blocks are batch entry t of their arrays (the block index moves along the leading axis, whose coordinate inside a
  block is 0), and the decay matrix's and the output weights' blocks are the whole arrays at every point.
-/
import proofs.«172676_j81381040325184_1_alg».proof.Proof.IdealValue1Spec

set_option maxRecDepth 16384

noncomputable section

open scoped BigOperators

namespace Cert.KernelIdeal.KValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The queries' block at point t is batch entry t of the queries. -/
theorem blk1_0_apply (t : Fin cfg1.N) (ht : t.val < 32) (p : Fin 64) (e : Fin 2048) :
    iblk1 V c 0 t (ix3 (0 : Fin 1) p e) = V c (Pipeline.arrRef spec1 0) (ix3 (⟨t.val, ht⟩ : Fin 32) p e) := by
  obtain ⟨⟨e0, e1, e2⟩, -⟩ := idx_facts1 t
  show V c (Pipeline.arrRef spec1 0) (((cfg1.win 0).blk t).view.emb (ix3 (0 : Fin 1) p e)) = V c (Pipeline.arrRef spec1 0) (ix3 (⟨t.val, ht⟩ : Fin 32) p e)
  refine congrArg (V c (Pipeline.arrRef spec1 0)) (funext fun a => Fin.ext ?_)
  match a with
  | ⟨0, _⟩ => show win1_0.index t (0 : Fin 3) * 1 + 1 * 0 = t.val; omega
  | ⟨1, _⟩ => show win1_0.index t (1 : Fin 3) * 64 + 1 * p.val = p.val; omega
  | ⟨2, _⟩ => show win1_0.index t (2 : Fin 3) * 2048 + 1 * e.val = e.val; omega

/-- The keys' block at point t is batch entry t of the keys. -/
theorem blk1_1_apply (t : Fin cfg1.N) (ht : t.val < 32) (p : Fin 64) (e : Fin 2048) :
    iblk1 V c 1 t (ix3 (0 : Fin 1) p e) = V c (Pipeline.arrRef spec1 1) (ix3 (⟨t.val, ht⟩ : Fin 32) p e) := by
  obtain ⟨-, ⟨e0, e1, e2⟩, -⟩ := idx_facts1 t
  show V c (Pipeline.arrRef spec1 1) (((cfg1.win 1).blk t).view.emb (ix3 (0 : Fin 1) p e)) = V c (Pipeline.arrRef spec1 1) (ix3 (⟨t.val, ht⟩ : Fin 32) p e)
  refine congrArg (V c (Pipeline.arrRef spec1 1)) (funext fun a => Fin.ext ?_)
  match a with
  | ⟨0, _⟩ => show win1_1.index t (0 : Fin 3) * 1 + 1 * 0 = t.val; omega
  | ⟨1, _⟩ => show win1_1.index t (1 : Fin 3) * 64 + 1 * p.val = p.val; omega
  | ⟨2, _⟩ => show win1_1.index t (2 : Fin 3) * 2048 + 1 * e.val = e.val; omega

/-- The values' block at point t is batch entry t of the values. -/
theorem blk1_2_apply (t : Fin cfg1.N) (ht : t.val < 32) (p : Fin 64) (e : Fin 2048) :
    iblk1 V c 2 t (ix3 (0 : Fin 1) p e) = V c (Pipeline.arrRef spec1 2) (ix3 (⟨t.val, ht⟩ : Fin 32) p e) := by
  obtain ⟨-, -, ⟨e0, e1, e2⟩, -⟩ := idx_facts1 t
  show V c (Pipeline.arrRef spec1 2) (((cfg1.win 2).blk t).view.emb (ix3 (0 : Fin 1) p e)) = V c (Pipeline.arrRef spec1 2) (ix3 (⟨t.val, ht⟩ : Fin 32) p e)
  refine congrArg (V c (Pipeline.arrRef spec1 2)) (funext fun a => Fin.ext ?_)
  match a with
  | ⟨0, _⟩ => show win1_2.index t (0 : Fin 3) * 1 + 1 * 0 = t.val; omega
  | ⟨1, _⟩ => show win1_2.index t (1 : Fin 3) * 64 + 1 * p.val = p.val; omega
  | ⟨2, _⟩ => show win1_2.index t (2 : Fin 3) * 2048 + 1 * e.val = e.val; omega

/-- The decay matrix's block at any point is the whole matrix. -/
theorem blk1_3_apply (t : Fin cfg1.N) (p s : Fin 64) :
    iblk1 V c 3 t (ix2 p s) = V c (Pipeline.arrRef spec1 3) (ix2 p s) := by
  obtain ⟨-, -, -, ⟨e0, e1⟩, -⟩ := idx_facts1 t
  show V c (Pipeline.arrRef spec1 3) (((cfg1.win 3).blk t).view.emb (ix2 p s)) = V c (Pipeline.arrRef spec1 3) (ix2 p s)
  refine congrArg (V c (Pipeline.arrRef spec1 3)) (funext fun a => Fin.ext ?_)
  match a with
  | ⟨0, _⟩ => show win1_3.index t (0 : Fin 2) * 64 + 1 * p.val = p.val; omega
  | ⟨1, _⟩ => show win1_3.index t (1 : Fin 2) * 64 + 1 * s.val = s.val; omega

/-- The output weights' block at any point is the whole array. -/
theorem blk1_4_apply (t : Fin cfg1.N) (d n : Fin 2048) :
    iblk1 V c 4 t (ix2 d n) = V c (Pipeline.arrRef spec1 4) (ix2 d n) := by
  obtain ⟨-, -, -, -, ⟨e0, e1⟩, -⟩ := idx_facts1 t
  show V c (Pipeline.arrRef spec1 4) (((cfg1.win 4).blk t).view.emb (ix2 d n)) = V c (Pipeline.arrRef spec1 4) (ix2 d n)
  refine congrArg (V c (Pipeline.arrRef spec1 4)) (funext fun a => Fin.ext ?_)
  match a with
  | ⟨0, _⟩ => show win1_4.index t (0 : Fin 2) * 2048 + 1 * d.val = d.val; omega
  | ⟨1, _⟩ => show win1_4.index t (1 : Fin 2) * 2048 + 1 * n.val = n.val; omega

end Cert.KernelIdeal.KValue

end
-- ==== Proof.IdealValue1BlkB.lean ====
/-
  The second region's row windows read at an index: the output bias, the normalisation's scale and shift rows and
  the one-entry slope array are whole at every grid point, so a block read is the array at the same index.
-/
import proofs.«172676_j81381040325184_1_alg».proof.Proof.IdealValue1Spec

set_option maxRecDepth 16384

noncomputable section

open scoped BigOperators

namespace Cert.KernelIdeal.KValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The output bias's block at any point is the whole row. -/
theorem blk1_5_apply (t : Fin cfg1.N) (n : Fin 2048) :
    iblk1 V c 5 t (ix2 (0 : Fin 1) n) = V c (Pipeline.arrRef spec1 5) (ix2 (0 : Fin 1) n) := by
  obtain ⟨-, -, -, -, -, ⟨e0, e1⟩, -⟩ := idx_facts1 t
  show V c (Pipeline.arrRef spec1 5) (((cfg1.win 5).blk t).view.emb (ix2 (0 : Fin 1) n)) = V c (Pipeline.arrRef spec1 5) (ix2 (0 : Fin 1) n)
  refine congrArg (V c (Pipeline.arrRef spec1 5)) (funext fun a => Fin.ext ?_)
  match a with
  | ⟨0, _⟩ => show win1_5.index t (0 : Fin 2) * 1 + 1 * 0 = 0; omega
  | ⟨1, _⟩ => show win1_5.index t (1 : Fin 2) * 2048 + 1 * n.val = n.val; omega

/-- The scale's block at any point is the whole row. -/
theorem blk1_6_apply (t : Fin cfg1.N) (n : Fin 2048) :
    iblk1 V c 6 t (ix2 (0 : Fin 1) n) = V c (Pipeline.arrRef spec1 6) (ix2 (0 : Fin 1) n) := by
  obtain ⟨-, -, -, -, -, -, ⟨e0, e1⟩, -⟩ := idx_facts1 t
  show V c (Pipeline.arrRef spec1 6) (((cfg1.win 6).blk t).view.emb (ix2 (0 : Fin 1) n)) = V c (Pipeline.arrRef spec1 6) (ix2 (0 : Fin 1) n)
  refine congrArg (V c (Pipeline.arrRef spec1 6)) (funext fun a => Fin.ext ?_)
  match a with
  | ⟨0, _⟩ => show win1_6.index t (0 : Fin 2) * 1 + 1 * 0 = 0; omega
  | ⟨1, _⟩ => show win1_6.index t (1 : Fin 2) * 2048 + 1 * n.val = n.val; omega

/-- The shift's block at any point is the whole row. -/
theorem blk1_7_apply (t : Fin cfg1.N) (n : Fin 2048) :
    iblk1 V c 7 t (ix2 (0 : Fin 1) n) = V c (Pipeline.arrRef spec1 7) (ix2 (0 : Fin 1) n) := by
  obtain ⟨-, -, -, -, -, -, -, ⟨e0, e1⟩, -⟩ := idx_facts1 t
  show V c (Pipeline.arrRef spec1 7) (((cfg1.win 7).blk t).view.emb (ix2 (0 : Fin 1) n)) = V c (Pipeline.arrRef spec1 7) (ix2 (0 : Fin 1) n)
  refine congrArg (V c (Pipeline.arrRef spec1 7)) (funext fun a => Fin.ext ?_)
  match a with
  | ⟨0, _⟩ => show win1_7.index t (0 : Fin 2) * 1 + 1 * 0 = 0; omega
  | ⟨1, _⟩ => show win1_7.index t (1 : Fin 2) * 2048 + 1 * n.val = n.val; omega

/-- The slope's block at any point is the whole one-entry array. -/
theorem blk1_8_apply (t : Fin cfg1.N) :
    iblk1 V c 8 t (ix2 (0 : Fin 1) (0 : Fin 1)) = V c (Pipeline.arrRef spec1 8) (ix2 (0 : Fin 1) (0 : Fin 1)) := by
  obtain ⟨-, -, -, -, -, -, -, -, ⟨e0, e1⟩, -⟩ := idx_facts1 t
  show V c (Pipeline.arrRef spec1 8) (((cfg1.win 8).blk t).view.emb (ix2 (0 : Fin 1) (0 : Fin 1))) = V c (Pipeline.arrRef spec1 8) (ix2 (0 : Fin 1) (0 : Fin 1))
  refine congrArg (V c (Pipeline.arrRef spec1 8)) (funext fun a => Fin.ext ?_)
  match a with
  | ⟨0, _⟩ => show win1_8.index t (0 : Fin 2) * 1 + 1 * 0 = 0; omega
  | ⟨1, _⟩ => show win1_8.index t (1 : Fin 2) * 1 + 1 * 0 = 0; omega

end Cert.KernelIdeal.KValue

end
-- ==== Proof.IdealValue1.lean ====
/-
  The second region's result array is G1 of the nine arrays the region reads. At grid point t the body's one store
  leaves, over the whole [1, 64, 2048] output block, its value of the nine input blocks; those blocks are batch entry
  t's pieces of the arrays, so what point t writes back is block t of G1; the 32 blocks tile the result along its
  leading axis, hence the whole array.
-/
import proofs.«172676_j81381040325184_1_alg».proof.Proof.IdealValue1BlkA
import proofs.«172676_j81381040325184_1_alg».proof.Proof.IdealValue1BlkB

set_option maxRecDepth 16384

noncomputable section

open scoped BigOperators

namespace Cert.KernelIdeal.KValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- WHAT POINT t WRITES BACK is block t of G1 of the nine arrays as the region finds them. -/
theorem flushed9_eq (t : Fin cfg1.N) :
    (dat1 V c).flushed 9 t = ((cfg1.win 9).blk t).view.read (Elt Ideal)
      (G1 (V c (Pipeline.arrRef spec1 0)) (V c (Pipeline.arrRef spec1 1)) (V c (Pipeline.arrRef spec1 2)) (V c (Pipeline.arrRef spec1 3)) (V c (Pipeline.arrRef spec1 4))
        (V c (Pipeline.arrRef spec1 5)) (V c (Pipeline.arrRef spec1 6)) (V c (Pipeline.arrRef spec1 7)) (V c (Pipeline.arrRef spec1 8))) := by
  show (cfg1.win 9).cut (grid1.coords t) ((dat1 V c).after 9 t) = _
  rw [after1_9]
  unfold out1_9
  rw [View.canon_unit_zero hz1_3]
  simp only [View.ld_unit_zero (S := S1x64x2048) hz1_3, View.ld_unit_zero (S := S64x64) hz1_2, View.ld_unit_zero (S := S2048x2048) hz1_2,
    View.ld_unit_zero (S := S1x2048) hz1_2, View.ld_unit_zero (S := S1x1) hz1_2]
  obtain ⟨-, -, -, -, -, -, -, -, -, ⟨e90, e91, e92⟩, ht⟩ := idx_facts1 t
  funext j
  obtain ⟨u, p, n, rfl⟩ : ∃ (u : Fin 1) (p : Fin 64) (n : Fin 2048), j = ix3 u p n := ⟨j 0, j 1, j 2, eq_ix3 j⟩
  obtain rfl : u = 0 := Subsingleton.elim _ _
  refine (point1 _ _ _ _ _ _ _ _ _ _ _ _ _ _ _ _ _ _ (⟨t.val, ht⟩ : Fin 32) (blk1_0_apply V c t ht) (blk1_1_apply V c t ht) (blk1_2_apply V c t ht)
    (blk1_3_apply V c t) (blk1_4_apply V c t) (blk1_5_apply V c t) (blk1_6_apply V c t) (blk1_7_apply V c t) (blk1_8_apply V c t) p n).trans ?_
  rw [View.read_apply]
  refine congrArg _ (funext fun a => Fin.ext ?_)
  match a with
  | ⟨0, _⟩ => show t.val = win1_9.index t (0 : Fin 3) * 1 + 1 * 0; omega
  | ⟨1, _⟩ => show p.val = win1_9.index t (1 : Fin 3) * 64 + 1 * p.val; omega
  | ⟨2, _⟩ => show n.val = win1_9.index t (2 : Fin 3) * 2048 + 1 * n.val; omega

/-- An index of the result is in point t's block iff each coordinate is in the block's range on its axis. -/
theorem mem_blk9 (t : Fin cfg1.N) (i : S32x64x2048.Idx) :
    i ∈ ((cfg1.win 9).blk t).view.set ↔ ∀ a : Fin 3, win1_9.index t a * S1x64x2048.size a ≤ (i a).val ∧ (i a).val < win1_9.index t a * S1x64x2048.size a + S1x64x2048.size a := by
  show i ∈ ((View.whole main_v18).slice (win1_9.rect t)).set ↔ _
  rw [View.set_slice_whole, Rect.mem_set_unit]
  exact Iff.rfl

/-- Every block index 0 … 31 along the leading axis is some point's. -/
theorem idx_onto9 : ∀ (q0 : Fin 32), ∃ t : Fin cfg1.N, win1_9.index t = ![q0.val, 0, 0] :=
  (by decide +kernel : ∀ (q0 : Fin 32), ∃ t : Fin grid1.N, win1_9.index t = ![q0.val, 0, 0])

/-- The 32 blocks cover the result. -/
theorem cover9 (i : S32x64x2048.Idx) : ∃ t : Fin cfg1.N, (cfg1.win 9).flush t = true ∧ i ∈ ((cfg1.win 9).blk t).view.set := by
  have hi0 : (i 0).val < 32 := (i 0).isLt
  have hi1 : (i 1).val < 64 := (i 1).isLt
  have hi2 : (i 2).val < 2048 := (i 2).isLt
  obtain ⟨t, ht⟩ := idx_onto9 ⟨(i 0).val, hi0⟩
  have q0 : win1_9.index t (0 : Fin 3) = (i 0).val := congrFun ht 0
  have q1 : win1_9.index t (1 : Fin 3) = 0 := congrFun ht 1
  have q2 : win1_9.index t (2 : Fin 3) = 0 := congrFun ht 2
  refine ⟨t, flush1_9 t, ?_⟩
  rw [mem_blk9]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 64 ≤ (i 1).val ∧ (i 1).val < win1_9.index t (1 : Fin 3) * 64 + 64; omega
  | ⟨2, _⟩ => show win1_9.index t (2 : Fin 3) * 2048 ≤ (i 2).val ∧ (i 2).val < win1_9.index t (2 : Fin 3) * 2048 + 2048; omega

/-- THE RESULT ARRAY after the region: G1 of the nine arrays the region reads. -/
theorem final9 : (dat1 V c).arrAt 9 cfg1.N
    = G1 (V c (Pipeline.arrRef spec1 0)) (V c (Pipeline.arrRef spec1 1)) (V c (Pipeline.arrRef spec1 2)) (V c (Pipeline.arrRef spec1 3)) (V c (Pipeline.arrRef spec1 4))
        (V c (Pipeline.arrRef spec1 5)) (V c (Pipeline.arrRef spec1 6)) (V c (Pipeline.arrRef spec1 7)) (V c (Pipeline.arrRef spec1 8)) :=
  (dat1 V c).arrAt_eq_of_cover 9 _ (fun t _ => flushed9_eq V c t) (cover9)

end Cert.KernelIdeal.KValue

end
-- ==== Proof.IdealTerms.lean ====
/-
  What each intermediate buffer of the program holds, as a term over the launch memory and over the two regions'
  result arrays: the first host stretch (the input reshaped; the three weight matrices stacked along the rows and
  transposed; the three biases stacked and made a row), the second (the projection's result reshaped to
  [32, 64, 6144] and cut into queries, keys and values along the last axis; the output weights transposed; the four
  row and unit reshapes), and the last reshape. A change of float format is kept as written here and removed where
  an entry is read.
-/
import proofs.«172676_j81381040325184_1_alg».proof.Proof.IdealFrame
import Idealize.ShloMosaic.Lib.StableHlo.Run
import Idealize.ShloMosaic.PureOps.Ideal

set_option maxRecDepth 16384

noncomputable section

namespace Cert.KernelIdeal.KValue

open Cert.KernelIdeal Cert.KernelIdeal.Gen Cert.KernelIdeal.Frame
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array still holds its launch contents when the second region is entered. -/
theorem W2_arg (r : Ref sig .tc) (h0 : r ∉ hostOps0_W) (hw0 : ∀ w, Pipeline.arrRef spec0 w ≠ r) :
    W2 m ρ c (Proc.devRef .tc r) = m ((c : Thread nD τ).loc r) :=
  calc W2 m ρ c (Proc.devRef .tc r)
    _ = W1 m ρ c (Proc.devRef .tc r) := W2_of_ne m ρ c r hw0
    _ = W0 m ρ c (Proc.devRef .tc r) := StableHlo.after_of_writes_sub hostOps0 _ hostOps0_writes h0
    _ = m ((c : Thread nD τ).loc r) := rfl

/-! ## The first host stretch -/

theorem W1_v1 : W1 m ρ c (Proc.devRef .tc main_v1)
    = truncf (F := Ideal) .bf16 (shapeCast S2048x2048 (m ((c : Thread nD τ).loc main_arg0)) shapeCasts_S32x4x1024x32_S2048x2048) bitsLt_bf16_f32 := by
  show StableHlo.after hostOps0 (W0 m ρ c) (Proc.devRef .tc main_v1) = _
  after_results
  rfl

theorem W1_v4 : W1 m ρ c (Proc.devRef .tc main_v4)
    = truncf (F := Ideal) .bf16 (transpose S2048x6144 [1, 0] (concatenate S6144x2048 0
        [⟨S2048x2048, m ((c : Thread nD τ).loc main_arg2)⟩, ⟨S2048x2048, m ((c : Thread nD τ).loc main_arg4)⟩, ⟨S2048x2048, m ((c : Thread nD τ).loc main_arg6)⟩]
        concatenates_S2048x2048_S2048x2048_S2048x2048_S6144x2048_d0) transposes_S6144x2048_S2048x6144_1_0) bitsLt_bf16_f32 := by
  show StableHlo.after hostOps0 (W0 m ρ c) (Proc.devRef .tc main_v4) = _
  after_results
  try simp only [Matrix.cons_val_zero, Matrix.cons_val_one, Matrix.head_cons, Matrix.tail_cons, Matrix.cons_val_two]
  repeat (first | (rw [unary_result_ne]; rotate_left; decide) | (rw [reshape_result_ne]; rotate_left; decide) | (rw [nary_result_ne]; rotate_left; decide))
  rfl

theorem W1_v6 : W1 m ρ c (Proc.devRef .tc main_v6)
    = shapeCast S1x6144 (concatenate S6144 0
        [⟨S2048, m ((c : Thread nD τ).loc main_arg3)⟩, ⟨S2048, m ((c : Thread nD τ).loc main_arg5)⟩, ⟨S2048, m ((c : Thread nD τ).loc main_arg7)⟩]
        concatenates_S2048_S2048_S2048_S6144_d0) shapeCasts_S6144_S1x6144 := by
  show StableHlo.after hostOps0 (W0 m ρ c) (Proc.devRef .tc main_v6) = _
  after_results
  try simp only [Matrix.cons_val_zero, Matrix.cons_val_one, Matrix.head_cons, Matrix.tail_cons, Matrix.cons_val_two]
  repeat (first | (rw [unary_result_ne]; rotate_left; decide) | (rw [reshape_result_ne]; rotate_left; decide) | (rw [nary_result_ne]; rotate_left; decide))
  rfl

/-! ## The second host stretch -/

theorem W3_v9 : W3 m ρ c (Proc.devRef .tc main_v9)
    = extractStridedSlice S32x64x2048 ![0, 0, 0] (shapeCast S32x64x6144 (W2 m ρ c (Proc.devRef .tc main_v7)) shapeCasts_S2048x6144_S32x64x6144) slices_S32x64x6144_S32x64x2048_0_0_0 := by
  show StableHlo.after hostOps1 (W2 m ρ c) (Proc.devRef .tc main_v9) = _
  after_results
  rfl

theorem W3_v10 : W3 m ρ c (Proc.devRef .tc main_v10)
    = extractStridedSlice S32x64x2048 ![0, 0, 2048] (shapeCast S32x64x6144 (W2 m ρ c (Proc.devRef .tc main_v7)) shapeCasts_S2048x6144_S32x64x6144) slices_S32x64x6144_S32x64x2048_0_0_2048 := by
  show StableHlo.after hostOps1 (W2 m ρ c) (Proc.devRef .tc main_v10) = _
  after_results
  rfl

theorem W3_v11 : W3 m ρ c (Proc.devRef .tc main_v11)
    = extractStridedSlice S32x64x2048 ![0, 0, 4096] (shapeCast S32x64x6144 (W2 m ρ c (Proc.devRef .tc main_v7)) shapeCasts_S2048x6144_S32x64x6144) slices_S32x64x6144_S32x64x2048_0_0_4096 := by
  show StableHlo.after hostOps1 (W2 m ρ c) (Proc.devRef .tc main_v11) = _
  after_results
  rfl

theorem W3_v13 : W3 m ρ c (Proc.devRef .tc main_v13)
    = truncf (F := Ideal) .bf16 (transpose S2048x2048 [1, 0] (m ((c : Thread nD τ).loc main_arg8)) transposes_S2048x2048_S2048x2048_1_0) bitsLt_bf16_f32 := by
  show StableHlo.after hostOps1 (W2 m ρ c) (Proc.devRef .tc main_v13) = _
  after_results
  rw [W2_arg m ρ c main_arg8 (by decide) (by decide)]

theorem W3_v14 : W3 m ρ c (Proc.devRef .tc main_v14)
    = shapeCast S1x2048 (m ((c : Thread nD τ).loc main_arg9)) shapeCasts_S2048_S1x2048 := by
  show StableHlo.after hostOps1 (W2 m ρ c) (Proc.devRef .tc main_v14) = _
  after_results
  rw [W2_arg m ρ c main_arg9 (by decide) (by decide)]
  rfl

theorem W3_v15 : W3 m ρ c (Proc.devRef .tc main_v15)
    = shapeCast S1x2048 (m ((c : Thread nD τ).loc main_arg10)) shapeCasts_S2048_S1x2048 := by
  show StableHlo.after hostOps1 (W2 m ρ c) (Proc.devRef .tc main_v15) = _
  after_results
  rw [W2_arg m ρ c main_arg10 (by decide) (by decide)]
  rfl

theorem W3_v16 : W3 m ρ c (Proc.devRef .tc main_v16)
    = shapeCast S1x2048 (m ((c : Thread nD τ).loc main_arg11)) shapeCasts_S2048_S1x2048 := by
  show StableHlo.after hostOps1 (W2 m ρ c) (Proc.devRef .tc main_v16) = _
  after_results
  rw [W2_arg m ρ c main_arg11 (by decide) (by decide)]
  rfl

theorem W3_v17 : W3 m ρ c (Proc.devRef .tc main_v17)
    = shapeCast S1x1 (m ((c : Thread nD τ).loc main_arg12)) shapeCasts_S_S1x1 := by
  show StableHlo.after hostOps1 (W2 m ρ c) (Proc.devRef .tc main_v17) = _
  after_results
  rw [W2_arg m ρ c main_arg12 (by decide) (by decide)]
  rfl

theorem W3_arg1 : W3 m ρ c (Proc.devRef .tc main_arg1) = m ((c : Thread nD τ).loc main_arg1) := by
  show StableHlo.after hostOps1 (W2 m ρ c) (Proc.devRef .tc main_arg1) = _
  after_results
  exact W2_arg m ρ c main_arg1 (by decide) (by decide)

/-! ## The last reshape -/

theorem W5_v19 : W5 m ρ c (Proc.devRef .tc main_v19)
    = shapeCast S32x1024x128 (W4 m ρ c (Proc.devRef .tc main_v18)) shapeCasts_S32x64x2048_S32x1024x128 := by
  show StableHlo.after hostOps2 (W4 m ρ c) (Proc.devRef .tc main_v19) = _
  after_results
  rfl

end Cert.KernelIdeal.KValue

end
-- ==== Proof.Inputs.lean ====
/-
  The thirteen argument arrays as the curried inputs of the specification. The 4-dimensional input [32, 4, 1024, 32]
  is read as x[b, t, i] with b < 32, t < 64, i < 2048 through its row-major order: position
  b·131072 + t·2048 + i, whose coordinates are (b, t / 16, (t % 16)·64 + i / 32, i % 32). The weight matrices are
  read W[o, i], the vectors v[o], the decay mask dg[t, s], and the rank-0 slope at its one index.
-/
import Mathlib
import Idealize.ShloMosaic.PureOps.Ideal
import Idealize.ShloMosaic.Lib.ValueIdx

noncomputable section

namespace Cert.Inputs

open Idealize.ShloMosaic Idealize.ShloMosaic.ValueIdx

/-- The index of the 4-dimensional input whose row-major position is that of (b, t, i) in [32, 64, 2048]. -/
def kx (b : Fin 32) (t : Fin 64) (i : Fin 2048) : (⟨4, ![32, 4, 1024, 32]⟩ : Shape).Idx :=
  ix4 b ⟨t.val / 16, by omega⟩ ⟨(t.val % 16) * 64 + i.val / 32, by omega⟩ ⟨i.val % 32, by omega⟩

theorem kx_rowMajor (b : Fin 32) (t : Fin 64) (i : Fin 2048) :
    ((⟨4, ![32, 4, 1024, 32]⟩ : Shape).rowMajor (kx b t i)).val = b.val * 131072 + t.val * 2048 + i.val := by
  rw [Shape.rowMajor_val_four]
  show ((b.val * 4 + t.val / 16) * 1024 + ((t.val % 16) * 64 + i.val / 32)) * 32 + i.val % 32 = _
  omega

/-- x[b, t, i]. -/
def xOf (A : (⟨4, ![32, 4, 1024, 32]⟩ : Shape).Idx → EReal) : Fin 32 → Fin 64 → Fin 2048 → EReal := fun b t i => A (kx b t i)
/-- W[o, i]. -/
def wOf (A : (⟨2, ![2048, 2048]⟩ : Shape).Idx → EReal) : Fin 2048 → Fin 2048 → EReal := fun o i => A (ix2 o i)
/-- v[o]. -/
def vOf (A : (⟨1, ![2048]⟩ : Shape).Idx → EReal) : Fin 2048 → EReal := fun o => A (ix1 o)
/-- dg[t, s]. -/
def dgOf (A : (⟨2, ![64, 64]⟩ : Shape).Idx → EReal) : Fin 64 → Fin 64 → EReal := fun t s => A (ix2 t s)
/-- The rank-0 array's one entry. -/
def aOf (A : (⟨0, ![]⟩ : Shape).Idx → EReal) : EReal := A ix0

/-- The index of the [32, 1024, 128] result whose row-major position is that of (b, t, n) in [32, 64, 2048]. -/
def outIdx (b : Fin 32) (t : Fin 64) (n : Fin 2048) : (⟨3, ![32, 1024, 128]⟩ : Shape).Idx :=
  ix3 b ⟨t.val * 16 + n.val / 128, by omega⟩ ⟨n.val % 128, by omega⟩

theorem outIdx_rowMajor (b : Fin 32) (t : Fin 64) (n : Fin 2048) :
    ((⟨3, ![32, 1024, 128]⟩ : Shape).rowMajor (outIdx b t n)).val = (b.val * 64 + t.val) * 2048 + n.val := by
  rw [Shape.rowMajor_val_three]
  show (b.val * 1024 + (t.val * 16 + n.val / 128)) * 128 + n.val % 128 = _
  omega

/-- Every index of the result is the index of some (b, t, n). -/
theorem outIdx_surj (j : (⟨3, ![32, 1024, 128]⟩ : Shape).Idx) : ∃ b t n, j = outIdx b t n := by
  have h0 := (j 0).isLt; have h1 := (j 1).isLt; have h2 := (j 2).isLt
  refine ⟨j 0, ⟨(j 1).val / 16, ?_⟩, ⟨((j 1).val % 16) * 128 + (j 2).val, ?_⟩, ?_⟩
  · show (j 1).val / 16 < 64
    have : (j 1).val < 1024 := h1
    omega
  · show ((j 1).val % 16) * 128 + (j 2).val < 2048
    have : (j 2).val < 128 := h2
    omega
  · funext a
    apply Fin.ext
    have e1 : (j 1).val < 1024 := h1
    have e2 : (j 2).val < 128 := h2
    match a with
    | ⟨0, _⟩ => rfl
    | ⟨1, _⟩ =>
      show (j 1).val = (j 1).val / 16 * 16 + ((j 1).val % 16 * 128 + (j 2).val) / 128
      omega
    | ⟨2, _⟩ =>
      show (j 2).val = ((j 1).val % 16 * 128 + (j 2).val) % 128
      omega

end Cert.Inputs

end
-- ==== Proof.KHostA.lean ====
/- The re-layings of arrays around the two launches, read at an index: reshapes, transposes and column slices.

   Every operation here moves entries without changing them, so each lemma says which entry of the operand sits at
   a given index of the result. A reshape keeps the row-major position: `[32, 4, 1024, 32]` read as 2048 rows of 2048 has
   entry `x[b, t, i]` at row `b · 64 + t`, column `i`; 2048 rows regrouped as `[32, 64, ·]` have row `b · 64 + t` at
   `(b, t)`; and `[32, 64, 2048]` read as `[32, 1024, 128]` keeps position `(b · 64 + t) · 2048 + n`. A transpose
   swaps the two coordinates. A slice at column offset `c` reads column `c + d`. A narrowing of the float format
   is the identity on extended reals. -/
import Idealize.ShloMosaic.PureOps.Ideal
import Idealize.ShloMosaic.Lib.Pipeline.Value
import Idealize.ShloMosaic.Lib.ValueIdx
import Idealize.ShloMosaic.Lib.ValueLayout
import proofs.«172676_j81381040325184_1_alg».proof.Proof.Inputs

noncomputable section

namespace Cert.KHost

open Idealize.ShloMosaic Idealize.ShloMosaic.ValueIdx

/-- Narrowing the float format of an array of extended reals changes nothing. -/
theorem truncf_ideal {s : Shape} {φ ψ : FTy} (v : FVec Ideal s φ) (h : ψ.bits < φ.bits) :
    (truncf (F := Ideal) ψ v h : s.Idx → EReal) = v := rfl

/-- The activations as 2048 rows of 2048: row `b · 64 + t`, column `i` is `x[b, t, i]`. -/
theorem x_rows (X : (⟨4, ![32, 4, 1024, 32]⟩ : Shape).Idx → EReal) (h : (⟨4, ![32, 4, 1024, 32]⟩ : Shape).ShapeCasts (⟨2, ![2048, 2048]⟩ : Shape))
    (b : Fin 32) (t : Fin 64) (i : Fin 2048) :
    shapeCast (⟨2, ![2048, 2048]⟩ : Shape) X h
        (ix2 (⟨b.val * 64 + t.val, by have := b.isLt; have := t.isLt; omega⟩ : Fin 2048) i)
      = Cert.Inputs.xOf X b t i := by
  refine shapeCast_apply X h _ (Cert.Inputs.kx b t i) ?_
  rw [Cert.Inputs.kx_rowMajor, Shape.rowMajor_val_two]
  show b.val * 131072 + t.val * 2048 + i.val = (b.val * 64 + t.val) * 2048 + i.val
  omega

/-- The slice at column offset `0` of the rows regrouped by batch reads column `d.val` of row `b · 64 + t`. -/
theorem slice_q (Y : (⟨2, ![2048, 6144]⟩ : Shape).Idx → EReal) (hs : (⟨2, ![2048, 6144]⟩ : Shape).ShapeCasts (⟨3, ![32, 64, 6144]⟩ : Shape))
    (hsl : (⟨3, ![32, 64, 6144]⟩ : Shape).Slices ![0, 0, 0] (⟨3, ![32, 64, 2048]⟩ : Shape)) (b : Fin 32) (t : Fin 64) (d : Fin 2048) :
    extractStridedSlice (⟨3, ![32, 64, 2048]⟩ : Shape) ![0, 0, 0] (shapeCast (⟨3, ![32, 64, 6144]⟩ : Shape) Y hs) hsl (ix3 b t d)
      = Y (ix2 (⟨b.val * 64 + t.val, by have := b.isLt; have := t.isLt; omega⟩ : Fin 2048)
            (⟨d.val, by have := d.isLt; omega⟩ : Fin 6144)) := by
  refine (extractStridedSlice_apply ![0, 0, 0] _ hsl _
    (ix3 b t (⟨d.val, by have := d.isLt; omega⟩ : Fin 6144)) ?_).trans ?_
  · intro a
    match a with
    | ⟨0, _⟩ => show b.val = 0 + b.val; omega
    | ⟨1, _⟩ => show t.val = 0 + t.val; omega
    | ⟨2, _⟩ => show d.val = 0 + d.val; omega
  · refine shapeCast_apply Y hs _ _ ?_
    rw [Shape.rowMajor_val_two, Shape.rowMajor_val_three]
    show (b.val * 64 + t.val) * 6144 + (d.val) = (b.val * 64 + t.val) * 6144 + (d.val)
    rfl

/-- The slice at column offset `2048` of the rows regrouped by batch reads column `2048 + d.val` of row `b · 64 + t`. -/
theorem slice_k (Y : (⟨2, ![2048, 6144]⟩ : Shape).Idx → EReal) (hs : (⟨2, ![2048, 6144]⟩ : Shape).ShapeCasts (⟨3, ![32, 64, 6144]⟩ : Shape))
    (hsl : (⟨3, ![32, 64, 6144]⟩ : Shape).Slices ![0, 0, 2048] (⟨3, ![32, 64, 2048]⟩ : Shape)) (b : Fin 32) (t : Fin 64) (d : Fin 2048) :
    extractStridedSlice (⟨3, ![32, 64, 2048]⟩ : Shape) ![0, 0, 2048] (shapeCast (⟨3, ![32, 64, 6144]⟩ : Shape) Y hs) hsl (ix3 b t d)
      = Y (ix2 (⟨b.val * 64 + t.val, by have := b.isLt; have := t.isLt; omega⟩ : Fin 2048)
            (⟨2048 + d.val, by have := d.isLt; omega⟩ : Fin 6144)) := by
  refine (extractStridedSlice_apply ![0, 0, 2048] _ hsl _
    (ix3 b t (⟨2048 + d.val, by have := d.isLt; omega⟩ : Fin 6144)) ?_).trans ?_
  · intro a
    match a with
    | ⟨0, _⟩ => show b.val = 0 + b.val; omega
    | ⟨1, _⟩ => show t.val = 0 + t.val; omega
    | ⟨2, _⟩ => show 2048 + d.val = 2048 + d.val; omega
  · refine shapeCast_apply Y hs _ _ ?_
    rw [Shape.rowMajor_val_two, Shape.rowMajor_val_three]
    show (b.val * 64 + t.val) * 6144 + (2048 + d.val) = (b.val * 64 + t.val) * 6144 + (2048 + d.val)
    rfl

/-- The slice at column offset `4096` of the rows regrouped by batch reads column `4096 + d.val` of row `b · 64 + t`. -/
theorem slice_v (Y : (⟨2, ![2048, 6144]⟩ : Shape).Idx → EReal) (hs : (⟨2, ![2048, 6144]⟩ : Shape).ShapeCasts (⟨3, ![32, 64, 6144]⟩ : Shape))
    (hsl : (⟨3, ![32, 64, 6144]⟩ : Shape).Slices ![0, 0, 4096] (⟨3, ![32, 64, 2048]⟩ : Shape)) (b : Fin 32) (t : Fin 64) (d : Fin 2048) :
    extractStridedSlice (⟨3, ![32, 64, 2048]⟩ : Shape) ![0, 0, 4096] (shapeCast (⟨3, ![32, 64, 6144]⟩ : Shape) Y hs) hsl (ix3 b t d)
      = Y (ix2 (⟨b.val * 64 + t.val, by have := b.isLt; have := t.isLt; omega⟩ : Fin 2048)
            (⟨4096 + d.val, by have := d.isLt; omega⟩ : Fin 6144)) := by
  refine (extractStridedSlice_apply ![0, 0, 4096] _ hsl _
    (ix3 b t (⟨4096 + d.val, by have := d.isLt; omega⟩ : Fin 6144)) ?_).trans ?_
  · intro a
    match a with
    | ⟨0, _⟩ => show b.val = 0 + b.val; omega
    | ⟨1, _⟩ => show t.val = 0 + t.val; omega
    | ⟨2, _⟩ => show 4096 + d.val = 4096 + d.val; omega
  · refine shapeCast_apply Y hs _ _ ?_
    rw [Shape.rowMajor_val_two, Shape.rowMajor_val_three]
    show (b.val * 64 + t.val) * 6144 + (4096 + d.val) = (b.val * 64 + t.val) * 6144 + (4096 + d.val)
    rfl

/-- The transposed output weights: entry `(d, n)` is entry `(n, d)`. -/
theorem wT_o (W : (⟨2, ![2048, 2048]⟩ : Shape).Idx → EReal) (ht : (⟨2, ![2048, 2048]⟩ : Shape).Transposes [1, 0] (⟨2, ![2048, 2048]⟩ : Shape)) (d n : Fin 2048) :
    transpose (⟨2, ![2048, 2048]⟩ : Shape) [1, 0] W ht (ix2 d n) = W (ix2 n d) := by
  refine transpose_apply [1, 0] W ht _ (ix2 n d) ?_
  intro b
  match b with
  | ⟨0, _⟩ => rfl
  | ⟨1, _⟩ => rfl

/-- A vector of 2048 as one row. -/
theorem row_of_vec (v : (⟨1, ![2048]⟩ : Shape).Idx → EReal) (h : (⟨1, ![2048]⟩ : Shape).ShapeCasts (⟨2, ![1, 2048]⟩ : Shape)) (n : Fin 2048) :
    shapeCast (⟨2, ![1, 2048]⟩ : Shape) v h (ix2 (0 : Fin 1) n) = v (ix1 n) := by
  refine shapeCast_apply v h _ (ix1 n) ?_
  rw [Shape.rowMajor_val_one, Shape.rowMajor_val_two]
  show n.val = 0 * 2048 + n.val
  omega

/-- A scalar as a 1 × 1 array. -/
theorem cell_of_scalar (a : (⟨0, ![]⟩ : Shape).Idx → EReal) (h : (⟨0, ![]⟩ : Shape).ShapeCasts (⟨2, ![1, 1]⟩ : Shape)) :
    shapeCast (⟨2, ![1, 1]⟩ : Shape) a h (ix2 (0 : Fin 1) (0 : Fin 1)) = a ix0 := by
  unfold shapeCast
  exact congrArg a (eq_ix0 _)

/-- The result read as `[32, 1024, 128]`: the entry at the index of `(b, t, n)` is entry `(b, t, n)`. -/
theorem out_flat (Y : (⟨3, ![32, 64, 2048]⟩ : Shape).Idx → EReal) (h : (⟨3, ![32, 64, 2048]⟩ : Shape).ShapeCasts (⟨3, ![32, 1024, 128]⟩ : Shape))
    (b : Fin 32) (t : Fin 64) (n : Fin 2048) :
    shapeCast (⟨3, ![32, 1024, 128]⟩ : Shape) Y h (Cert.Inputs.outIdx b t n) = Y (ix3 b t n) := by
  refine shapeCast_apply Y h _ (ix3 b t n) ?_
  rw [Cert.Inputs.outIdx_rowMajor, Shape.rowMajor_val_three]
  rfl

end Cert.KHost

end
-- ==== Proof.KHostB.lean ====
/- The stacked projection weights and biases, read at an index.

   The three 2048 × 2048 weight matrices are laid one under another (6144 rows) and the stack is transposed, so column
   `c` of the result is row `c` of the stack: columns `0 … 2047` are the rows of the first matrix, `2048 … 4095` those
   of the second, `4096 … 6143` those of the third. The three biases are laid end to end the same way and read as one
   row of 6144. -/
import Idealize.ShloMosaic.PureOps.Ideal
import Idealize.ShloMosaic.Lib.Pipeline.Value
import Idealize.ShloMosaic.Lib.ValueIdx
import Idealize.ShloMosaic.Lib.ValueLayout
import proofs.«172676_j81381040325184_1_alg».proof.Proof.Inputs

noncomputable section

namespace Cert.KHost

open Idealize.ShloMosaic Idealize.ShloMosaic.ValueIdx

/-- Column `o.val` of the stacked, transposed weights is row `o` of the first matrix. -/
theorem wT_q (Wq Wk Wv : (⟨2, ![2048, 2048]⟩ : Shape).Idx → EReal)
    (hc : Shape.Concatenates [(⟨2, ![2048, 2048]⟩ : Shape), (⟨2, ![2048, 2048]⟩ : Shape), (⟨2, ![2048, 2048]⟩ : Shape)] (⟨2, ![6144, 2048]⟩ : Shape) 0)
    (ht : (⟨2, ![6144, 2048]⟩ : Shape).Transposes [1, 0] (⟨2, ![2048, 6144]⟩ : Shape)) (i o : Fin 2048) :
    transpose (⟨2, ![2048, 6144]⟩ : Shape) [1, 0]
        (concatenate (⟨2, ![6144, 2048]⟩ : Shape) 0
          ([⟨(⟨2, ![2048, 2048]⟩ : Shape), Wq⟩, ⟨(⟨2, ![2048, 2048]⟩ : Shape), Wk⟩, ⟨(⟨2, ![2048, 2048]⟩ : Shape), Wv⟩] : List ((s : Shape) × (s.Idx → EReal))) hc) ht
        (ix2 i (⟨o.val, by have := o.isLt; omega⟩ : Fin 6144))
      = Wq (ix2 o i) := by
  refine (transpose_apply [1, 0] _ ht _ (ix2 (⟨o.val, by have := o.isLt; omega⟩ : Fin 6144) i) ?_).trans ?_
  · intro b
    match b with
    | ⟨0, _⟩ => rfl
    | ⟨1, _⟩ => rfl
  · refine concatenate_apply_piece (t := (⟨2, ![6144, 2048]⟩ : Shape)) 0
      ([⟨(⟨2, ![2048, 2048]⟩ : Shape), Wq⟩, ⟨(⟨2, ![2048, 2048]⟩ : Shape), Wk⟩, ⟨(⟨2, ![2048, 2048]⟩ : Shape), Wv⟩] : List ((s : Shape) × (s.Idx → EReal))) hc _ 0 (by simp) (⟨2, ![2048, 2048]⟩ : Shape) Wq rfl rfl 0 (by simp) (ix2 o i) ?_ ?_
    · intro b hb
      match b with
      | ⟨0, _⟩ => exact absurd rfl hb
      | ⟨1, _⟩ => rfl
    · show 0 + o.val = o.val; omega

/-- Column `2048 + o.val` of the stacked, transposed weights is row `o` of the second matrix. -/
theorem wT_k (Wq Wk Wv : (⟨2, ![2048, 2048]⟩ : Shape).Idx → EReal)
    (hc : Shape.Concatenates [(⟨2, ![2048, 2048]⟩ : Shape), (⟨2, ![2048, 2048]⟩ : Shape), (⟨2, ![2048, 2048]⟩ : Shape)] (⟨2, ![6144, 2048]⟩ : Shape) 0)
    (ht : (⟨2, ![6144, 2048]⟩ : Shape).Transposes [1, 0] (⟨2, ![2048, 6144]⟩ : Shape)) (i o : Fin 2048) :
    transpose (⟨2, ![2048, 6144]⟩ : Shape) [1, 0]
        (concatenate (⟨2, ![6144, 2048]⟩ : Shape) 0
          ([⟨(⟨2, ![2048, 2048]⟩ : Shape), Wq⟩, ⟨(⟨2, ![2048, 2048]⟩ : Shape), Wk⟩, ⟨(⟨2, ![2048, 2048]⟩ : Shape), Wv⟩] : List ((s : Shape) × (s.Idx → EReal))) hc) ht
        (ix2 i (⟨2048 + o.val, by have := o.isLt; omega⟩ : Fin 6144))
      = Wk (ix2 o i) := by
  refine (transpose_apply [1, 0] _ ht _ (ix2 (⟨2048 + o.val, by have := o.isLt; omega⟩ : Fin 6144) i) ?_).trans ?_
  · intro b
    match b with
    | ⟨0, _⟩ => rfl
    | ⟨1, _⟩ => rfl
  · refine concatenate_apply_piece (t := (⟨2, ![6144, 2048]⟩ : Shape)) 0
      ([⟨(⟨2, ![2048, 2048]⟩ : Shape), Wq⟩, ⟨(⟨2, ![2048, 2048]⟩ : Shape), Wk⟩, ⟨(⟨2, ![2048, 2048]⟩ : Shape), Wv⟩] : List ((s : Shape) × (s.Idx → EReal))) hc _ 1 (by simp) (⟨2, ![2048, 2048]⟩ : Shape) Wk rfl rfl 2048 (by simp) (ix2 o i) ?_ ?_
    · intro b hb
      match b with
      | ⟨0, _⟩ => exact absurd rfl hb
      | ⟨1, _⟩ => rfl
    · show 2048 + o.val = 2048 + o.val; omega

/-- Column `4096 + o.val` of the stacked, transposed weights is row `o` of the third matrix. -/
theorem wT_v (Wq Wk Wv : (⟨2, ![2048, 2048]⟩ : Shape).Idx → EReal)
    (hc : Shape.Concatenates [(⟨2, ![2048, 2048]⟩ : Shape), (⟨2, ![2048, 2048]⟩ : Shape), (⟨2, ![2048, 2048]⟩ : Shape)] (⟨2, ![6144, 2048]⟩ : Shape) 0)
    (ht : (⟨2, ![6144, 2048]⟩ : Shape).Transposes [1, 0] (⟨2, ![2048, 6144]⟩ : Shape)) (i o : Fin 2048) :
    transpose (⟨2, ![2048, 6144]⟩ : Shape) [1, 0]
        (concatenate (⟨2, ![6144, 2048]⟩ : Shape) 0
          ([⟨(⟨2, ![2048, 2048]⟩ : Shape), Wq⟩, ⟨(⟨2, ![2048, 2048]⟩ : Shape), Wk⟩, ⟨(⟨2, ![2048, 2048]⟩ : Shape), Wv⟩] : List ((s : Shape) × (s.Idx → EReal))) hc) ht
        (ix2 i (⟨4096 + o.val, by have := o.isLt; omega⟩ : Fin 6144))
      = Wv (ix2 o i) := by
  refine (transpose_apply [1, 0] _ ht _ (ix2 (⟨4096 + o.val, by have := o.isLt; omega⟩ : Fin 6144) i) ?_).trans ?_
  · intro b
    match b with
    | ⟨0, _⟩ => rfl
    | ⟨1, _⟩ => rfl
  · refine concatenate_apply_piece (t := (⟨2, ![6144, 2048]⟩ : Shape)) 0
      ([⟨(⟨2, ![2048, 2048]⟩ : Shape), Wq⟩, ⟨(⟨2, ![2048, 2048]⟩ : Shape), Wk⟩, ⟨(⟨2, ![2048, 2048]⟩ : Shape), Wv⟩] : List ((s : Shape) × (s.Idx → EReal))) hc _ 2 (by simp) (⟨2, ![2048, 2048]⟩ : Shape) Wv rfl rfl 4096 (by simp) (ix2 o i) ?_ ?_
    · intro b hb
      match b with
      | ⟨0, _⟩ => exact absurd rfl hb
      | ⟨1, _⟩ => rfl
    · show 4096 + o.val = 4096 + o.val; omega

/-- Entry `o.val` of the stacked bias row is entry `o` of the first bias. -/
theorem bias_q (bq bk bv : (⟨1, ![2048]⟩ : Shape).Idx → EReal)
    (hc : Shape.Concatenates [(⟨1, ![2048]⟩ : Shape), (⟨1, ![2048]⟩ : Shape), (⟨1, ![2048]⟩ : Shape)] (⟨1, ![6144]⟩ : Shape) 0)
    (hs : (⟨1, ![6144]⟩ : Shape).ShapeCasts (⟨2, ![1, 6144]⟩ : Shape)) (o : Fin 2048) :
    shapeCast (⟨2, ![1, 6144]⟩ : Shape)
        (concatenate (⟨1, ![6144]⟩ : Shape) 0
          ([⟨(⟨1, ![2048]⟩ : Shape), bq⟩, ⟨(⟨1, ![2048]⟩ : Shape), bk⟩, ⟨(⟨1, ![2048]⟩ : Shape), bv⟩] : List ((s : Shape) × (s.Idx → EReal))) hc) hs
        (ix2 (0 : Fin 1) (⟨o.val, by have := o.isLt; omega⟩ : Fin 6144))
      = bq (ix1 o) := by
  refine (shapeCast_apply _ hs _ (ix1 (⟨o.val, by have := o.isLt; omega⟩ : Fin 6144)) ?_).trans ?_
  · rw [Shape.rowMajor_val_one, Shape.rowMajor_val_two]
    show o.val = 0 * 6144 + (o.val)
    omega
  · refine concatenate_apply_piece (t := (⟨1, ![6144]⟩ : Shape)) 0
      ([⟨(⟨1, ![2048]⟩ : Shape), bq⟩, ⟨(⟨1, ![2048]⟩ : Shape), bk⟩, ⟨(⟨1, ![2048]⟩ : Shape), bv⟩] : List ((s : Shape) × (s.Idx → EReal))) hc _ 0 (by simp) (⟨1, ![2048]⟩ : Shape) bq rfl rfl 0 (by simp) (ix1 o) ?_ ?_
    · intro b hb
      match b with
      | ⟨0, _⟩ => exact absurd rfl hb
    · show 0 + o.val = o.val; omega

/-- Entry `2048 + o.val` of the stacked bias row is entry `o` of the second bias. -/
theorem bias_k (bq bk bv : (⟨1, ![2048]⟩ : Shape).Idx → EReal)
    (hc : Shape.Concatenates [(⟨1, ![2048]⟩ : Shape), (⟨1, ![2048]⟩ : Shape), (⟨1, ![2048]⟩ : Shape)] (⟨1, ![6144]⟩ : Shape) 0)
    (hs : (⟨1, ![6144]⟩ : Shape).ShapeCasts (⟨2, ![1, 6144]⟩ : Shape)) (o : Fin 2048) :
    shapeCast (⟨2, ![1, 6144]⟩ : Shape)
        (concatenate (⟨1, ![6144]⟩ : Shape) 0
          ([⟨(⟨1, ![2048]⟩ : Shape), bq⟩, ⟨(⟨1, ![2048]⟩ : Shape), bk⟩, ⟨(⟨1, ![2048]⟩ : Shape), bv⟩] : List ((s : Shape) × (s.Idx → EReal))) hc) hs
        (ix2 (0 : Fin 1) (⟨2048 + o.val, by have := o.isLt; omega⟩ : Fin 6144))
      = bk (ix1 o) := by
  refine (shapeCast_apply _ hs _ (ix1 (⟨2048 + o.val, by have := o.isLt; omega⟩ : Fin 6144)) ?_).trans ?_
  · rw [Shape.rowMajor_val_one, Shape.rowMajor_val_two]
    show 2048 + o.val = 0 * 6144 + (2048 + o.val)
    omega
  · refine concatenate_apply_piece (t := (⟨1, ![6144]⟩ : Shape)) 0
      ([⟨(⟨1, ![2048]⟩ : Shape), bq⟩, ⟨(⟨1, ![2048]⟩ : Shape), bk⟩, ⟨(⟨1, ![2048]⟩ : Shape), bv⟩] : List ((s : Shape) × (s.Idx → EReal))) hc _ 1 (by simp) (⟨1, ![2048]⟩ : Shape) bk rfl rfl 2048 (by simp) (ix1 o) ?_ ?_
    · intro b hb
      match b with
      | ⟨0, _⟩ => exact absurd rfl hb
    · show 2048 + o.val = 2048 + o.val; omega

/-- Entry `4096 + o.val` of the stacked bias row is entry `o` of the third bias. -/
theorem bias_v (bq bk bv : (⟨1, ![2048]⟩ : Shape).Idx → EReal)
    (hc : Shape.Concatenates [(⟨1, ![2048]⟩ : Shape), (⟨1, ![2048]⟩ : Shape), (⟨1, ![2048]⟩ : Shape)] (⟨1, ![6144]⟩ : Shape) 0)
    (hs : (⟨1, ![6144]⟩ : Shape).ShapeCasts (⟨2, ![1, 6144]⟩ : Shape)) (o : Fin 2048) :
    shapeCast (⟨2, ![1, 6144]⟩ : Shape)
        (concatenate (⟨1, ![6144]⟩ : Shape) 0
          ([⟨(⟨1, ![2048]⟩ : Shape), bq⟩, ⟨(⟨1, ![2048]⟩ : Shape), bk⟩, ⟨(⟨1, ![2048]⟩ : Shape), bv⟩] : List ((s : Shape) × (s.Idx → EReal))) hc) hs
        (ix2 (0 : Fin 1) (⟨4096 + o.val, by have := o.isLt; omega⟩ : Fin 6144))
      = bv (ix1 o) := by
  refine (shapeCast_apply _ hs _ (ix1 (⟨4096 + o.val, by have := o.isLt; omega⟩ : Fin 6144)) ?_).trans ?_
  · rw [Shape.rowMajor_val_one, Shape.rowMajor_val_two]
    show 4096 + o.val = 0 * 6144 + (4096 + o.val)
    omega
  · refine concatenate_apply_piece (t := (⟨1, ![6144]⟩ : Shape)) 0
      ([⟨(⟨1, ![2048]⟩ : Shape), bq⟩, ⟨(⟨1, ![2048]⟩ : Shape), bk⟩, ⟨(⟨1, ![2048]⟩ : Shape), bv⟩] : List ((s : Shape) × (s.Idx → EReal))) hc _ 2 (by simp) (⟨1, ![2048]⟩ : Shape) bv rfl rfl 4096 (by simp) (ix1 o) ?_ ?_
    · intro b hb
      match b with
      | ⟨0, _⟩ => exact absurd rfl hb
    · show 4096 + o.val = 4096 + o.val; omega

end Cert.KHost

end
-- ==== Proof.KHost.lean ====
/- The re-layings of arrays around the two launches, read at an index, gathered: the reshapes, transposes and column
   slices (first half) and the stacked projection weights and biases (second half). -/
import proofs.«172676_j81381040325184_1_alg».proof.Proof.KHostA
import proofs.«172676_j81381040325184_1_alg».proof.Proof.KHostB
-- ==== Proof.IdealCompose.lean ====
/-
  The kernel program's result, read at the index of (batch b, token t, output n), is the specification's kernel
  spelling of the block. Going back from the result: the last reshape keeps row-major positions; the retention
  region's array is, entry by entry, the rectified projection of the normalised retention of the batch entry's
  queries, keys and values; those are the three column ranges [0, 2048), [2048, 4096), [4096, 6144) of the projection
  region's array, whose entry (b·64 + t, col) is the input row against the col-th row of the stacked weights plus the
  col-th stacked bias — that is, x·Wqᵀ + bq, x·Wkᵀ + bk and x·Wvᵀ + bv.
-/
import proofs.«172676_j81381040325184_1_alg».proof.Proof.IdealValue0
import proofs.«172676_j81381040325184_1_alg».proof.Proof.IdealValue1
import proofs.«172676_j81381040325184_1_alg».proof.Proof.IdealTerms
import proofs.«172676_j81381040325184_1_alg».proof.Proof.KHost
import proofs.«172676_j81381040325184_1_alg».proof.Proof.Spec
import proofs.«172676_j81381040325184_1_alg».proof.Proof.Inputs

set_option maxRecDepth 16384

noncomputable section

namespace Cert.KernelIdeal.KValue

open Cert.KernelIdeal Cert.KernelIdeal.Gen Cert.KernelIdeal.Frame
open Idealize.ShloMosaic Idealize.ShloMosaic.TcCoe Idealize.ShloMosaic.ValueIdx Idealize.SL.Sem
open Cert.Inputs

variable (m : (ℓ : Loc nD τ sig) → Buf (Elt Ideal) ℓ) (ρ : Dev nD → PrngReg) (c : Dev nD)

/-- The projection at one entry. -/
theorem G0_apply (X : S2048x2048.Idx → EReal) (Wt : S2048x6144.Idx → EReal) (Bt : S1x6144.Idx → EReal) (r : Fin 2048) (col : Fin 6144) :
    G0 X Wt Bt (ix2 r col) = (∑ k : Fin 2048, X (ix2 r k) * Wt (ix2 k col)) + Bt (ix2 (0 : Fin 1) col) := rfl

/-- The projection region's array, over what the first host stretch left. -/
theorem v7_eq : W2 m ρ c (Proc.devRef .tc main_v7)
    = G0 (W1 m ρ c (Proc.devRef .tc main_v1)) (W1 m ρ c (Proc.devRef .tc main_v4)) (W1 m ρ c (Proc.devRef .tc main_v6)) :=
  (W2_arr m ρ c 3).trans (final3 (V1 m ρ) c)

/-- The retention region's array, over what the second host stretch left. -/
theorem v18_eq : W4 m ρ c (Proc.devRef .tc main_v18)
    = G1 (W3 m ρ c (Proc.devRef .tc main_v9)) (W3 m ρ c (Proc.devRef .tc main_v10)) (W3 m ρ c (Proc.devRef .tc main_v11))
        (W3 m ρ c (Proc.devRef .tc main_arg1)) (W3 m ρ c (Proc.devRef .tc main_v13)) (W3 m ρ c (Proc.devRef .tc main_v14))
        (W3 m ρ c (Proc.devRef .tc main_v15)) (W3 m ρ c (Proc.devRef .tc main_v16)) (W3 m ρ c (Proc.devRef .tc main_v17)) :=
  (W4_arr m ρ c 9).trans (final9 (V3 m ρ) c)

theorem q_apply (b : Fin 32) (t : Fin 64) (e : Fin 2048) :
    W3 m ρ c (Proc.devRef .tc main_v9) (ix3 b t e) = Cert.Spec.proj (xOf (m ((c : Thread nD τ).loc main_arg0))) (wOf (m ((c : Thread nD τ).loc main_arg2))) (vOf (m ((c : Thread nD τ).loc main_arg3))) b t e := by
  rw [W3_v9 m ρ c, Cert.KHost.slice_q, v7_eq m ρ c, G0_apply, W1_v1 m ρ c, W1_v4 m ρ c, W1_v6 m ρ c]
  unfold Cert.Spec.proj
  refine congrArg₂ (· + ·) (Finset.sum_congr rfl fun k _ => congrArg₂ (· * ·) ?_ ?_) ?_
  · exact (congrFun (Cert.KHost.truncf_ideal (φ := .f32) (ψ := .bf16) _ bitsLt_bf16_f32) _).trans (Cert.KHost.x_rows _ _ b t k)
  · exact (congrFun (Cert.KHost.truncf_ideal (φ := .f32) (ψ := .bf16) _ bitsLt_bf16_f32) _).trans (Cert.KHost.wT_q _ _ _ _ _ k e)
  · exact Cert.KHost.bias_q _ _ _ _ _ e

theorem k_apply (b : Fin 32) (t : Fin 64) (e : Fin 2048) :
    W3 m ρ c (Proc.devRef .tc main_v10) (ix3 b t e) = Cert.Spec.proj (xOf (m ((c : Thread nD τ).loc main_arg0))) (wOf (m ((c : Thread nD τ).loc main_arg4))) (vOf (m ((c : Thread nD τ).loc main_arg5))) b t e := by
  rw [W3_v10 m ρ c, Cert.KHost.slice_k, v7_eq m ρ c, G0_apply, W1_v1 m ρ c, W1_v4 m ρ c, W1_v6 m ρ c]
  unfold Cert.Spec.proj
  refine congrArg₂ (· + ·) (Finset.sum_congr rfl fun k _ => congrArg₂ (· * ·) ?_ ?_) ?_
  · exact (congrFun (Cert.KHost.truncf_ideal (φ := .f32) (ψ := .bf16) _ bitsLt_bf16_f32) _).trans (Cert.KHost.x_rows _ _ b t k)
  · exact (congrFun (Cert.KHost.truncf_ideal (φ := .f32) (ψ := .bf16) _ bitsLt_bf16_f32) _).trans (Cert.KHost.wT_k _ _ _ _ _ k e)
  · exact Cert.KHost.bias_k _ _ _ _ _ e

theorem v_apply (b : Fin 32) (t : Fin 64) (e : Fin 2048) :
    W3 m ρ c (Proc.devRef .tc main_v11) (ix3 b t e) = Cert.Spec.proj (xOf (m ((c : Thread nD τ).loc main_arg0))) (wOf (m ((c : Thread nD τ).loc main_arg6))) (vOf (m ((c : Thread nD τ).loc main_arg7))) b t e := by
  rw [W3_v11 m ρ c, Cert.KHost.slice_v, v7_eq m ρ c, G0_apply, W1_v1 m ρ c, W1_v4 m ρ c, W1_v6 m ρ c]
  unfold Cert.Spec.proj
  refine congrArg₂ (· + ·) (Finset.sum_congr rfl fun k _ => congrArg₂ (· * ·) ?_ ?_) ?_
  · exact (congrFun (Cert.KHost.truncf_ideal (φ := .f32) (ψ := .bf16) _ bitsLt_bf16_f32) _).trans (Cert.KHost.x_rows _ _ b t k)
  · exact (congrFun (Cert.KHost.truncf_ideal (φ := .f32) (ψ := .bf16) _ bitsLt_bf16_f32) _).trans (Cert.KHost.wT_v _ _ _ _ _ k e)
  · exact Cert.KHost.bias_v _ _ _ _ _ e

/-- The retention region's entry is the specification's kernel spelling, for arrays that are, entry by entry, the
    specification's inputs: the projections, the mask, the transposed output weights, the three rows and the slope. -/
theorem G1_outK (Q K Vv : S32x64x2048.Idx → EReal) (DG : S64x64.Idx → EReal) (WoT : S2048x2048.Idx → EReal)
    (Bo Gw Gb : S1x2048.Idx → EReal) (A : S1x1.Idx → EReal)
    (x : Fin 32 → Fin 64 → Fin 2048 → EReal) (wq wk wv wo : Fin 2048 → Fin 2048 → EReal) (bq bk bv bo gw gb : Fin 2048 → EReal)
    (dg : Fin 64 → Fin 64 → EReal) (a : EReal)
    (hq : ∀ b t e, Q (ix3 b t e) = Cert.Spec.proj x wq bq b t e) (hk : ∀ b t e, K (ix3 b t e) = Cert.Spec.proj x wk bk b t e)
    (hv : ∀ b t e, Vv (ix3 b t e) = Cert.Spec.proj x wv bv b t e) (hdg : ∀ t s, DG (ix2 t s) = dg t s)
    (hwo : ∀ n d, WoT (ix2 d n) = wo n d) (hbo : ∀ n, Bo (ix2 (0 : Fin 1) n) = bo n)
    (hgw : ∀ d, Gw (ix2 (0 : Fin 1) d) = gw d) (hgb : ∀ d, Gb (ix2 (0 : Fin 1) d) = gb d) (ha : A (ix2 (0 : Fin 1) (0 : Fin 1)) = a)
    (b : Fin 32) (t : Fin 64) (n : Fin 2048) :
    G1 Q K Vv DG WoT Bo Gw Gb A (ix3 b t n) = Cert.Spec.outK x wq wk wv wo bq bk bv bo gw gb dg a b t n := by
  rw [G1_apply]
  have hr : (fun (t : Fin 64) (d : Fin 2048) => ∑ s : Fin 64,
        ((∑ e : Fin 2048, Q (ix3 b t e) * K (ix3 b s e)) * DG (ix2 t s)) * Vv (ix3 b s d))
      = Cert.Spec.ret (Cert.Spec.scK (Cert.Spec.proj x wq bq) (Cert.Spec.proj x wk bk) dg) (Cert.Spec.proj x wv bv) b := by
    funext t d
    unfold Cert.Spec.ret Cert.Spec.scK
    refine Finset.sum_congr rfl fun s _ => congrArg₂ (· * ·) (congrArg₂ (· * ·) (Finset.sum_congr rfl fun e _ => ?_) (hdg t s)) (hv b s d)
    rw [hq, hk]
  rw [hr, funext hgw, funext hgb, funext hbo, (funext fun n => funext fun d => hwo n d : (fun n d => WoT (ix2 d n)) = wo), ha]
  rfl

/-- THE KERNEL'S RESULT at the index of (b, t, n): the specification's kernel spelling of the arguments. -/
theorem W5_out (b : Fin 32) (t : Fin 64) (n : Fin 2048) :
    W5 m ρ c (Proc.devRef .tc main_v19) (outIdx b t n)
      = Cert.Spec.outK (xOf (m ((c : Thread nD τ).loc main_arg0))) (wOf (m ((c : Thread nD τ).loc main_arg2))) (wOf (m ((c : Thread nD τ).loc main_arg4))) (wOf (m ((c : Thread nD τ).loc main_arg6))) (wOf (m ((c : Thread nD τ).loc main_arg8)))
          (vOf (m ((c : Thread nD τ).loc main_arg3))) (vOf (m ((c : Thread nD τ).loc main_arg5))) (vOf (m ((c : Thread nD τ).loc main_arg7))) (vOf (m ((c : Thread nD τ).loc main_arg9))) (vOf (m ((c : Thread nD τ).loc main_arg10))) (vOf (m ((c : Thread nD τ).loc main_arg11)))
          (dgOf (m ((c : Thread nD τ).loc main_arg1))) (aOf (m ((c : Thread nD τ).loc main_arg12))) b t n := by
  rw [W5_v19 m ρ c, Cert.KHost.out_flat, v18_eq m ρ c]
  refine G1_outK _ _ _ _ _ _ _ _ _ _ _ _ _ _ _ _ _ _ _ _ _ _ (q_apply m ρ c) (k_apply m ρ c) (v_apply m ρ c) ?_ ?_ ?_ ?_ ?_ ?_ b t n
  · intro t s; rw [W3_arg1 m ρ c]; rfl
  · intro n d; rw [W3_v13 m ρ c]
    exact (congrFun (Cert.KHost.truncf_ideal (φ := .f32) (ψ := .bf16) _ bitsLt_bf16_f32) _).trans (Cert.KHost.wT_o _ _ d n)
  · intro n; rw [W3_v14 m ρ c]; exact Cert.KHost.row_of_vec _ _ n
  · intro d; rw [W3_v15 m ρ c]; exact Cert.KHost.row_of_vec _ _ d
  · intro d; rw [W3_v16 m ρ c]; exact Cert.KHost.row_of_vec _ _ d
  · rw [W3_v17 m ρ c]; exact Cert.KHost.cell_of_scalar _ _

end Cert.KernelIdeal.KValue

end
-- ==== Proof.RefRunA.lean ====
import proofs.«172676_j81381040325184_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference's host program, first stretch: from the input to the group layout and its mean

The three projections, the decayed scores, their application to the values, the transposition and regrouping into
32 groups of 4096 entries per batch, the groups' mean, and the integer zero handed to the variance. Each stage is
named as a function of whole arrays; the stretch's operations, folded over any buffer contents, leave those
functions of the argument buffers. -/

/-- The stretch's 27 operations, in order. -/
abbrev opsA : List (HloOp τ sig (Elt F)) :=
  [ StableHlo.reshape main_arg0 main_v0 rfl shapeCasts_S32x4x1024x32_S32x64x2048,
    StableHlo.binary main_v0 main_arg2 main_v1 ((fun l r => Host.dotGeneral dot_S32x64x2048_S2048x2048_S32x64x2048_2_1_01_0_n_n none l r) : (⟨S32x64x2048, .f32⟩ : BufTy).Contents (Elt F) → (⟨S2048x2048, .f32⟩ : BufTy).Contents (Elt F) → (⟨S32x64x2048, .f32⟩ : BufTy).Contents (Elt F)),
    StableHlo.unary main_arg3 main_v2 (broadcastInDim S1x1x2048 ![2] bcast_S2048_S1x1x2048_2 : (⟨S2048, .f32⟩ : BufTy).Contents (Elt F) → (⟨S1x1x2048, .f32⟩ : BufTy).Contents (Elt F)),
    StableHlo.unary main_v2 main_v3 (broadcastInDim S32x64x2048 ![0, 1, 2] bcast_S1x1x2048_S32x64x2048_0_1_2 : (⟨S1x1x2048, .f32⟩ : BufTy).Contents (Elt F) → (⟨S32x64x2048, .f32⟩ : BufTy).Contents (Elt F)),
    StableHlo.binary main_v1 main_v3 main_v4 (addf : (⟨S32x64x2048, .f32⟩ : BufTy).Contents (Elt F) → (⟨S32x64x2048, .f32⟩ : BufTy).Contents (Elt F) → (⟨S32x64x2048, .f32⟩ : BufTy).Contents (Elt F)),
    StableHlo.binary main_v0 main_arg4 main_v5 ((fun l r => Host.dotGeneral dot_S32x64x2048_S2048x2048_S32x64x2048_2_1_01_0_n_n none l r) : (⟨S32x64x2048, .f32⟩ : BufTy).Contents (Elt F) → (⟨S2048x2048, .f32⟩ : BufTy).Contents (Elt F) → (⟨S32x64x2048, .f32⟩ : BufTy).Contents (Elt F)),
    StableHlo.unary main_arg5 main_v6 (broadcastInDim S1x1x2048 ![2] bcast_S2048_S1x1x2048_2 : (⟨S2048, .f32⟩ : BufTy).Contents (Elt F) → (⟨S1x1x2048, .f32⟩ : BufTy).Contents (Elt F)),
    StableHlo.unary main_v6 main_v7 (broadcastInDim S32x64x2048 ![0, 1, 2] bcast_S1x1x2048_S32x64x2048_0_1_2 : (⟨S1x1x2048, .f32⟩ : BufTy).Contents (Elt F) → (⟨S32x64x2048, .f32⟩ : BufTy).Contents (Elt F)),
    StableHlo.binary main_v5 main_v7 main_v8 (addf : (⟨S32x64x2048, .f32⟩ : BufTy).Contents (Elt F) → (⟨S32x64x2048, .f32⟩ : BufTy).Contents (Elt F) → (⟨S32x64x2048, .f32⟩ : BufTy).Contents (Elt F)),
    StableHlo.binary main_v0 main_arg6 main_v9 ((fun l r => Host.dotGeneral dot_S32x64x2048_S2048x2048_S32x64x2048_2_1_01_0_n_n none l r) : (⟨S32x64x2048, .f32⟩ : BufTy).Contents (Elt F) → (⟨S2048x2048, .f32⟩ : BufTy).Contents (Elt F) → (⟨S32x64x2048, .f32⟩ : BufTy).Contents (Elt F)),
    StableHlo.unary main_arg7 main_v10 (broadcastInDim S1x1x2048 ![2] bcast_S2048_S1x1x2048_2 : (⟨S2048, .f32⟩ : BufTy).Contents (Elt F) → (⟨S1x1x2048, .f32⟩ : BufTy).Contents (Elt F)),
    StableHlo.unary main_v10 main_v11 (broadcastInDim S32x64x2048 ![0, 1, 2] bcast_S1x1x2048_S32x64x2048_0_1_2 : (⟨S1x1x2048, .f32⟩ : BufTy).Contents (Elt F) → (⟨S32x64x2048, .f32⟩ : BufTy).Contents (Elt F)),
    StableHlo.binary main_v9 main_v11 main_v12 (addf : (⟨S32x64x2048, .f32⟩ : BufTy).Contents (Elt F) → (⟨S32x64x2048, .f32⟩ : BufTy).Contents (Elt F) → (⟨S32x64x2048, .f32⟩ : BufTy).Contents (Elt F)),
    StableHlo.binary main_v4 main_v8 main_v13 ((fun l r => Host.dotGeneral dot_S32x64x2048_S32x64x2048_S32x64x64_2_2_1_1_0_0 none l r) : (⟨S32x64x2048, .f32⟩ : BufTy).Contents (Elt F) → (⟨S32x64x2048, .f32⟩ : BufTy).Contents (Elt F) → (⟨S32x64x64, .f32⟩ : BufTy).Contents (Elt F)),
    StableHlo.unary main_arg1 main_v14 (broadcastInDim S1x64x64 ![1, 2] bcast_S64x64_S1x64x64_1_2 : (⟨S64x64, .f32⟩ : BufTy).Contents (Elt F) → (⟨S1x64x64, .f32⟩ : BufTy).Contents (Elt F)),
    StableHlo.unary main_v14 main_v15 (broadcastInDim S32x64x64 ![0, 1, 2] bcast_S1x64x64_S32x64x64_0_1_2 : (⟨S1x64x64, .f32⟩ : BufTy).Contents (Elt F) → (⟨S32x64x64, .f32⟩ : BufTy).Contents (Elt F)),
    StableHlo.binary main_v15 main_v13 main_v16 (mulf : (⟨S32x64x64, .f32⟩ : BufTy).Contents (Elt F) → (⟨S32x64x64, .f32⟩ : BufTy).Contents (Elt F) → (⟨S32x64x64, .f32⟩ : BufTy).Contents (Elt F)),
    StableHlo.binary main_v16 main_v12 main_v17 ((fun l r => Host.dotGeneral dot_S32x64x64_S32x64x2048_S32x64x2048_2_1_1_2_0_0 none l r) : (⟨S32x64x64, .f32⟩ : BufTy).Contents (Elt F) → (⟨S32x64x2048, .f32⟩ : BufTy).Contents (Elt F) → (⟨S32x64x2048, .f32⟩ : BufTy).Contents (Elt F)),
    StableHlo.unary main_v17 main_v18 ((transpose S32x2048x64 [0, 2, 1] · transposes_S32x64x2048_S32x2048x64_0_2_1) : (⟨S32x64x2048, .f32⟩ : BufTy).Contents (Elt F) → (⟨S32x2048x64, .f32⟩ : BufTy).Contents (Elt F)),
    StableHlo.reshape main_v18 main_v19 rfl shapeCasts_S32x2048x64_S32x32x4096,
    StableHlo.nullary main_cst (constant S_ .f32 0x00000000#32),
    StableHlo.binary main_v19 main_cst main_v20 ((fun x v => Host.reduceAdd x v reducesTo_S32x32x4096_S32x32_d2 h_S_) : (⟨S32x32x4096, .f32⟩ : BufTy).Contents (Elt F) → (⟨S_, .f32⟩ : BufTy).Contents (Elt F) → (⟨S32x32, .f32⟩ : BufTy).Contents (Elt F)),
    StableHlo.unary main_v20 main_v21 (broadcastInDim S32x32x1 ![0, 1] bcast_S32x32_S32x32x1_0_1 : (⟨S32x32, .f32⟩ : BufTy).Contents (Elt F) → (⟨S32x32x1, .f32⟩ : BufTy).Contents (Elt F)),
    StableHlo.nullary main_cst_0 (constant S_ .f32 0x45800000#32),
    StableHlo.unary main_cst_0 main_v22 (broadcastInDim S32x32x1 ![] bcast_S_S32x32x1 : (⟨S_, .f32⟩ : BufTy).Contents (Elt F) → (⟨S32x32x1, .f32⟩ : BufTy).Contents (Elt F)),
    StableHlo.binary main_v21 main_v22 main_v23 (Host.divf : (⟨S32x32x1, .f32⟩ : BufTy).Contents (Elt F) → (⟨S32x32x1, .f32⟩ : BufTy).Contents (Elt F) → (⟨S32x32x1, .f32⟩ : BufTy).Contents (Elt F)),
    StableHlo.nullary main_c (constantI S_ 32 0#32) ]

/-- The input read as 32 batches of 64 tokens of 2048 features (a row-major regrouping). -/
def xr (X : (⟨S32x4x1024x32, .f32⟩ : BufTy).Contents (Elt F)) : (⟨S32x64x2048, .f32⟩ : BufTy).Contents (Elt F) :=
  fun i => shapeCast S32x64x2048 X shapeCasts_S32x4x1024x32_S32x64x2048 i

/-- A projection with bias: the contraction of the features against a weight's second axis, plus the bias along the last axis. -/
def proj (x : (⟨S32x64x2048, .f32⟩ : BufTy).Contents (Elt F)) (W : (⟨S2048x2048, .f32⟩ : BufTy).Contents (Elt F)) (b : (⟨S2048, .f32⟩ : BufTy).Contents (Elt F)) : (⟨S32x64x2048, .f32⟩ : BufTy).Contents (Elt F) :=
  addf (Host.dotGeneral dot_S32x64x2048_S2048x2048_S32x64x2048_2_1_01_0_n_n none x W)
    (broadcastInDim S32x64x2048 ![0, 1, 2] bcast_S1x1x2048_S32x64x2048_0_1_2 (broadcastInDim S1x1x2048 ![2] bcast_S2048_S1x1x2048_2 b))

/-- The scores: the decay, broadcast over batches, times the per-batch contraction of queries against keys. -/
def scores (q k : (⟨S32x64x2048, .f32⟩ : BufTy).Contents (Elt F)) (dg : (⟨S64x64, .f32⟩ : BufTy).Contents (Elt F)) : (⟨S32x64x64, .f32⟩ : BufTy).Contents (Elt F) :=
  mulf (broadcastInDim S32x64x64 ![0, 1, 2] bcast_S1x64x64_S32x64x64_0_1_2 (broadcastInDim S1x64x64 ![1, 2] bcast_S64x64_S1x64x64_1_2 dg))
    (Host.dotGeneral dot_S32x64x2048_S32x64x2048_S32x64x64_2_2_1_1_0_0 none q k)

/-- The scores applied to the values, per batch. -/
def retv (sc : (⟨S32x64x64, .f32⟩ : BufTy).Contents (Elt F)) (v : (⟨S32x64x2048, .f32⟩ : BufTy).Contents (Elt F)) : (⟨S32x64x2048, .f32⟩ : BufTy).Contents (Elt F) :=
  Host.dotGeneral dot_S32x64x64_S32x64x2048_S32x64x2048_2_1_1_2_0_0 none sc v

/-- The group layout: tokens and channels exchanged, then each batch's 2048 × 64 entries regrouped as 32 rows of 4096. -/
def grp (r : (⟨S32x64x2048, .f32⟩ : BufTy).Contents (Elt F)) : (⟨S32x32x4096, .f32⟩ : BufTy).Contents (Elt F) :=
  fun i => shapeCast S32x32x4096 (transpose S32x2048x64 [0, 2, 1] r transposes_S32x64x2048_S32x2048x64_0_2_1) shapeCasts_S32x2048x64_S32x32x4096 i

/-- The mean of each group: the row sum over the literal 4096. -/
def mean (g : (⟨S32x32x4096, .f32⟩ : BufTy).Contents (Elt F)) : (⟨S32x32x1, .f32⟩ : BufTy).Contents (Elt F) :=
  Host.divf (broadcastInDim S32x32x1 ![0, 1] bcast_S32x32_S32x32x1_0_1 (Host.reduceAdd g (constant S_ .f32 0x00000000#32) reducesTo_S32x32x4096_S32x32_d2 h_S_))
    (broadcastInDim S32x32x1 ![] bcast_S_S32x32x1 (constant S_ .f32 0x45800000#32))

/-- The group layout as a function of the arguments. -/
def gT (X : (⟨S32x4x1024x32, .f32⟩ : BufTy).Contents (Elt F)) (dg : (⟨S64x64, .f32⟩ : BufTy).Contents (Elt F)) (Wq : (⟨S2048x2048, .f32⟩ : BufTy).Contents (Elt F)) (bq : (⟨S2048, .f32⟩ : BufTy).Contents (Elt F))
    (Wk : (⟨S2048x2048, .f32⟩ : BufTy).Contents (Elt F)) (bk : (⟨S2048, .f32⟩ : BufTy).Contents (Elt F)) (Wv : (⟨S2048x2048, .f32⟩ : BufTy).Contents (Elt F)) (bv : (⟨S2048, .f32⟩ : BufTy).Contents (Elt F)) : (⟨S32x32x4096, .f32⟩ : BufTy).Contents (Elt F) :=
  grp (retv (scores (proj (xr X) Wq bq) (proj (xr X) Wk bk) dg) (proj (xr X) Wv bv))

theorem segA_main_v19 (V : Valuation τ sig (Elt F)) :
    after (opsA (F := F)) V (main_v19 : DevRef τ sig)
      = gT (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  after_results_simp
  rfl

theorem segA_main_v23 (V : Valuation τ sig (Elt F)) :
    after (opsA (F := F)) V (main_v23 : DevRef τ sig)
      = mean (gT (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))) := by
  after_results_simp
  rfl

theorem segA_main_c (V : Valuation τ sig (Elt F)) :
    after (opsA (F := F)) V (main_c : DevRef τ sig) = constantI S_ 32 0#32 := by
  after_results_simp

theorem segA_main_arg0 (V : Valuation τ sig (Elt F)) :
    after (opsA (F := F)) V (main_arg0 : DevRef τ sig) = V (main_arg0 : DevRef τ sig) := by
  after_results_simp
theorem segA_main_arg1 (V : Valuation τ sig (Elt F)) :
    after (opsA (F := F)) V (main_arg1 : DevRef τ sig) = V (main_arg1 : DevRef τ sig) := by
  after_results_simp
theorem segA_main_arg2 (V : Valuation τ sig (Elt F)) :
    after (opsA (F := F)) V (main_arg2 : DevRef τ sig) = V (main_arg2 : DevRef τ sig) := by
  after_results_simp
theorem segA_main_arg3 (V : Valuation τ sig (Elt F)) :
    after (opsA (F := F)) V (main_arg3 : DevRef τ sig) = V (main_arg3 : DevRef τ sig) := by
  after_results_simp
theorem segA_main_arg4 (V : Valuation τ sig (Elt F)) :
    after (opsA (F := F)) V (main_arg4 : DevRef τ sig) = V (main_arg4 : DevRef τ sig) := by
  after_results_simp
theorem segA_main_arg5 (V : Valuation τ sig (Elt F)) :
    after (opsA (F := F)) V (main_arg5 : DevRef τ sig) = V (main_arg5 : DevRef τ sig) := by
  after_results_simp
theorem segA_main_arg6 (V : Valuation τ sig (Elt F)) :
    after (opsA (F := F)) V (main_arg6 : DevRef τ sig) = V (main_arg6 : DevRef τ sig) := by
  after_results_simp
theorem segA_main_arg7 (V : Valuation τ sig (Elt F)) :
    after (opsA (F := F)) V (main_arg7 : DevRef τ sig) = V (main_arg7 : DevRef τ sig) := by
  after_results_simp
theorem segA_main_arg8 (V : Valuation τ sig (Elt F)) :
    after (opsA (F := F)) V (main_arg8 : DevRef τ sig) = V (main_arg8 : DevRef τ sig) := by
  after_results_simp
theorem segA_main_arg9 (V : Valuation τ sig (Elt F)) :
    after (opsA (F := F)) V (main_arg9 : DevRef τ sig) = V (main_arg9 : DevRef τ sig) := by
  after_results_simp
theorem segA_main_arg10 (V : Valuation τ sig (Elt F)) :
    after (opsA (F := F)) V (main_arg10 : DevRef τ sig) = V (main_arg10 : DevRef τ sig) := by
  after_results_simp
theorem segA_main_arg11 (V : Valuation τ sig (Elt F)) :
    after (opsA (F := F)) V (main_arg11 : DevRef τ sig) = V (main_arg11 : DevRef τ sig) := by
  after_results_simp
theorem segA_main_arg12 (V : Valuation τ sig (Elt F)) :
    after (opsA (F := F)) V (main_arg12 : DevRef τ sig) = V (main_arg12 : DevRef τ sig) := by
  after_results_simp

theorem opsA_sub : (opsA : List (HloOp τ sig (Elt F))).Forall fun op => op.bufs ⊆ tcRefs τ sig := by
  simp only [opsA, List.Forall, nullary_bufs_sub, unary_bufs_sub, binary_bufs_sub, ternary_bufs_sub, reshape_bufs_sub, and_self]
theorem opsA_fresh : ∀ op ∈ (opsA : List (HloOp τ sig (Elt F))), op.fresh = ∅ := by
  intro _ h; (repeat (cases h with | head => rfl | tail _ h => ?_)); exact nomatch h

end Cert.ReferenceIdeal.RefRun

end
-- ==== Proof.RefReadA.lean ====
import proofs.«172676_j81381040325184_1_alg».proof.Proof.RefRunA
import proofs.«172676_j81381040325184_1_alg».proof.Proof.Spec
import proofs.«172676_j81381040325184_1_alg».proof.Proof.Inputs
import Idealize.ShloMosaic.Lib.ValueIdx
import Idealize.ShloMosaic.Lib.Pipeline.Value
import Idealize.ShloMosaic.PureOps.Ideal.Laws

noncomputable section

namespace Cert.ReferenceIdeal.RefRun

open Cert.ReferenceIdeal Cert.ReferenceIdeal.Gen Idealize.ShloMosaic Idealize.ShloMosaic.ValueIdx
open scoped BigOperators

/-! # The first stretch read at an index, at the exact values

Each stage of the first stretch, at the instance where a float is an extended real, read at one index given by its
coordinates: a contraction is a plain finite sum over the contracted coordinate, a broadcast reads its operand at the
surviving coordinates, a regrouping reads the operand at the index with the same row-major position. Arrays are
turned into curried functions of their coordinates (`f1`, `f2`, `f3`) so that the stages compose as the
specification's formulas do. -/

/-- A rank-1 array as a function of its coordinate. -/
def f1 {n0 : Nat} (v : (⟨1, ![n0]⟩ : Shape).Idx → EReal) : Fin n0 → EReal := fun a => v (ix1 a)
/-- A rank-2 array as a function of its coordinates. -/
def f2 {n0 n1 : Nat} (v : (⟨2, ![n0, n1]⟩ : Shape).Idx → EReal) : Fin n0 → Fin n1 → EReal := fun a b => v (ix2 a b)
/-- A rank-3 array as a function of its coordinates. -/
def f3 {n0 n1 n2 : Nat} (v : (⟨3, ![n0, n1, n2]⟩ : Shape).Idx → EReal) : Fin n0 → Fin n1 → Fin n2 → EReal :=
  fun a b c => v (ix3 a b c)

/-- The input regrouped as batches by tokens by features is the input read at the index of equal row-major position. -/
theorem xr_eq (X : (⟨S32x4x1024x32, .f32⟩ : BufTy).Contents (Elt Ideal)) : f3 (xr X) = Cert.Inputs.xOf X := by
  funext b t i
  show shapeCast S32x64x2048 X shapeCasts_S32x4x1024x32_S32x64x2048 (ix3 b t i) = X (Cert.Inputs.kx b t i)
  refine shapeCast_apply X _ (ix3 b t i) (Cert.Inputs.kx b t i) ?_
  rw [Cert.Inputs.kx_rowMajor, Shape.rowMajor_val_three]
  show b.val * 131072 + t.val * 2048 + i.val = (b.val * 64 + t.val) * 2048 + i.val
  omega

/-! ## The projections -/

theorem lhs_proj_0 (i : S32x64x2048.Idx) (q : dot_S32x64x2048_S2048x2048_S32x64x2048_2_1_01_0_n_n.contr.Idx) :
    (dot_S32x64x2048_S2048x2048_S32x64x2048_2_1_01_0_n_n.lhsIdx i q 0).val = (i 0).val := by
  unfold DotDims.lhsIdx
  rw [dif_neg (show ¬(0 : Fin S32x64x2048.rank) ∈ dot_S32x64x2048_S2048x2048_S32x64x2048_2_1_01_0_n_n.lhsBatch by decide), dif_pos (show (0 : Fin S32x64x2048.rank) ∈ dot_S32x64x2048_S2048x2048_S32x64x2048_2_1_01_0_n_n.lhsNonContracting by decide)]
  rfl
theorem lhs_proj_1 (i : S32x64x2048.Idx) (q : dot_S32x64x2048_S2048x2048_S32x64x2048_2_1_01_0_n_n.contr.Idx) :
    (dot_S32x64x2048_S2048x2048_S32x64x2048_2_1_01_0_n_n.lhsIdx i q 1).val = (i 1).val := by
  unfold DotDims.lhsIdx
  rw [dif_neg (show ¬(1 : Fin S32x64x2048.rank) ∈ dot_S32x64x2048_S2048x2048_S32x64x2048_2_1_01_0_n_n.lhsBatch by decide), dif_pos (show (1 : Fin S32x64x2048.rank) ∈ dot_S32x64x2048_S2048x2048_S32x64x2048_2_1_01_0_n_n.lhsNonContracting by decide)]
  rfl
theorem lhs_proj_2 (i : S32x64x2048.Idx) (q : dot_S32x64x2048_S2048x2048_S32x64x2048_2_1_01_0_n_n.contr.Idx) :
    (dot_S32x64x2048_S2048x2048_S32x64x2048_2_1_01_0_n_n.lhsIdx i q 2).val = (q ⟨0, by decide⟩).val :=
  dot_S32x64x2048_S2048x2048_S32x64x2048_2_1_01_0_n_n.lhsIdx_val_of_single rfl i q
theorem rhs_proj_0 (i : S32x64x2048.Idx) (q : dot_S32x64x2048_S2048x2048_S32x64x2048_2_1_01_0_n_n.contr.Idx) :
    (dot_S32x64x2048_S2048x2048_S32x64x2048_2_1_01_0_n_n.rhsIdx i q 0).val = (i 2).val := by
  unfold DotDims.rhsIdx
  rw [dif_neg (show ¬(0 : Fin S2048x2048.rank) ∈ dot_S32x64x2048_S2048x2048_S32x64x2048_2_1_01_0_n_n.rhsBatch by decide), dif_pos (show (0 : Fin S2048x2048.rank) ∈ dot_S32x64x2048_S2048x2048_S32x64x2048_2_1_01_0_n_n.rhsNonContracting by decide)]
  rfl
theorem rhs_proj_1 (i : S32x64x2048.Idx) (q : dot_S32x64x2048_S2048x2048_S32x64x2048_2_1_01_0_n_n.contr.Idx) :
    (dot_S32x64x2048_S2048x2048_S32x64x2048_2_1_01_0_n_n.rhsIdx i q 1).val = (q ⟨0, by decide⟩).val :=
  dot_S32x64x2048_S2048x2048_S32x64x2048_2_1_01_0_n_n.rhsIdx_val_of_single rfl i q

/-- A bias along the last of three axes, broadcast in two steps, reads the bias at the last coordinate. -/
theorem bias_apply (bias : (⟨S2048, .f32⟩ : BufTy).Contents (Elt Ideal)) (b : Fin 32) (t : Fin 64) (o : Fin 2048) :
    broadcastInDim S32x64x2048 ![0, 1, 2] bcast_S1x1x2048_S32x64x2048_0_1_2 (broadcastInDim S1x1x2048 ![2] bcast_S2048_S1x1x2048_2 bias) (ix3 b t o)
      = bias (ix1 o) := by
  rw [broadcastInDim_apply _ bcast_S1x1x2048_S32x64x2048_0_1_2 _ (ix3 b t o) (ix3 (0 : Fin 1) (0 : Fin 1) o) (fun a => match a with
    | ⟨0, _⟩ => by show 0 = if (1 : Nat) = 1 then 0 else b.val; rw [if_pos rfl]
    | ⟨1, _⟩ => by show 0 = if (1 : Nat) = 1 then 0 else t.val; rw [if_pos rfl]
    | ⟨2, _⟩ => by show o.val = if (2048 : Nat) = 1 then 0 else o.val; rw [if_neg (by decide)])]
  exact broadcastInDim_apply _ bcast_S2048_S1x1x2048_2 bias (ix3 (0 : Fin 1) (0 : Fin 1) o) (ix1 o) (fun a => match a with
    | ⟨0, _⟩ => by show o.val = if (2048 : Nat) = 1 then 0 else o.val; rw [if_neg (by decide)])

theorem proj_dot_apply (x : (⟨S32x64x2048, .f32⟩ : BufTy).Contents (Elt Ideal)) (W : (⟨S2048x2048, .f32⟩ : BufTy).Contents (Elt Ideal)) (b : Fin 32) (t : Fin 64) (o : Fin 2048) :
    Host.dotGeneral (F := Ideal) (φ₁ := .f32) (φ₂ := .f32) dot_S32x64x2048_S2048x2048_S32x64x2048_2_1_01_0_n_n none x W (ix3 b t o) = ∑ i : Fin 2048, x (ix3 b t i) * W (ix2 o i) := by
  simp only [Host.dotGeneral]
  rw [Ideal.dotGeneral_apply, ← Equiv.sum_comp (contrEquiv1 dot_S32x64x2048_S2048x2048_S32x64x2048_2_1_01_0_n_n 2048 rfl rfl).symm]
  refine Finset.sum_congr rfl fun k _ => ?_
  have hk := contrEquiv1_symm_val dot_S32x64x2048_S2048x2048_S32x64x2048_2_1_01_0_n_n 2048 rfl rfl k
  have el : dot_S32x64x2048_S2048x2048_S32x64x2048_2_1_01_0_n_n.lhsIdx (ix3 b t o) ((contrEquiv1 dot_S32x64x2048_S2048x2048_S32x64x2048_2_1_01_0_n_n 2048 rfl rfl).symm k) = ix3 b t k := funext fun a => Fin.ext (by
    match a with
    | ⟨0, _⟩ => exact lhs_proj_0 _ _
    | ⟨1, _⟩ => exact lhs_proj_1 _ _
    | ⟨2, _⟩ => exact (lhs_proj_2 _ _).trans hk)
  have er : dot_S32x64x2048_S2048x2048_S32x64x2048_2_1_01_0_n_n.rhsIdx (ix3 b t o) ((contrEquiv1 dot_S32x64x2048_S2048x2048_S32x64x2048_2_1_01_0_n_n 2048 rfl rfl).symm k) = ix2 o k := funext fun a => Fin.ext (by
    match a with
    | ⟨0, _⟩ => exact rhs_proj_0 _ _
    | ⟨1, _⟩ => exact (rhs_proj_1 _ _).trans hk)
  rw [el, er]

theorem proj_eq (x : (⟨S32x64x2048, .f32⟩ : BufTy).Contents (Elt Ideal)) (W : (⟨S2048x2048, .f32⟩ : BufTy).Contents (Elt Ideal)) (bias : (⟨S2048, .f32⟩ : BufTy).Contents (Elt Ideal)) :
    f3 (proj x W bias) = Cert.Spec.proj (f3 x) (f2 W) (f1 bias) := by
  funext b t o
  show proj x W bias (ix3 b t o) = (∑ i : Fin 2048, x (ix3 b t i) * W (ix2 o i)) + bias (ix1 o)
  unfold proj
  rw [addf_apply, proj_dot_apply, bias_apply]

/-! ## The scores and their application -/

theorem lhs_sc_0 (i : S32x64x64.Idx) (q : dot_S32x64x2048_S32x64x2048_S32x64x64_2_2_1_1_0_0.contr.Idx) :
    (dot_S32x64x2048_S32x64x2048_S32x64x64_2_2_1_1_0_0.lhsIdx i q 0).val = (i 0).val := by
  unfold DotDims.lhsIdx
  rw [dif_pos (show (0 : Fin S32x64x2048.rank) ∈ dot_S32x64x2048_S32x64x2048_S32x64x64_2_2_1_1_0_0.lhsBatch by decide)]
  rfl
theorem lhs_sc_1 (i : S32x64x64.Idx) (q : dot_S32x64x2048_S32x64x2048_S32x64x64_2_2_1_1_0_0.contr.Idx) :
    (dot_S32x64x2048_S32x64x2048_S32x64x64_2_2_1_1_0_0.lhsIdx i q 1).val = (i 1).val := by
  unfold DotDims.lhsIdx
  rw [dif_neg (show ¬(1 : Fin S32x64x2048.rank) ∈ dot_S32x64x2048_S32x64x2048_S32x64x64_2_2_1_1_0_0.lhsBatch by decide), dif_pos (show (1 : Fin S32x64x2048.rank) ∈ dot_S32x64x2048_S32x64x2048_S32x64x64_2_2_1_1_0_0.lhsNonContracting by decide)]
  rfl
theorem lhs_sc_2 (i : S32x64x64.Idx) (q : dot_S32x64x2048_S32x64x2048_S32x64x64_2_2_1_1_0_0.contr.Idx) :
    (dot_S32x64x2048_S32x64x2048_S32x64x64_2_2_1_1_0_0.lhsIdx i q 2).val = (q ⟨0, by decide⟩).val :=
  dot_S32x64x2048_S32x64x2048_S32x64x64_2_2_1_1_0_0.lhsIdx_val_of_single rfl i q
theorem rhs_sc_0 (i : S32x64x64.Idx) (q : dot_S32x64x2048_S32x64x2048_S32x64x64_2_2_1_1_0_0.contr.Idx) :
    (dot_S32x64x2048_S32x64x2048_S32x64x64_2_2_1_1_0_0.rhsIdx i q 0).val = (i 0).val := by
  unfold DotDims.rhsIdx
  rw [dif_pos (show (0 : Fin S32x64x2048.rank) ∈ dot_S32x64x2048_S32x64x2048_S32x64x64_2_2_1_1_0_0.rhsBatch by decide)]
  rfl
theorem rhs_sc_1 (i : S32x64x64.Idx) (q : dot_S32x64x2048_S32x64x2048_S32x64x64_2_2_1_1_0_0.contr.Idx) :
    (dot_S32x64x2048_S32x64x2048_S32x64x64_2_2_1_1_0_0.rhsIdx i q 1).val = (i 2).val := by
  unfold DotDims.rhsIdx
  rw [dif_neg (show ¬(1 : Fin S32x64x2048.rank) ∈ dot_S32x64x2048_S32x64x2048_S32x64x64_2_2_1_1_0_0.rhsBatch by decide), dif_pos (show (1 : Fin S32x64x2048.rank) ∈ dot_S32x64x2048_S32x64x2048_S32x64x64_2_2_1_1_0_0.rhsNonContracting by decide)]
  rfl
theorem rhs_sc_2 (i : S32x64x64.Idx) (q : dot_S32x64x2048_S32x64x2048_S32x64x64_2_2_1_1_0_0.contr.Idx) :
    (dot_S32x64x2048_S32x64x2048_S32x64x64_2_2_1_1_0_0.rhsIdx i q 2).val = (q ⟨0, by decide⟩).val :=
  dot_S32x64x2048_S32x64x2048_S32x64x64_2_2_1_1_0_0.rhsIdx_val_of_single rfl i q

/-- The decay, broadcast over the batches in two steps, reads the decay at the two token coordinates. -/
theorem decay_apply (dg : (⟨S64x64, .f32⟩ : BufTy).Contents (Elt Ideal)) (b : Fin 32) (t s : Fin 64) :
    broadcastInDim S32x64x64 ![0, 1, 2] bcast_S1x64x64_S32x64x64_0_1_2 (broadcastInDim S1x64x64 ![1, 2] bcast_S64x64_S1x64x64_1_2 dg) (ix3 b t s)
      = dg (ix2 t s) := by
  rw [broadcastInDim_apply _ bcast_S1x64x64_S32x64x64_0_1_2 _ (ix3 b t s) (ix3 (0 : Fin 1) t s) (fun a => match a with
    | ⟨0, _⟩ => by show 0 = if (1 : Nat) = 1 then 0 else b.val; rw [if_pos rfl]
    | ⟨1, _⟩ => by show t.val = if (64 : Nat) = 1 then 0 else t.val; rw [if_neg (by decide)]
    | ⟨2, _⟩ => by show s.val = if (64 : Nat) = 1 then 0 else s.val; rw [if_neg (by decide)])]
  exact broadcastInDim_apply _ bcast_S64x64_S1x64x64_1_2 dg (ix3 (0 : Fin 1) t s) (ix2 t s) (fun a => match a with
    | ⟨0, _⟩ => by show t.val = if (64 : Nat) = 1 then 0 else t.val; rw [if_neg (by decide)]
    | ⟨1, _⟩ => by show s.val = if (64 : Nat) = 1 then 0 else s.val; rw [if_neg (by decide)])

theorem sc_dot_apply (q k' : (⟨S32x64x2048, .f32⟩ : BufTy).Contents (Elt Ideal)) (b : Fin 32) (t s : Fin 64) :
    Host.dotGeneral (F := Ideal) (φ₁ := .f32) (φ₂ := .f32) dot_S32x64x2048_S32x64x2048_S32x64x64_2_2_1_1_0_0 none q k' (ix3 b t s) = ∑ d : Fin 2048, q (ix3 b t d) * k' (ix3 b s d) := by
  simp only [Host.dotGeneral]
  rw [Ideal.dotGeneral_apply, ← Equiv.sum_comp (contrEquiv1 dot_S32x64x2048_S32x64x2048_S32x64x64_2_2_1_1_0_0 2048 rfl rfl).symm]
  refine Finset.sum_congr rfl fun k _ => ?_
  have hk := contrEquiv1_symm_val dot_S32x64x2048_S32x64x2048_S32x64x64_2_2_1_1_0_0 2048 rfl rfl k
  have el : dot_S32x64x2048_S32x64x2048_S32x64x64_2_2_1_1_0_0.lhsIdx (ix3 b t s) ((contrEquiv1 dot_S32x64x2048_S32x64x2048_S32x64x64_2_2_1_1_0_0 2048 rfl rfl).symm k) = ix3 b t k := funext fun a => Fin.ext (by
    match a with
    | ⟨0, _⟩ => exact lhs_sc_0 _ _
    | ⟨1, _⟩ => exact lhs_sc_1 _ _
    | ⟨2, _⟩ => exact (lhs_sc_2 _ _).trans hk)
  have er : dot_S32x64x2048_S32x64x2048_S32x64x64_2_2_1_1_0_0.rhsIdx (ix3 b t s) ((contrEquiv1 dot_S32x64x2048_S32x64x2048_S32x64x64_2_2_1_1_0_0 2048 rfl rfl).symm k) = ix3 b s k := funext fun a => Fin.ext (by
    match a with
    | ⟨0, _⟩ => exact rhs_sc_0 _ _
    | ⟨1, _⟩ => exact rhs_sc_1 _ _
    | ⟨2, _⟩ => exact (rhs_sc_2 _ _).trans hk)
  rw [el, er]

theorem scores_eq (q k' : (⟨S32x64x2048, .f32⟩ : BufTy).Contents (Elt Ideal)) (dg : (⟨S64x64, .f32⟩ : BufTy).Contents (Elt Ideal)) :
    f3 (scores q k' dg) = Cert.Spec.scR (f3 q) (f3 k') (f2 dg) := by
  funext b t s
  show scores q k' dg (ix3 b t s) = dg (ix2 t s) * ∑ d : Fin 2048, q (ix3 b t d) * k' (ix3 b s d)
  unfold scores
  rw [mulf_apply, decay_apply, sc_dot_apply]

theorem lhs_ret_0 (i : S32x64x2048.Idx) (q : dot_S32x64x64_S32x64x2048_S32x64x2048_2_1_1_2_0_0.contr.Idx) :
    (dot_S32x64x64_S32x64x2048_S32x64x2048_2_1_1_2_0_0.lhsIdx i q 0).val = (i 0).val := by
  unfold DotDims.lhsIdx
  rw [dif_pos (show (0 : Fin S32x64x64.rank) ∈ dot_S32x64x64_S32x64x2048_S32x64x2048_2_1_1_2_0_0.lhsBatch by decide)]
  rfl
theorem lhs_ret_1 (i : S32x64x2048.Idx) (q : dot_S32x64x64_S32x64x2048_S32x64x2048_2_1_1_2_0_0.contr.Idx) :
    (dot_S32x64x64_S32x64x2048_S32x64x2048_2_1_1_2_0_0.lhsIdx i q 1).val = (i 1).val := by
  unfold DotDims.lhsIdx
  rw [dif_neg (show ¬(1 : Fin S32x64x64.rank) ∈ dot_S32x64x64_S32x64x2048_S32x64x2048_2_1_1_2_0_0.lhsBatch by decide), dif_pos (show (1 : Fin S32x64x64.rank) ∈ dot_S32x64x64_S32x64x2048_S32x64x2048_2_1_1_2_0_0.lhsNonContracting by decide)]
  rfl
theorem lhs_ret_2 (i : S32x64x2048.Idx) (q : dot_S32x64x64_S32x64x2048_S32x64x2048_2_1_1_2_0_0.contr.Idx) :
    (dot_S32x64x64_S32x64x2048_S32x64x2048_2_1_1_2_0_0.lhsIdx i q 2).val = (q ⟨0, by decide⟩).val :=
  dot_S32x64x64_S32x64x2048_S32x64x2048_2_1_1_2_0_0.lhsIdx_val_of_single rfl i q
theorem rhs_ret_0 (i : S32x64x2048.Idx) (q : dot_S32x64x64_S32x64x2048_S32x64x2048_2_1_1_2_0_0.contr.Idx) :
    (dot_S32x64x64_S32x64x2048_S32x64x2048_2_1_1_2_0_0.rhsIdx i q 0).val = (i 0).val := by
  unfold DotDims.rhsIdx
  rw [dif_pos (show (0 : Fin S32x64x2048.rank) ∈ dot_S32x64x64_S32x64x2048_S32x64x2048_2_1_1_2_0_0.rhsBatch by decide)]
  rfl
theorem rhs_ret_1 (i : S32x64x2048.Idx) (q : dot_S32x64x64_S32x64x2048_S32x64x2048_2_1_1_2_0_0.contr.Idx) :
    (dot_S32x64x64_S32x64x2048_S32x64x2048_2_1_1_2_0_0.rhsIdx i q 1).val = (q ⟨0, by decide⟩).val :=
  dot_S32x64x64_S32x64x2048_S32x64x2048_2_1_1_2_0_0.rhsIdx_val_of_single rfl i q
theorem rhs_ret_2 (i : S32x64x2048.Idx) (q : dot_S32x64x64_S32x64x2048_S32x64x2048_2_1_1_2_0_0.contr.Idx) :
    (dot_S32x64x64_S32x64x2048_S32x64x2048_2_1_1_2_0_0.rhsIdx i q 2).val = (i 2).val := by
  unfold DotDims.rhsIdx
  rw [dif_neg (show ¬(2 : Fin S32x64x2048.rank) ∈ dot_S32x64x64_S32x64x2048_S32x64x2048_2_1_1_2_0_0.rhsBatch by decide), dif_pos (show (2 : Fin S32x64x2048.rank) ∈ dot_S32x64x64_S32x64x2048_S32x64x2048_2_1_1_2_0_0.rhsNonContracting by decide)]
  rfl

theorem ret_dot_apply (sc : (⟨S32x64x64, .f32⟩ : BufTy).Contents (Elt Ideal)) (v : (⟨S32x64x2048, .f32⟩ : BufTy).Contents (Elt Ideal)) (b : Fin 32) (t : Fin 64) (d : Fin 2048) :
    Host.dotGeneral (F := Ideal) (φ₁ := .f32) (φ₂ := .f32) dot_S32x64x64_S32x64x2048_S32x64x2048_2_1_1_2_0_0 none sc v (ix3 b t d) = ∑ s : Fin 64, sc (ix3 b t s) * v (ix3 b s d) := by
  simp only [Host.dotGeneral]
  rw [Ideal.dotGeneral_apply, ← Equiv.sum_comp (contrEquiv1 dot_S32x64x64_S32x64x2048_S32x64x2048_2_1_1_2_0_0 64 rfl rfl).symm]
  refine Finset.sum_congr rfl fun k _ => ?_
  have hk := contrEquiv1_symm_val dot_S32x64x64_S32x64x2048_S32x64x2048_2_1_1_2_0_0 64 rfl rfl k
  have el : dot_S32x64x64_S32x64x2048_S32x64x2048_2_1_1_2_0_0.lhsIdx (ix3 b t d) ((contrEquiv1 dot_S32x64x64_S32x64x2048_S32x64x2048_2_1_1_2_0_0 64 rfl rfl).symm k) = ix3 b t k := funext fun a => Fin.ext (by
    match a with
    | ⟨0, _⟩ => exact lhs_ret_0 _ _
    | ⟨1, _⟩ => exact lhs_ret_1 _ _
    | ⟨2, _⟩ => exact (lhs_ret_2 _ _).trans hk)
  have er : dot_S32x64x64_S32x64x2048_S32x64x2048_2_1_1_2_0_0.rhsIdx (ix3 b t d) ((contrEquiv1 dot_S32x64x64_S32x64x2048_S32x64x2048_2_1_1_2_0_0 64 rfl rfl).symm k) = ix3 b k d := funext fun a => Fin.ext (by
    match a with
    | ⟨0, _⟩ => exact rhs_ret_0 _ _
    | ⟨1, _⟩ => exact (rhs_ret_1 _ _).trans hk
    | ⟨2, _⟩ => exact rhs_ret_2 _ _)
  rw [el, er]

theorem retv_eq (sc : (⟨S32x64x64, .f32⟩ : BufTy).Contents (Elt Ideal)) (v : (⟨S32x64x2048, .f32⟩ : BufTy).Contents (Elt Ideal)) :
    f3 (retv sc v) = Cert.Spec.ret (f3 sc) (f3 v) := by
  funext b t d
  exact ret_dot_apply sc v b t d

end Cert.ReferenceIdeal.RefRun

end
-- ==== Proof.RefRunB.lean ====
import proofs.«172676_j81381040325184_1_alg».proof.Proof.RefRunA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # Second stretch: the outlined variance

The variance of each group as the library function computes it: the mean again, the deviations, their squares, the
row sum of the squares divided by the literal 4096 less the converted integer correction, guarded by a selection on
that divisor being positive (the other branch a quiet not-a-number word). -/

/-- The stretch's 23 operations, in order: the variance's twenty and the guarded selection's three. -/
abbrev opsB : List (HloOp τ sig (Elt F)) :=
  [ StableHlo.TRef.nullary main_call0.cst (constant S_ .f32 0x00000000#32),
    StableHlo.TRef.binary (.of main_v19 : StableHlo.TRef sig ⟨S32x32x4096, .f32⟩) main_call0.cst main_call0.v0 (fun x v => Host.reduceAdd x v reducesTo_S32x32x4096_S32x32_d2 h_S_),
    StableHlo.TRef.unary main_call0.v0 main_call0.v1 (broadcastInDim S32x32x1 ![0, 1] bcast_S32x32_S32x32x1_0_1),
    StableHlo.TRef.nullary main_call0.cst_0 (constant S_ .f32 0x45800000#32),
    StableHlo.TRef.unary main_call0.cst_0 main_call0.v2 (broadcastInDim S32x32x1 ![] bcast_S_S32x32x1),
    StableHlo.TRef.binary main_call0.v1 main_call0.v2 main_call0.v3 Host.divf,
    StableHlo.TRef.unary main_call0.v3 main_call0.v4 (broadcastInDim S32x32x4096 ![0, 1, 2] bcast_S32x32x1_S32x32x4096_0_1_2),
    StableHlo.TRef.binary (.of main_v19 : StableHlo.TRef sig ⟨S32x32x4096, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32x32x4096_S32x32_d2 h_S_),
    StableHlo.TRef.unary main_call0.v9 main_call0.v10 (broadcastInDim S32x32x1 ![0, 1] bcast_S32x32_S32x32x1_0_1),
    StableHlo.TRef.unary main_call0.v8 main_call0.v11 (broadcastInDim S32x32x1 ![] bcast_S_S32x32x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32x32x1 ![] bcast_S_S32x32x1),
    StableHlo.TRef.ternary main_call0.v13 main_call0.v12 main_call0.call0.v1 main_call0.call0.v2 (fun p a b => select (broadcastInDim S32x32x1 ![] bcast_S_S32x32x1 p) a b) ]

/-- The divisor: the literal 4096 less the integer correction converted to a float (a scalar). -/
def divisor (c : (⟨S_, .i32⟩ : BufTy).Contents (Elt F)) : (⟨S_, .f32⟩ : BufTy).Contents (Elt F) :=
  subf (constant S_ .f32 0x45800000#32) (sitofp .f32 c)

/-- The squared deviations from the group mean. -/
def sqdev (g : (⟨S32x32x4096, .f32⟩ : BufTy).Contents (Elt F)) : (⟨S32x32x4096, .f32⟩ : BufTy).Contents (Elt F) :=
  mulf (subf g (broadcastInDim S32x32x4096 ![0, 1, 2] bcast_S32x32x1_S32x32x4096_0_1_2 (mean g)))
    (subf g (broadcastInDim S32x32x4096 ![0, 1, 2] bcast_S32x32x1_S32x32x4096_0_1_2 (mean g)))

/-- The quotient: the row sum of the squared deviations over the divisor. -/
def varq (g : (⟨S32x32x4096, .f32⟩ : BufTy).Contents (Elt F)) (c : (⟨S_, .i32⟩ : BufTy).Contents (Elt F)) : (⟨S32x32x1, .f32⟩ : BufTy).Contents (Elt F) :=
  Host.divf (broadcastInDim S32x32x1 ![0, 1] bcast_S32x32_S32x32x1_0_1 (Host.reduceAdd (sqdev g) (constant S_ .f32 0x00000000#32) reducesTo_S32x32x4096_S32x32_d2 h_S_))
    (broadcastInDim S32x32x1 ![] bcast_S_S32x32x1 (divisor c))

/-- The variance: the quotient where the divisor is positive, the not-a-number word elsewhere. -/
def varT (g : (⟨S32x32x4096, .f32⟩ : BufTy).Contents (Elt F)) (c : (⟨S_, .i32⟩ : BufTy).Contents (Elt F)) : (⟨S32x32x1, .f32⟩ : BufTy).Contents (Elt F) :=
  select (broadcastInDim S32x32x1 ![] bcast_S_S32x32x1 (cmpf .ogt (divisor c) (constant S_ .f32 0x00000000#32)))
    (varq g c)
    (broadcastInDim S32x32x1 ![] bcast_S_S32x32x1 (id (constant S_ .f32 0x7FC00000#32)))

theorem segB_main_v24 (V : Valuation τ sig (Elt F)) :
    after (opsB (F := F)) V (main_v24 : DevRef τ sig) = varT (V (main_v19 : DevRef τ sig)) (V (main_c : DevRef τ sig)) := by
  after_results_simp
  simp only [TRef.toBuf, TRef.ofBuf, cast_eq]
  rfl

theorem segB_main_arg0 (V : Valuation τ sig (Elt F)) :
    after (opsB (F := F)) V (main_arg0 : DevRef τ sig) = V (main_arg0 : DevRef τ sig) := by
  after_results_simp
theorem segB_main_arg1 (V : Valuation τ sig (Elt F)) :
    after (opsB (F := F)) V (main_arg1 : DevRef τ sig) = V (main_arg1 : DevRef τ sig) := by
  after_results_simp
theorem segB_main_arg2 (V : Valuation τ sig (Elt F)) :
    after (opsB (F := F)) V (main_arg2 : DevRef τ sig) = V (main_arg2 : DevRef τ sig) := by
  after_results_simp
theorem segB_main_arg3 (V : Valuation τ sig (Elt F)) :
    after (opsB (F := F)) V (main_arg3 : DevRef τ sig) = V (main_arg3 : DevRef τ sig) := by
  after_results_simp
theorem segB_main_arg4 (V : Valuation τ sig (Elt F)) :
    after (opsB (F := F)) V (main_arg4 : DevRef τ sig) = V (main_arg4 : DevRef τ sig) := by
  after_results_simp
theorem segB_main_arg5 (V : Valuation τ sig (Elt F)) :
    after (opsB (F := F)) V (main_arg5 : DevRef τ sig) = V (main_arg5 : DevRef τ sig) := by
  after_results_simp
theorem segB_main_arg6 (V : Valuation τ sig (Elt F)) :
    after (opsB (F := F)) V (main_arg6 : DevRef τ sig) = V (main_arg6 : DevRef τ sig) := by
  after_results_simp
theorem segB_main_arg7 (V : Valuation τ sig (Elt F)) :
    after (opsB (F := F)) V (main_arg7 : DevRef τ sig) = V (main_arg7 : DevRef τ sig) := by
  after_results_simp
theorem segB_main_arg8 (V : Valuation τ sig (Elt F)) :
    after (opsB (F := F)) V (main_arg8 : DevRef τ sig) = V (main_arg8 : DevRef τ sig) := by
  after_results_simp
theorem segB_main_arg9 (V : Valuation τ sig (Elt F)) :
    after (opsB (F := F)) V (main_arg9 : DevRef τ sig) = V (main_arg9 : DevRef τ sig) := by
  after_results_simp
theorem segB_main_arg10 (V : Valuation τ sig (Elt F)) :
    after (opsB (F := F)) V (main_arg10 : DevRef τ sig) = V (main_arg10 : DevRef τ sig) := by
  after_results_simp
theorem segB_main_arg11 (V : Valuation τ sig (Elt F)) :
    after (opsB (F := F)) V (main_arg11 : DevRef τ sig) = V (main_arg11 : DevRef τ sig) := by
  after_results_simp
theorem segB_main_arg12 (V : Valuation τ sig (Elt F)) :
    after (opsB (F := F)) V (main_arg12 : DevRef τ sig) = V (main_arg12 : DevRef τ sig) := by
  after_results_simp
theorem segB_main_v19 (V : Valuation τ sig (Elt F)) :
    after (opsB (F := F)) V (main_v19 : DevRef τ sig) = V (main_v19 : DevRef τ sig) := by
  after_results_simp
theorem segB_main_v23 (V : Valuation τ sig (Elt F)) :
    after (opsB (F := F)) V (main_v23 : DevRef τ sig) = V (main_v23 : DevRef τ sig) := by
  after_results_simp

theorem opsB_sub : (opsB : List (HloOp τ sig (Elt F))).Forall fun op => op.bufs ⊆ tcRefs τ sig := by
  simp only [opsB, List.Forall, nullary_bufs_sub, unary_bufs_sub, binary_bufs_sub, ternary_bufs_sub, reshape_bufs_sub, and_self]
theorem opsB_fresh : ∀ op ∈ (opsB : List (HloOp τ sig (Elt F))), op.fresh = ∅ := by
  intro _ h; (repeat (cases h with | head => rfl | tail _ h => ?_)); exact nomatch h

end Cert.ReferenceIdeal.RefRun

end
-- ==== Proof.Consts.lean ====
/- The float constants of the normalisation, as the extended reals their words denote.
   `0x45800000` has exponent field 139 and a zero fraction: `2^23 · 2^(139 − 127 − 23) = 2^12 = 4096`.
   `0x3727C5AC` has exponent field 110 and fraction 2606508: `(2^23 + 2606508) · 2^(110 − 127 − 23) = 10995116 / 2^40`,
   the single-precision number nearest `1e-5`; all that is ever used of it is that it is a positive real.
   One module unfolds the words, so that no other module has to. -/
import proofs.«172676_j81381040325184_1_alg».proof.Proof.Spec

noncomputable section

namespace Cert.Consts

open Idealize.ShloMosaic

/-- The group size `N` denotes the real `4096`. -/
theorem N_eq : Cert.Spec.N = ((4096 : ℝ) : EReal) := by
  simp [Cert.Spec.N, Ideal.ofBits, Ideal.ieee, -EReal.coe_mul]; norm_num

/-- The stabiliser denotes the real `10995116 / 2^40`. -/
theorem eps_eq : Cert.Spec.eps = ((10995116 / 2 ^ 40 : ℝ) : EReal) := by
  simp [Cert.Spec.eps, Ideal.ofBits, Ideal.ieee, -EReal.coe_mul]; norm_num

/-- The stabiliser is positive. -/
theorem eps_pos : (0 : EReal) < Cert.Spec.eps := by
  rw [eps_eq]; exact_mod_cast (by positivity : (0 : ℝ) < 10995116 / 2 ^ 40)

/-- The zero word denotes `0`. -/
theorem zero_eq : Ideal.ofBits .f32 0x00000000#32 = 0 := by
  simp [Ideal.ofBits, Ideal.ieee]

end Cert.Consts

end
-- ==== Proof.RefReadG.lean ====
import proofs.«172676_j81381040325184_1_alg».proof.Proof.RefReadA
import proofs.«172676_j81381040325184_1_alg».proof.Proof.RefRunB
import proofs.«172676_j81381040325184_1_alg».proof.Proof.Consts

noncomputable section

namespace Cert.ReferenceIdeal.RefRun

open Cert.ReferenceIdeal Cert.ReferenceIdeal.Gen Idealize.ShloMosaic Idealize.ShloMosaic.ValueIdx
open scoped BigOperators

/-! # The group layout, its mean and its variance read at an index

Entry `k` of group `g` of a batch is token `k % 64` of channel `g · 64 + k / 64`; a row sum is a plain sum over the
4096 entries; the variance's guard sees the divisor `4096 − 0`, which is positive, so the quotient is selected. -/

/-- The group layout at `(b, g, k)`: the specification's row of batch `b`. -/
theorem grp_apply (r : (⟨S32x64x2048, .f32⟩ : BufTy).Contents (Elt Ideal)) (b g : Fin 32) (k : Fin 4096) :
    grp r (ix3 b g k) = Cert.Spec.gR (f3 r b) g k := by
  have hk := k.isLt
  show shapeCast S32x32x4096 (transpose S32x2048x64 [0, 2, 1] r transposes_S32x64x2048_S32x2048x64_0_2_1) shapeCasts_S32x2048x64_S32x32x4096 (ix3 b g k)
    = r (ix3 b (⟨k.val % 64, by omega⟩ : Fin 64) (Cert.Spec.chan g ⟨k.val / 64, by omega⟩))
  rw [shapeCast_apply _ shapeCasts_S32x2048x64_S32x32x4096 (ix3 b g k)
    (ix3 b (Cert.Spec.chan g ⟨k.val / 64, by omega⟩) (⟨k.val % 64, by omega⟩ : Fin 64)) (by
      rw [Shape.rowMajor_val_three, Shape.rowMajor_val_three]
      have := b.isLt; have := g.isLt
      show (b.val * 2048 + (g.val * 64 + k.val / 64)) * 64 + k.val % 64 = (b.val * 32 + g.val) * 4096 + k.val
      omega)]
  exact transpose_apply [0, 2, 1] r transposes_S32x64x2048_S32x2048x64_0_2_1 _ _ (fun a => match a with
    | ⟨0, _⟩ => rfl
    | ⟨1, _⟩ => rfl
    | ⟨2, _⟩ => rfl)

/-- A row sum from the zero word: the plain sum of the row's 4096 entries. -/
theorem rowsum_apply (g : (⟨S32x32x4096, .f32⟩ : BufTy).Contents (Elt Ideal)) (b gg : Fin 32) :
    Host.reduceAdd (F := Ideal) (φ := .f32) g (constant S_ .f32 0x00000000#32) reducesTo_S32x32x4096_S32x32_d2 h_S_ (ix2 b gg)
      = ∑ k : Fin 4096, g (ix3 b gg k) := by
  simp only [Host.reduceAdd, Ideal.hostReduceAdd_def]
  rw [Ideal.hostReduceAdd_single reducesTo_S32x32x4096_S32x32_d2 (by decide)]
  show Ideal.ofBits .f32 0x00000000#32 + _ = _
  rw [Ideal.ofBits_zero_f32, zero_add]
  refine Finset.sum_congr rfl fun k _ => ?_
  exact congrArg g (funext fun a => Fin.ext (by match a with | ⟨0, _⟩ => rfl | ⟨1, _⟩ => rfl | ⟨2, _⟩ => rfl))

/-- A per-group value with a trailing unit axis, from the rank-2 array of groups. -/
theorem keep_apply (y : (⟨S32x32, .f32⟩ : BufTy).Contents (Elt Ideal)) (b gg : Fin 32) (u : Fin 1) :
    broadcastInDim S32x32x1 ![0, 1] bcast_S32x32_S32x32x1_0_1 y (ix3 b gg u) = y (ix2 b gg) :=
  broadcastInDim_apply _ bcast_S32x32_S32x32x1_0_1 y (ix3 b gg u) (ix2 b gg) (fun a => match a with
    | ⟨0, _⟩ => by show b.val = if (32 : Nat) = 1 then 0 else b.val; rw [if_neg (by decide)]
    | ⟨1, _⟩ => by show gg.val = if (32 : Nat) = 1 then 0 else gg.val; rw [if_neg (by decide)])

/-- A scalar broadcast to the per-group shape reads the scalar. -/
theorem splat_apply {α : Type} (y : S_.Idx → α) (j : S32x32x1.Idx) :
    broadcastInDim S32x32x1 ![] bcast_S_S32x32x1 y j = y ix0 :=
  broadcastInDim_apply _ bcast_S_S32x32x1 y j ix0 (fun a => a.elim0)

/-- A per-group value broadcast along the row reads the group's value. -/
theorem along_apply (y : (⟨S32x32x1, .f32⟩ : BufTy).Contents (Elt Ideal)) (b gg : Fin 32) (k : Fin 4096) :
    broadcastInDim S32x32x4096 ![0, 1, 2] bcast_S32x32x1_S32x32x4096_0_1_2 y (ix3 b gg k) = y (ix3 b gg (0 : Fin 1)) :=
  broadcastInDim_apply _ bcast_S32x32x1_S32x32x4096_0_1_2 y (ix3 b gg k) (ix3 b gg (0 : Fin 1)) (fun a => match a with
    | ⟨0, _⟩ => by show b.val = if (32 : Nat) = 1 then 0 else b.val; rw [if_neg (by decide)]
    | ⟨1, _⟩ => by show gg.val = if (32 : Nat) = 1 then 0 else gg.val; rw [if_neg (by decide)]
    | ⟨2, _⟩ => by show 0 = if (1 : Nat) = 1 then 0 else k.val; rw [if_pos rfl])

/-- The host's quotient at an index is the exact values' division. -/
theorem hdivf_apply {s : Shape} (x y : FVec Ideal s .f32) (i : s.Idx) : Host.divf x y i = Ideal.div (x i) (y i) := rfl

/-- The host's reciprocal square root at an index is the exact values'. -/
theorem hrsqrt_apply {s : Shape} (x : FVec Ideal s .f32) (i : s.Idx) : Host.rsqrt x i = Ideal.rsqrt (x i) := rfl

/-- The mean of a group: the row sum over the literal 4096. -/
theorem mean_apply (g : (⟨S32x32x4096, .f32⟩ : BufTy).Contents (Elt Ideal)) (b gg : Fin 32) (u : Fin 1) :
    mean g (ix3 b gg u) = Ideal.div (∑ k : Fin 4096, g (ix3 b gg k)) Cert.Spec.N := by
  unfold mean
  rw [hdivf_apply, keep_apply, splat_apply, rowsum_apply]
  rfl

/-- The mean of a group of the group layout is the specification's. -/
theorem mean_grp (r : (⟨S32x64x2048, .f32⟩ : BufTy).Contents (Elt Ideal)) (b gg : Fin 32) (u : Fin 1) :
    mean (grp r) (ix3 b gg u) = Cert.Spec.muR (f3 r b) gg := by
  rw [mean_apply]
  unfold Cert.Spec.muR
  simp only [grp_apply]

/-- The divisor with the integer correction zero is the literal 4096. -/
theorem divisor_zero (j : S_.Idx) : divisor (F := Ideal) (constantI S_ 32 0#32) j = Cert.Spec.N := by
  show Ideal.ofBits .f32 0x45800000#32 - (((0#32 : BitVec 32).toInt : ℝ) : EReal) = Cert.Spec.N
  have h0 : (((0#32 : BitVec 32).toInt : ℝ) : EReal) = 0 := by simp
  rw [h0, sub_zero]
  rfl

/-- The squared deviation of one entry. -/
theorem sqdev_apply (g : (⟨S32x32x4096, .f32⟩ : BufTy).Contents (Elt Ideal)) (b gg : Fin 32) (k : Fin 4096) :
    sqdev g (ix3 b gg k)
      = (g (ix3 b gg k) - mean g (ix3 b gg (0 : Fin 1))) * (g (ix3 b gg k) - mean g (ix3 b gg (0 : Fin 1))) := by
  unfold sqdev
  rw [mulf_apply, subf_apply, along_apply]

/-- The variance of a group: the guard is decided by `0 < 4096`, the quotient is the mean of the squared deviations. -/
theorem varT_apply (g : (⟨S32x32x4096, .f32⟩ : BufTy).Contents (Elt Ideal)) (b gg : Fin 32) (u : Fin 1) :
    varT g (constantI S_ 32 0#32) (ix3 b gg u)
      = Ideal.div (∑ k : Fin 4096, (g (ix3 b gg k) - mean g (ix3 b gg (0 : Fin 1))) * (g (ix3 b gg k) - mean g (ix3 b gg (0 : Fin 1))))
          Cert.Spec.N := by
  have hpos : (0 : EReal) < Cert.Spec.N := by
    rw [Cert.Consts.N_eq]; exact EReal.coe_pos.mpr (by norm_num)
  unfold varT
  rw [select_apply, splat_apply]
  have hc : cmpf (F := Ideal) (φ := .f32) .ogt (divisor (F := Ideal) (constantI S_ 32 0#32)) (constant S_ .f32 0x00000000#32) ix0 = 1#1 := by
    show Ideal.cmp .ogt (divisor (F := Ideal) (constantI S_ 32 0#32) ix0) (Ideal.ofBits .f32 0x00000000#32) = 1#1
    rw [divisor_zero, Ideal.ofBits_zero_f32]
    show BitVec.ofBool (decide ((0 : EReal) < Cert.Spec.N)) = 1#1
    rw [decide_eq_true hpos]
    rfl
  rw [hc, select_one]
  unfold varq
  rw [hdivf_apply, keep_apply, splat_apply, rowsum_apply, divisor_zero]
  simp only [sqdev_apply]

/-- The variance of a group of the group layout is the specification's. -/
theorem var_grp (r : (⟨S32x64x2048, .f32⟩ : BufTy).Contents (Elt Ideal)) (b gg : Fin 32) (u : Fin 1) :
    varT (grp r) (constantI S_ 32 0#32) (ix3 b gg u) = Cert.Spec.varR (f3 r b) gg := by
  rw [varT_apply]
  unfold Cert.Spec.varR
  simp only [grp_apply, mean_grp]

end Cert.ReferenceIdeal.RefRun

end
-- ==== Proof.RefRunC.lean ====
import proofs.«172676_j81381040325184_1_alg».proof.Proof.RefRunB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # Third stretch: normalisation, scale and shift, the output projection, the activation

The deviations times the reciprocal square root of the variance plus the stabiliser, regrouped back to channels by
tokens, scaled and shifted per channel, transposed back to tokens by channels, projected, passed through the
two-slope activation, and regrouped into the result's shape. -/

/-- The stretch's 27 operations, in order (the activation's selection is the outlined one). -/
abbrev opsC : List (HloOp τ sig (Elt F)) :=
  [ StableHlo.unary main_v23 main_v25 (broadcastInDim S32x32x4096 ![0, 1, 2] bcast_S32x32x1_S32x32x4096_0_1_2 : (⟨S32x32x1, .f32⟩ : BufTy).Contents (Elt F) → (⟨S32x32x4096, .f32⟩ : BufTy).Contents (Elt F)),
    StableHlo.binary main_v19 main_v25 main_v26 (subf : (⟨S32x32x4096, .f32⟩ : BufTy).Contents (Elt F) → (⟨S32x32x4096, .f32⟩ : BufTy).Contents (Elt F) → (⟨S32x32x4096, .f32⟩ : BufTy).Contents (Elt F)),
    StableHlo.nullary main_cst_1 (constant S_ .f32 0x3727C5AC#32),
    StableHlo.unary main_cst_1 main_v27 (broadcastInDim S32x32x1 ![] bcast_S_S32x32x1 : (⟨S_, .f32⟩ : BufTy).Contents (Elt F) → (⟨S32x32x1, .f32⟩ : BufTy).Contents (Elt F)),
    StableHlo.binary main_v24 main_v27 main_v28 (addf : (⟨S32x32x1, .f32⟩ : BufTy).Contents (Elt F) → (⟨S32x32x1, .f32⟩ : BufTy).Contents (Elt F) → (⟨S32x32x1, .f32⟩ : BufTy).Contents (Elt F)),
    StableHlo.unary main_v28 main_v29 (Host.rsqrt : (⟨S32x32x1, .f32⟩ : BufTy).Contents (Elt F) → (⟨S32x32x1, .f32⟩ : BufTy).Contents (Elt F)),
    StableHlo.unary main_v29 main_v30 (broadcastInDim S32x32x4096 ![0, 1, 2] bcast_S32x32x1_S32x32x4096_0_1_2 : (⟨S32x32x1, .f32⟩ : BufTy).Contents (Elt F) → (⟨S32x32x4096, .f32⟩ : BufTy).Contents (Elt F)),
    StableHlo.binary main_v26 main_v30 main_v31 (mulf : (⟨S32x32x4096, .f32⟩ : BufTy).Contents (Elt F) → (⟨S32x32x4096, .f32⟩ : BufTy).Contents (Elt F) → (⟨S32x32x4096, .f32⟩ : BufTy).Contents (Elt F)),
    StableHlo.reshape main_v31 main_v32 rfl shapeCasts_S32x32x4096_S32x2048x64,
    StableHlo.unary main_arg10 main_v33 (broadcastInDim S1x2048x1 ![1] bcast_S2048_S1x2048x1_1 : (⟨S2048, .f32⟩ : BufTy).Contents (Elt F) → (⟨S1x2048x1, .f32⟩ : BufTy).Contents (Elt F)),
    StableHlo.unary main_v33 main_v34 (broadcastInDim S32x2048x64 ![0, 1, 2] bcast_S1x2048x1_S32x2048x64_0_1_2 : (⟨S1x2048x1, .f32⟩ : BufTy).Contents (Elt F) → (⟨S32x2048x64, .f32⟩ : BufTy).Contents (Elt F)),
    StableHlo.binary main_v32 main_v34 main_v35 (mulf : (⟨S32x2048x64, .f32⟩ : BufTy).Contents (Elt F) → (⟨S32x2048x64, .f32⟩ : BufTy).Contents (Elt F) → (⟨S32x2048x64, .f32⟩ : BufTy).Contents (Elt F)),
    StableHlo.unary main_arg11 main_v36 (broadcastInDim S1x2048x1 ![1] bcast_S2048_S1x2048x1_1 : (⟨S2048, .f32⟩ : BufTy).Contents (Elt F) → (⟨S1x2048x1, .f32⟩ : BufTy).Contents (Elt F)),
    StableHlo.unary main_v36 main_v37 (broadcastInDim S32x2048x64 ![0, 1, 2] bcast_S1x2048x1_S32x2048x64_0_1_2 : (⟨S1x2048x1, .f32⟩ : BufTy).Contents (Elt F) → (⟨S32x2048x64, .f32⟩ : BufTy).Contents (Elt F)),
    StableHlo.binary main_v35 main_v37 main_v38 (addf : (⟨S32x2048x64, .f32⟩ : BufTy).Contents (Elt F) → (⟨S32x2048x64, .f32⟩ : BufTy).Contents (Elt F) → (⟨S32x2048x64, .f32⟩ : BufTy).Contents (Elt F)),
    StableHlo.unary main_v38 main_v39 ((transpose S32x64x2048 [0, 2, 1] · transposes_S32x2048x64_S32x64x2048_0_2_1) : (⟨S32x2048x64, .f32⟩ : BufTy).Contents (Elt F) → (⟨S32x64x2048, .f32⟩ : BufTy).Contents (Elt F)),
    StableHlo.binary main_v39 main_arg8 main_v40 ((fun l r => Host.dotGeneral dot_S32x64x2048_S2048x2048_S32x64x2048_2_1_01_0_n_n none l r) : (⟨S32x64x2048, .f32⟩ : BufTy).Contents (Elt F) → (⟨S2048x2048, .f32⟩ : BufTy).Contents (Elt F) → (⟨S32x64x2048, .f32⟩ : BufTy).Contents (Elt F)),
    StableHlo.unary main_arg9 main_v41 (broadcastInDim S1x1x2048 ![2] bcast_S2048_S1x1x2048_2 : (⟨S2048, .f32⟩ : BufTy).Contents (Elt F) → (⟨S1x1x2048, .f32⟩ : BufTy).Contents (Elt F)),
    StableHlo.unary main_v41 main_v42 (broadcastInDim S32x64x2048 ![0, 1, 2] bcast_S1x1x2048_S32x64x2048_0_1_2 : (⟨S1x1x2048, .f32⟩ : BufTy).Contents (Elt F) → (⟨S32x64x2048, .f32⟩ : BufTy).Contents (Elt F)),
    StableHlo.binary main_v40 main_v42 main_v43 (addf : (⟨S32x64x2048, .f32⟩ : BufTy).Contents (Elt F) → (⟨S32x64x2048, .f32⟩ : BufTy).Contents (Elt F) → (⟨S32x64x2048, .f32⟩ : BufTy).Contents (Elt F)),
    StableHlo.nullary main_cst_2 (constant S_ .f32 0x00000000#32),
    StableHlo.unary main_cst_2 main_v44 (broadcastInDim S32x64x2048 ![] bcast_S_S32x64x2048 : (⟨S_, .f32⟩ : BufTy).Contents (Elt F) → (⟨S32x64x2048, .f32⟩ : BufTy).Contents (Elt F)),
    StableHlo.binary main_v43 main_v44 main_v45 (cmpf .oge : (⟨S32x64x2048, .f32⟩ : BufTy).Contents (Elt F) → (⟨S32x64x2048, .f32⟩ : BufTy).Contents (Elt F) → (⟨S32x64x2048, .i1⟩ : BufTy).Contents (Elt F)),
    StableHlo.unary main_arg12 main_v46 (broadcastInDim S32x64x2048 ![] bcast_S_S32x64x2048 : (⟨S_, .f32⟩ : BufTy).Contents (Elt F) → (⟨S32x64x2048, .f32⟩ : BufTy).Contents (Elt F)),
    StableHlo.binary main_v46 main_v43 main_v47 (mulf : (⟨S32x64x2048, .f32⟩ : BufTy).Contents (Elt F) → (⟨S32x64x2048, .f32⟩ : BufTy).Contents (Elt F) → (⟨S32x64x2048, .f32⟩ : BufTy).Contents (Elt F)),
    StableHlo.TRef.ternary (.of main_v45 : StableHlo.TRef sig ⟨S32x64x2048, .i1⟩) (.of main_v43 : StableHlo.TRef sig ⟨S32x64x2048, .f32⟩) (.of main_v47 : StableHlo.TRef sig ⟨S32x64x2048, .f32⟩) main_call1.v0 select,
    StableHlo.reshape main_v48 main_v49 rfl shapeCasts_S32x64x2048_S32x1024x128 ]

/-- The normalised groups. -/
def gnorm (g : (⟨S32x32x4096, .f32⟩ : BufTy).Contents (Elt F)) (mu var : (⟨S32x32x1, .f32⟩ : BufTy).Contents (Elt F)) : (⟨S32x32x4096, .f32⟩ : BufTy).Contents (Elt F) :=
  mulf (subf g (broadcastInDim S32x32x4096 ![0, 1, 2] bcast_S32x32x1_S32x32x4096_0_1_2 mu))
    (broadcastInDim S32x32x4096 ![0, 1, 2] bcast_S32x32x1_S32x32x4096_0_1_2
      (Host.rsqrt (addf var (broadcastInDim S32x32x1 ![] bcast_S_S32x32x1 (constant S_ .f32 0x3727C5AC#32)))))

/-- Back to channels by tokens, the per-channel scale and shift, then tokens by channels. -/
def affine (gn : (⟨S32x32x4096, .f32⟩ : BufTy).Contents (Elt F)) (gw gb : (⟨S2048, .f32⟩ : BufTy).Contents (Elt F)) : (⟨S32x64x2048, .f32⟩ : BufTy).Contents (Elt F) :=
  transpose S32x64x2048 [0, 2, 1]
    (addf
      (mulf (fun i => shapeCast S32x2048x64 gn shapeCasts_S32x32x4096_S32x2048x64 i)
        (broadcastInDim S32x2048x64 ![0, 1, 2] bcast_S1x2048x1_S32x2048x64_0_1_2 (broadcastInDim S1x2048x1 ![1] bcast_S2048_S1x2048x1_1 gw)))
      (broadcastInDim S32x2048x64 ![0, 1, 2] bcast_S1x2048x1_S32x2048x64_0_1_2 (broadcastInDim S1x2048x1 ![1] bcast_S2048_S1x2048x1_1 gb)))
    transposes_S32x2048x64_S32x64x2048_0_2_1

/-- The activation: the value where it is at least zero, the slope times the value elsewhere. -/
def prelu (o : (⟨S32x64x2048, .f32⟩ : BufTy).Contents (Elt F)) (a : (⟨S_, .f32⟩ : BufTy).Contents (Elt F)) : (⟨S32x64x2048, .f32⟩ : BufTy).Contents (Elt F) :=
  select (cmpf .oge o (broadcastInDim S32x64x2048 ![] bcast_S_S32x64x2048 (constant S_ .f32 0x00000000#32))) o
    (mulf (broadcastInDim S32x64x2048 ![] bcast_S_S32x64x2048 a) o)

/-- The result's shape: a row-major regrouping. -/
def outc (p : (⟨S32x64x2048, .f32⟩ : BufTy).Contents (Elt F)) : (⟨S32x1024x128, .f32⟩ : BufTy).Contents (Elt F) :=
  fun i => shapeCast S32x1024x128 p shapeCasts_S32x64x2048_S32x1024x128 i

/-- The stretch as a function of the groups, their mean and variance, and the remaining arguments. -/
def tailT (g : (⟨S32x32x4096, .f32⟩ : BufTy).Contents (Elt F)) (mu var : (⟨S32x32x1, .f32⟩ : BufTy).Contents (Elt F)) (Wo : (⟨S2048x2048, .f32⟩ : BufTy).Contents (Elt F)) (bo gw gb : (⟨S2048, .f32⟩ : BufTy).Contents (Elt F)) (a : (⟨S_, .f32⟩ : BufTy).Contents (Elt F)) :
    (⟨S32x1024x128, .f32⟩ : BufTy).Contents (Elt F) :=
  outc (prelu (proj (affine (gnorm g mu var) gw gb) Wo bo) a)

theorem segC_main_v49 (V : Valuation τ sig (Elt F)) :
    after (opsC (F := F)) V (main_v49 : DevRef τ sig)
      = tailT (V (main_v19 : DevRef τ sig)) (V (main_v23 : DevRef τ sig)) (V (main_v24 : DevRef τ sig))
          (V (main_arg8 : DevRef τ sig)) (V (main_arg9 : DevRef τ sig)) (V (main_arg10 : DevRef τ sig)) (V (main_arg11 : DevRef τ sig))
          (V (main_arg12 : DevRef τ sig)) := by
  after_results_simp
  simp only [TRef.toBuf, TRef.ofBuf, cast_eq]
  rfl

theorem segC_main_arg0 (V : Valuation τ sig (Elt F)) :
    after (opsC (F := F)) V (main_arg0 : DevRef τ sig) = V (main_arg0 : DevRef τ sig) := by
  after_results_simp
theorem segC_main_arg1 (V : Valuation τ sig (Elt F)) :
    after (opsC (F := F)) V (main_arg1 : DevRef τ sig) = V (main_arg1 : DevRef τ sig) := by
  after_results_simp
theorem segC_main_arg2 (V : Valuation τ sig (Elt F)) :
    after (opsC (F := F)) V (main_arg2 : DevRef τ sig) = V (main_arg2 : DevRef τ sig) := by
  after_results_simp
theorem segC_main_arg3 (V : Valuation τ sig (Elt F)) :
    after (opsC (F := F)) V (main_arg3 : DevRef τ sig) = V (main_arg3 : DevRef τ sig) := by
  after_results_simp
theorem segC_main_arg4 (V : Valuation τ sig (Elt F)) :
    after (opsC (F := F)) V (main_arg4 : DevRef τ sig) = V (main_arg4 : DevRef τ sig) := by
  after_results_simp
theorem segC_main_arg5 (V : Valuation τ sig (Elt F)) :
    after (opsC (F := F)) V (main_arg5 : DevRef τ sig) = V (main_arg5 : DevRef τ sig) := by
  after_results_simp
theorem segC_main_arg6 (V : Valuation τ sig (Elt F)) :
    after (opsC (F := F)) V (main_arg6 : DevRef τ sig) = V (main_arg6 : DevRef τ sig) := by
  after_results_simp
theorem segC_main_arg7 (V : Valuation τ sig (Elt F)) :
    after (opsC (F := F)) V (main_arg7 : DevRef τ sig) = V (main_arg7 : DevRef τ sig) := by
  after_results_simp
theorem segC_main_arg8 (V : Valuation τ sig (Elt F)) :
    after (opsC (F := F)) V (main_arg8 : DevRef τ sig) = V (main_arg8 : DevRef τ sig) := by
  after_results_simp
theorem segC_main_arg9 (V : Valuation τ sig (Elt F)) :
    after (opsC (F := F)) V (main_arg9 : DevRef τ sig) = V (main_arg9 : DevRef τ sig) := by
  after_results_simp
theorem segC_main_arg10 (V : Valuation τ sig (Elt F)) :
    after (opsC (F := F)) V (main_arg10 : DevRef τ sig) = V (main_arg10 : DevRef τ sig) := by
  after_results_simp
theorem segC_main_arg11 (V : Valuation τ sig (Elt F)) :
    after (opsC (F := F)) V (main_arg11 : DevRef τ sig) = V (main_arg11 : DevRef τ sig) := by
  after_results_simp
theorem segC_main_arg12 (V : Valuation τ sig (Elt F)) :
    after (opsC (F := F)) V (main_arg12 : DevRef τ sig) = V (main_arg12 : DevRef τ sig) := by
  after_results_simp

theorem opsC_sub : (opsC : List (HloOp τ sig (Elt F))).Forall fun op => op.bufs ⊆ tcRefs τ sig := by
  simp only [opsC, List.Forall, nullary_bufs_sub, unary_bufs_sub, binary_bufs_sub, ternary_bufs_sub, reshape_bufs_sub, and_self]
theorem opsC_fresh : ∀ op ∈ (opsC : List (HloOp τ sig (Elt F))), op.fresh = ∅ := by
  intro _ h; (repeat (cases h with | head => rfl | tail _ h => ?_)); exact nomatch h

end Cert.ReferenceIdeal.RefRun

end
-- ==== Proof.RefReadC.lean ====
import proofs.«172676_j81381040325184_1_alg».proof.Proof.RefReadG
import proofs.«172676_j81381040325184_1_alg».proof.Proof.RefRunC

noncomputable section

namespace Cert.ReferenceIdeal.RefRun

open Cert.ReferenceIdeal Cert.ReferenceIdeal.Gen Idealize.ShloMosaic Idealize.ShloMosaic.ValueIdx
open scoped BigOperators

/-! # The third stretch read at an index

The normalised entry is the deviation times the reciprocal square root of the group's variance plus the stabiliser;
back in tokens by channels, channel `d` of token `t` is entry `(d % 64) · 64 + t` of group `d / 64`; the scale and
shift read the channel; the activation compares with the zero word. -/

/-- The normalised groups at an entry. -/
theorem gnorm_apply (g : (⟨S32x32x4096, .f32⟩ : BufTy).Contents (Elt Ideal)) (mu var : (⟨S32x32x1, .f32⟩ : BufTy).Contents (Elt Ideal)) (b gg : Fin 32) (k : Fin 4096) :
    gnorm g mu var (ix3 b gg k)
      = (g (ix3 b gg k) - mu (ix3 b gg (0 : Fin 1))) * Ideal.rsqrt (var (ix3 b gg (0 : Fin 1)) + Cert.Spec.eps) := by
  unfold gnorm
  rw [mulf_apply, subf_apply, along_apply, along_apply, hrsqrt_apply, addf_apply, splat_apply]
  rfl

/-- A per-channel vector broadcast over batches and tokens of the channels-by-tokens layout reads the channel. -/
theorem chanvec_apply (w : (⟨S2048, .f32⟩ : BufTy).Contents (Elt Ideal)) (b : Fin 32) (d : Fin 2048) (t : Fin 64) :
    broadcastInDim S32x2048x64 ![0, 1, 2] bcast_S1x2048x1_S32x2048x64_0_1_2 (broadcastInDim S1x2048x1 ![1] bcast_S2048_S1x2048x1_1 w) (ix3 b d t)
      = w (ix1 d) := by
  rw [broadcastInDim_apply _ bcast_S1x2048x1_S32x2048x64_0_1_2 _ (ix3 b d t) (ix3 (0 : Fin 1) d (0 : Fin 1)) (fun a => match a with
    | ⟨0, _⟩ => by show 0 = if (1 : Nat) = 1 then 0 else b.val; rw [if_pos rfl]
    | ⟨1, _⟩ => by show d.val = if (2048 : Nat) = 1 then 0 else d.val; rw [if_neg (by decide)]
    | ⟨2, _⟩ => by show 0 = if (1 : Nat) = 1 then 0 else t.val; rw [if_pos rfl])]
  exact broadcastInDim_apply _ bcast_S2048_S1x2048x1_1 w (ix3 (0 : Fin 1) d (0 : Fin 1)) (ix1 d) (fun a => match a with
    | ⟨0, _⟩ => by show d.val = if (2048 : Nat) = 1 then 0 else d.val; rw [if_neg (by decide)])

/-- The entry of its group that holds channel `d` of token `t`. -/
def entry (d : Fin 2048) (t : Fin 64) : Fin 4096 := ⟨d.val % 64 * 64 + t.val, by have := t.isLt; omega⟩

/-- Scale and shift at token `t`, channel `d`. -/
theorem affine_apply (gn : (⟨S32x32x4096, .f32⟩ : BufTy).Contents (Elt Ideal)) (gw gb : (⟨S2048, .f32⟩ : BufTy).Contents (Elt Ideal)) (b : Fin 32) (t : Fin 64) (d : Fin 2048) :
    affine gn gw gb (ix3 b t d) = gn (ix3 b (Cert.Spec.grp d) (entry d t)) * gw (ix1 d) + gb (ix1 d) := by
  unfold affine
  rw [transpose_apply [0, 2, 1] _ transposes_S32x2048x64_S32x64x2048_0_2_1 (ix3 b t d) (ix3 b d t) (fun a => match a with
    | ⟨0, _⟩ => rfl
    | ⟨1, _⟩ => rfl
    | ⟨2, _⟩ => rfl)]
  rw [addf_apply, mulf_apply, chanvec_apply, chanvec_apply]
  show shapeCast S32x2048x64 gn shapeCasts_S32x32x4096_S32x2048x64 (ix3 b d t) * _ + _ = _
  rw [shapeCast_apply gn shapeCasts_S32x32x4096_S32x2048x64 (ix3 b d t) (ix3 b (Cert.Spec.grp d) (entry d t)) (by
    rw [Shape.rowMajor_val_three, Shape.rowMajor_val_three]
    have := b.isLt; have := d.isLt; have := t.isLt
    show (b.val * 32 + d.val / 64) * 4096 + (d.val % 64 * 64 + t.val) = (b.val * 2048 + d.val) * 64 + t.val
    omega)]

/-- The normalised, scaled and shifted values of one batch are the specification's. -/
theorem affine_eq (r : (⟨S32x64x2048, .f32⟩ : BufTy).Contents (Elt Ideal)) (gw gb : (⟨S2048, .f32⟩ : BufTy).Contents (Elt Ideal)) (b : Fin 32) :
    f3 (affine (gnorm (grp r) (mean (grp r)) (varT (grp r) (constantI S_ 32 0#32))) gw gb) b
      = Cert.Spec.aff (Cert.Spec.gnR (f3 r b)) (f1 gw) (f1 gb) := by
  funext t d
  show affine _ gw gb (ix3 b t d) = Cert.Spec.gnR (f3 r b) t d * gw (ix1 d) + gb (ix1 d)
  rw [affine_apply, gnorm_apply, grp_apply, mean_grp, var_grp]
  have ht : (⟨(entry d t).val % 64, by omega⟩ : Fin 64) = t := Fin.ext (by
    have := t.isLt; show (d.val % 64 * 64 + t.val) % 64 = t.val; omega)
  have hd : Cert.Spec.chan (Cert.Spec.grp d) ⟨(entry d t).val / 64, by have := (entry d t).isLt; omega⟩ = d := Fin.ext (by
    have := t.isLt; have := d.isLt
    show d.val / 64 * 64 + (d.val % 64 * 64 + t.val) / 64 = d.val; omega)
  unfold Cert.Spec.gnR Cert.Spec.gR
  rw [ht, hd]

/-- The activation at an index. -/
theorem prelu_apply (o : (⟨S32x64x2048, .f32⟩ : BufTy).Contents (Elt Ideal)) (a : (⟨S_, .f32⟩ : BufTy).Contents (Elt Ideal)) (j : S32x64x2048.Idx) :
    prelu o a j = Cert.Spec.prelu (a ix0) (o j) := by
  unfold prelu Cert.Spec.prelu
  rw [select_apply, mulf_apply, cmpf_apply, broadcastInDim_apply _ bcast_S_S32x64x2048 a j ix0 (fun x => x.elim0),
    broadcastInDim_apply _ bcast_S_S32x64x2048 (constant (F := Ideal) S_ .f32 0x00000000#32) j ix0 (fun x => x.elim0)]
  show Scalar.select (BitVec.ofBool (decide (Ideal.ofBits .f32 0x00000000#32 ≤ o j))) _ _ = _
  rw [Ideal.ofBits_zero_f32]
  by_cases h : (0 : EReal) ≤ o j
  · rw [decide_eq_true h, if_pos h]; exact select_one _ _
  · rw [decide_eq_false h, if_neg h]; exact select_zero _ _

/-- The result's regrouping at the index of `(b, t, n)`. -/
theorem outc_apply (p : (⟨S32x64x2048, .f32⟩ : BufTy).Contents (Elt Ideal)) (b : Fin 32) (t : Fin 64) (n : Fin 2048) :
    outc p (Cert.Inputs.outIdx b t n) = p (ix3 b t n) := by
  show shapeCast S32x1024x128 p shapeCasts_S32x64x2048_S32x1024x128 (Cert.Inputs.outIdx b t n) = p (ix3 b t n)
  refine shapeCast_apply p _ (Cert.Inputs.outIdx b t n) (ix3 b t n) ?_
  rw [Cert.Inputs.outIdx_rowMajor, Shape.rowMajor_val_three]
  show (b.val * 64 + t.val) * 2048 + n.val = (b.val * 64 + t.val) * 2048 + n.val
  rfl

end Cert.ReferenceIdeal.RefRun

end
-- ==== Proof.RefRun.lean ====
import proofs.«172676_j81381040325184_1_alg».proof.Proof.RefRunC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! # The reference's run

The three stretches in a row are the whole program; its run leaves, at the result buffer, the stretches' functions
composed, and every argument buffer as it was. -/

/-- The program's 77 operations, in order. -/
abbrev ops : List (HloOp τ sig (Elt F)) := opsA ++ opsB ++ opsC

/-- The program is that straight line: the two outlined functions opened at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨opsA_sub, opsB_sub⟩, opsC_sub⟩

theorem ops_fresh : ∀ op ∈ (ops : List (HloOp τ sig (Elt F))), op.fresh = ∅ := by
  intro op h
  rcases List.mem_append.mp h with h | h
  · rcases List.mem_append.mp h with h | h
    · exact opsA_fresh op h
    · exact opsB_fresh op h
  · exact opsC_fresh op h

/-- Folding one list after another is folding their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- The result as a function of the thirteen arguments: the groups, their mean, their variance (with the integer
    correction zero), and the tail. -/
def refTerm (X : (⟨S32x4x1024x32, .f32⟩ : BufTy).Contents (Elt F)) (dg : (⟨S64x64, .f32⟩ : BufTy).Contents (Elt F)) (Wq : (⟨S2048x2048, .f32⟩ : BufTy).Contents (Elt F)) (bq : (⟨S2048, .f32⟩ : BufTy).Contents (Elt F))
    (Wk : (⟨S2048x2048, .f32⟩ : BufTy).Contents (Elt F)) (bk : (⟨S2048, .f32⟩ : BufTy).Contents (Elt F)) (Wv : (⟨S2048x2048, .f32⟩ : BufTy).Contents (Elt F)) (bv : (⟨S2048, .f32⟩ : BufTy).Contents (Elt F))
    (Wo : (⟨S2048x2048, .f32⟩ : BufTy).Contents (Elt F)) (bo gw gb : (⟨S2048, .f32⟩ : BufTy).Contents (Elt F)) (a : (⟨S_, .f32⟩ : BufTy).Contents (Elt F)) : (⟨S32x1024x128, .f32⟩ : BufTy).Contents (Elt F) :=
  tailT (gT X dg Wq bq Wk bk Wv bv) (mean (gT X dg Wq bq Wk bk Wv bv))
    (varT (gT X dg Wq bq Wk bk Wv bv) (constantI S_ 32 0#32)) Wo bo gw gb a

theorem ops_main_v49 (V : Valuation τ sig (Elt F)) :
    after (ops (F := F)) V (main_v49 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [ops, after_app, after_app, segC_main_v49, segB_main_v24, segB_main_v19, segB_main_v23, segB_main_arg8, segB_main_arg9,
    segB_main_arg10, segB_main_arg11, segB_main_arg12, segA_main_v19, segA_main_v23, segA_main_c, segA_main_arg8, segA_main_arg9,
    segA_main_arg10, segA_main_arg11, segA_main_arg12]
  rfl

theorem ops_main_arg0 (V : Valuation τ sig (Elt F)) : after (ops (F := F)) V (main_arg0 : DevRef τ sig) = V (main_arg0 : DevRef τ sig) := by
  rw [ops, after_app, after_app, segC_main_arg0, segB_main_arg0, segA_main_arg0]
theorem ops_main_arg1 (V : Valuation τ sig (Elt F)) : after (ops (F := F)) V (main_arg1 : DevRef τ sig) = V (main_arg1 : DevRef τ sig) := by
  rw [ops, after_app, after_app, segC_main_arg1, segB_main_arg1, segA_main_arg1]
theorem ops_main_arg2 (V : Valuation τ sig (Elt F)) : after (ops (F := F)) V (main_arg2 : DevRef τ sig) = V (main_arg2 : DevRef τ sig) := by
  rw [ops, after_app, after_app, segC_main_arg2, segB_main_arg2, segA_main_arg2]
theorem ops_main_arg3 (V : Valuation τ sig (Elt F)) : after (ops (F := F)) V (main_arg3 : DevRef τ sig) = V (main_arg3 : DevRef τ sig) := by
  rw [ops, after_app, after_app, segC_main_arg3, segB_main_arg3, segA_main_arg3]
theorem ops_main_arg4 (V : Valuation τ sig (Elt F)) : after (ops (F := F)) V (main_arg4 : DevRef τ sig) = V (main_arg4 : DevRef τ sig) := by
  rw [ops, after_app, after_app, segC_main_arg4, segB_main_arg4, segA_main_arg4]
theorem ops_main_arg5 (V : Valuation τ sig (Elt F)) : after (ops (F := F)) V (main_arg5 : DevRef τ sig) = V (main_arg5 : DevRef τ sig) := by
  rw [ops, after_app, after_app, segC_main_arg5, segB_main_arg5, segA_main_arg5]
theorem ops_main_arg6 (V : Valuation τ sig (Elt F)) : after (ops (F := F)) V (main_arg6 : DevRef τ sig) = V (main_arg6 : DevRef τ sig) := by
  rw [ops, after_app, after_app, segC_main_arg6, segB_main_arg6, segA_main_arg6]
theorem ops_main_arg7 (V : Valuation τ sig (Elt F)) : after (ops (F := F)) V (main_arg7 : DevRef τ sig) = V (main_arg7 : DevRef τ sig) := by
  rw [ops, after_app, after_app, segC_main_arg7, segB_main_arg7, segA_main_arg7]
theorem ops_main_arg8 (V : Valuation τ sig (Elt F)) : after (ops (F := F)) V (main_arg8 : DevRef τ sig) = V (main_arg8 : DevRef τ sig) := by
  rw [ops, after_app, after_app, segC_main_arg8, segB_main_arg8, segA_main_arg8]
theorem ops_main_arg9 (V : Valuation τ sig (Elt F)) : after (ops (F := F)) V (main_arg9 : DevRef τ sig) = V (main_arg9 : DevRef τ sig) := by
  rw [ops, after_app, after_app, segC_main_arg9, segB_main_arg9, segA_main_arg9]
theorem ops_main_arg10 (V : Valuation τ sig (Elt F)) : after (ops (F := F)) V (main_arg10 : DevRef τ sig) = V (main_arg10 : DevRef τ sig) := by
  rw [ops, after_app, after_app, segC_main_arg10, segB_main_arg10, segA_main_arg10]
theorem ops_main_arg11 (V : Valuation τ sig (Elt F)) : after (ops (F := F)) V (main_arg11 : DevRef τ sig) = V (main_arg11 : DevRef τ sig) := by
  rw [ops, after_app, after_app, segC_main_arg11, segB_main_arg11, segA_main_arg11]
theorem ops_main_arg12 (V : Valuation τ sig (Elt F)) : after (ops (F := F)) V (main_arg12 : DevRef τ sig) = V (main_arg12 : DevRef τ sig) := by
  rw [ops, after_app, after_app, segC_main_arg12, segB_main_arg12, segA_main_arg12]

/-- On every device, for any float values, from any memory with zero counters: every weakly fair execution of the
    program terminates with the result buffer at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v49).trans (ops_main_v49 _),
      (h c main_arg0).trans (ops_main_arg0 _),
      (h c main_arg1).trans (ops_main_arg1 _),
      (h c main_arg2).trans (ops_main_arg2 _),
      (h c main_arg3).trans (ops_main_arg3 _),
      (h c main_arg4).trans (ops_main_arg4 _),
      (h c main_arg5).trans (ops_main_arg5 _),
      (h c main_arg6).trans (ops_main_arg6 _),
      (h c main_arg7).trans (ops_main_arg7 _),
      (h c main_arg8).trans (ops_main_arg8 _),
      (h c main_arg9).trans (ops_main_arg9 _),
      (h c main_arg10).trans (ops_main_arg10 _),
      (h c main_arg11).trans (ops_main_arg11 _),
      (h c main_arg12).trans (ops_main_arg12 _)⟩)
    (run_seq scopedRefs_eq scopedSems_eq defs main (fun _ => ops) main_eq (fun _ => ops_sub) m ρ (fun _ => ops_fresh))

end Cert.ReferenceIdeal.RefRun

end
-- ==== Proof.RefValue.lean ====
import proofs.«172676_j81381040325184_1_alg».proof.Proof.RefReadC
import proofs.«172676_j81381040325184_1_alg».proof.Proof.RefRun

noncomputable section

namespace Cert.ReferenceIdeal.RefRun

open Cert.ReferenceIdeal Cert.ReferenceIdeal.Gen Idealize.ShloMosaic Idealize.ShloMosaic.ValueIdx
open scoped BigOperators

/-! # The reference's result is the specification

The stages' readings composed: at the index of `(b, t, n)` the run's term is the specification's second variant of
the arguments read as curried functions of their coordinates. -/

/-- The output projection of the specification is its projection, batch by batch. -/
theorem outp_eq (Y : Fin 32 → Fin 64 → Fin 2048 → EReal) (wo : Fin 2048 → Fin 2048 → EReal) (bo : Fin 2048 → EReal)
    (b : Fin 32) (t : Fin 64) (n : Fin 2048) :
    Cert.Spec.proj Y wo bo b t n = Cert.Spec.outp (Y b) wo bo t n := rfl

/-- The reference's result at the index of `(b, t, n)`, the arguments read as curried functions of their coordinates. -/
theorem refTerm_eq_spec (X : (⟨S32x4x1024x32, .f32⟩ : BufTy).Contents (Elt Ideal)) (dg : (⟨S64x64, .f32⟩ : BufTy).Contents (Elt Ideal)) (Wq : (⟨S2048x2048, .f32⟩ : BufTy).Contents (Elt Ideal)) (bq : (⟨S2048, .f32⟩ : BufTy).Contents (Elt Ideal))
    (Wk : (⟨S2048x2048, .f32⟩ : BufTy).Contents (Elt Ideal)) (bk : (⟨S2048, .f32⟩ : BufTy).Contents (Elt Ideal)) (Wv : (⟨S2048x2048, .f32⟩ : BufTy).Contents (Elt Ideal)) (bv : (⟨S2048, .f32⟩ : BufTy).Contents (Elt Ideal))
    (Wo : (⟨S2048x2048, .f32⟩ : BufTy).Contents (Elt Ideal)) (bo gw gb : (⟨S2048, .f32⟩ : BufTy).Contents (Elt Ideal)) (a : (⟨S_, .f32⟩ : BufTy).Contents (Elt Ideal)) (b : Fin 32) (t : Fin 64) (n : Fin 2048) :
    refTerm (F := Ideal) X dg Wq bq Wk bk Wv bv Wo bo gw gb a (Cert.Inputs.outIdx b t n)
      = Cert.Spec.outR (Cert.Inputs.xOf X) (Cert.Inputs.wOf Wq) (Cert.Inputs.wOf Wk) (Cert.Inputs.wOf Wv) (Cert.Inputs.wOf Wo)
          (Cert.Inputs.vOf bq) (Cert.Inputs.vOf bk) (Cert.Inputs.vOf bv) (Cert.Inputs.vOf bo) (Cert.Inputs.vOf gw) (Cert.Inputs.vOf gb)
          (Cert.Inputs.dgOf dg) (Cert.Inputs.aOf a) b t n := by
  show _ = Cert.Spec.outR (Cert.Inputs.xOf X) (f2 Wq) (f2 Wk) (f2 Wv) (f2 Wo) (f1 bq) (f1 bk) (f1 bv) (f1 bo) (f1 gw) (f1 gb) (f2 dg) (a ix0) b t n
  unfold refTerm tailT gT
  rw [outc_apply, prelu_apply]
  show Cert.Spec.prelu (a ix0) (f3 (proj _ Wo bo) b t n) = _
  rw [proj_eq, outp_eq, affine_eq, retv_eq, scores_eq, proj_eq, proj_eq, proj_eq, xr_eq]
  rfl

end Cert.ReferenceIdeal.RefRun

end
-- ==== Proof.LawReal.lean ====
/- Being a real number is kept by sums and products, hence by every stage up to the scores applied to the values.

   An extended real "is a real" when it is the coercion of some `r : ℝ`. Sums and products of reals are reals, and so
   are finite sums of them; the projections, the scores and the scores applied to the values are built from the inputs
   by exactly these operations, so they are reals whenever the inputs they read are. -/
import proofs.«172676_j81381040325184_1_alg».proof.Proof.Spec

noncomputable section

namespace Cert.Law

open Cert.Spec Idealize.ShloMosaic
open scoped BigOperators

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

theorem real_sum {ι : Type} (s : Finset ι) (f : ι → EReal) (h : ∀ k ∈ s, ∃ r : ℝ, f k = (r : EReal)) :
    ∃ r : ℝ, ∑ k ∈ s, f k = (r : EReal) :=
  Finset.sum_induction f (fun z => ∃ r : ℝ, z = (r : EReal)) (fun _ _ => real_add) ⟨0, EReal.coe_zero.symm⟩ h

/-- A projection of real inputs by real weights and a real bias is real. -/
theorem proj_real (x : Fin 32 → Fin 64 → Fin 2048 → EReal) (w : Fin 2048 → Fin 2048 → EReal) (b : Fin 2048 → EReal)
    (hx : ∀ bb t i, ∃ r : ℝ, x bb t i = (r : EReal)) (hw : ∀ o i, ∃ r : ℝ, w o i = (r : EReal))
    (hb : ∀ o, ∃ r : ℝ, b o = (r : EReal)) : ∀ bb t o, ∃ r : ℝ, proj x w b bb t o = (r : EReal) :=
  fun bb t o => real_add (real_sum _ _ fun i _ => real_mul (hx bb t i) (hw o i)) (hb o)

/-- The scores of real queries, keys and decay are real. -/
theorem scR_real (q k : Fin 32 → Fin 64 → Fin 2048 → EReal) (dg : Fin 64 → Fin 64 → EReal)
    (hq : ∀ bb t d, ∃ r : ℝ, q bb t d = (r : EReal)) (hk : ∀ bb t d, ∃ r : ℝ, k bb t d = (r : EReal))
    (hdg : ∀ t s, ∃ r : ℝ, dg t s = (r : EReal)) : ∀ bb t s, ∃ r : ℝ, scR q k dg bb t s = (r : EReal) :=
  fun bb t s => real_mul (hdg t s) (real_sum _ _ fun d _ => real_mul (hq bb t d) (hk bb s d))

/-- Real scores applied to real values are real. -/
theorem ret_real (sc : Fin 32 → Fin 64 → Fin 64 → EReal) (v : Fin 32 → Fin 64 → Fin 2048 → EReal)
    (hsc : ∀ bb t s, ∃ r : ℝ, sc bb t s = (r : EReal)) (hv : ∀ bb t d, ∃ r : ℝ, v bb t d = (r : EReal)) :
    ∀ bb t d, ∃ r : ℝ, ret sc v bb t d = (r : EReal) :=
  fun bb t d => real_sum _ _ fun s _ => real_mul (hsc bb t s) (hv bb s d)

end Cert.Law

end
-- ==== Proof.VarLaw.lean ====
/- The law that joins the two ways of taking a variance, over an abstract finite index type.

   For real numbers `f k`, `k` ranging over `n` indices, with mean `m = (∑ f) / n`:
       (∑ f²) / n − m · m  =  (∑ (f − m)²) / n .
   Expanding the square gives `∑ (f − m)² = ∑ f² − 2 m ∑ f + n m²`, and `m n = ∑ f` cancels the last two terms
   down to `− m ∑ f`. The identity is first proved in ℝ and then carried to the extended reals for entries that
   are coerced reals; it is false at the infinities (`⊤ − ⊤ = ⊥`), which is why it is stated for coerced reals. -/
import Idealize.ShloMosaic.PureOps.Ideal

noncomputable section

namespace Cert.VarLaw

open Idealize.ShloMosaic
open scoped BigOperators

variable {ι : Type} [Fintype ι]

/-- A finite sum of coerced reals is the coerced sum. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The variance identity in ℝ, division written as multiplication by the reciprocal. -/
theorem var_real (f : ι → ℝ) (n : ℝ) (hcard : (Fintype.card ι : ℝ) = n) (hn : n ≠ 0) :
    (∑ k, f k * f k) * (1 / n) - ((∑ k, f k) * (1 / n)) * ((∑ k, f k) * (1 / n))
      = (∑ k, (f k - (∑ k, f k) * (1 / n)) * (f k - (∑ k, f k) * (1 / n))) * (1 / n) := by
  set S : ℝ := ∑ k, f k with hS
  set m : ℝ := S * (1 / n) with hm
  have hexp : ∀ k, (f k - m) * (f k - m) = f k * f k - 2 * m * f k + m * m := fun k => by ring
  have hsum : (∑ k, (f k - m) * (f k - m)) = (∑ k, f k * f k) - 2 * m * S + n * (m * m) := by
    simp only [hexp, Finset.sum_add_distrib, Finset.sum_sub_distrib, ← Finset.mul_sum, Finset.sum_const,
      Finset.card_univ, nsmul_eq_mul, hcard, ← hS]
    ring
  rw [hsum, hm]
  field_simp
  ring

/-- Division of a coerced real by a nonzero coerced real is the coerced quotient. -/
theorem div_coe_coe (x n : ℝ) (hn : n ≠ 0) : Ideal.div (x : EReal) (n : EReal) = ((x * (1 / n) : ℝ) : EReal) := by
  rw [Ideal.div_coe hn, ← EReal.coe_mul]

/-- The variance identity on the extended reals, for entries that are coerced reals and a divisor that is
    the (nonzero, real) number of entries. Both sides are spelled with the extended reals' own operations and
    the total division `Ideal.div`. -/
theorem var_ereal (f : ι → ℝ) (n : ℝ) (hcard : (Fintype.card ι : ℝ) = n) (hn : n ≠ 0) :
    Ideal.div (∑ k, (f k : EReal) * (f k : EReal)) (n : EReal)
        - Ideal.div (∑ k, (f k : EReal)) (n : EReal) * Ideal.div (∑ k, (f k : EReal)) (n : EReal)
      = Ideal.div (∑ k, ((f k : EReal) - Ideal.div (∑ k, (f k : EReal)) (n : EReal))
                        * ((f k : EReal) - Ideal.div (∑ k, (f k : EReal)) (n : EReal))) (n : EReal) := by
  have hmu : Ideal.div (∑ k, (f k : EReal)) (n : EReal) = (((∑ k, f k) * (1 / n) : ℝ) : EReal) := by
    rw [← coe_sum, div_coe_coe _ _ hn]
  have hsq : Ideal.div (∑ k, (f k : EReal) * (f k : EReal)) (n : EReal)
      = (((∑ k, f k * f k) * (1 / n) : ℝ) : EReal) := by
    simp only [← EReal.coe_mul]
    rw [← coe_sum, div_coe_coe _ _ hn]
  rw [hmu, hsq]
  simp only [← EReal.coe_sub, ← EReal.coe_mul]
  rw [← coe_sum, div_coe_coe _ _ hn, var_real f n hcard hn]

end Cert.VarLaw

end
-- ==== Proof.LawRow.lean ====
/- One group's 64 · 64 entries, summed as a row of 4096 or as a double sum over tokens and lanes.

   Entry `k` of the row is token `k % 64` of lane `k / 64`, so `k ↦ (k % 64, k / 64)` is a bijection from the 4096 row
   positions onto the pairs (token, lane), with inverse `(t, c) ↦ c · 64 + t`. A sum over the row is therefore the sum
   over the pairs, which is the double sum. This holds in any commutative additive monoid: nothing about the entries
   is used, so in particular the two spellings of a group's mean agree at every input, finite or not. -/
import proofs.«172676_j81381040325184_1_alg».proof.Proof.Spec

noncomputable section

namespace Cert.Law

open Cert.Spec Idealize.ShloMosaic
open scoped BigOperators

/-- Row position `k` ↦ (token `k % 64`, lane `k / 64`). -/
def rowEquiv : Fin 4096 ≃ Fin 64 × Fin 64 where
  toFun k := (⟨k.val % 64, by omega⟩, ⟨k.val / 64, by have := k.isLt; omega⟩)
  invFun p := ⟨p.2.val * 64 + p.1.val, by have := p.1.isLt; have := p.2.isLt; omega⟩
  left_inv k := Fin.ext (by show k.val / 64 * 64 + k.val % 64 = k.val; omega)
  right_inv := by
    rintro ⟨t, c⟩
    have ht := t.isLt
    refine Prod.ext (Fin.ext ?_) (Fin.ext ?_)
    · show (c.val * 64 + t.val) % 64 = t.val; omega
    · show (c.val * 64 + t.val) / 64 = c.val; omega

/-- A sum over the row is the double sum over tokens and lanes. -/
theorem sum_row {M : Type} [AddCommMonoid M] (F : Fin 64 → Fin 64 → M) :
    (∑ k : Fin 4096, F ⟨k.val % 64, by omega⟩ ⟨k.val / 64, by have := k.isLt; omega⟩)
      = ∑ t : Fin 64, ∑ c : Fin 64, F t c := by
  rw [← Fintype.sum_prod_type' F]
  exact Equiv.sum_comp rowEquiv (fun p => F p.1 p.2)

/-- The two spellings of a group's mean agree, at every input. -/
theorem muR_eq_muK (r : Fin 64 → Fin 2048 → EReal) (g : Fin 32) : muR r g = muK r g := by
  unfold muR muK gR
  rw [sum_row (fun t c => r t (chan g c))]

end Cert.Law

end
-- ==== Proof.LawGroup.lean ====
/- The two normalisations agree on a batch whose entries are real numbers.

   The means agree at every input (one is the other's sum re-indexed). For the variances, write the group's entries as
   real numbers `f (t, c)` over the 4096 pairs (token, lane): the first variant is `(∑ f²)/4096 − m · m` and the second
   `(∑ (f − m)²)/4096` with `m = (∑ f)/4096`, equal by the variance identity over the reals. With equal means and equal
   variances the normalised values are the same expression. The stabiliser under the square root is the same word on
   both sides and is never evaluated. -/
import proofs.«172676_j81381040325184_1_alg».proof.Proof.Spec
import proofs.«172676_j81381040325184_1_alg».proof.Proof.Consts
import proofs.«172676_j81381040325184_1_alg».proof.Proof.VarLaw
import proofs.«172676_j81381040325184_1_alg».proof.Proof.LawRow

noncomputable section

namespace Cert.Law

open Cert.Spec Idealize.ShloMosaic
open scoped BigOperators

/-- The two variances of a group agree when the batch's entries are coerced reals. -/
theorem varK_eq_varR (r' : Fin 64 → Fin 2048 → ℝ) (g : Fin 32) :
    varK (fun t d => (r' t d : EReal)) g = varR (fun t d => (r' t d : EReal)) g := by
  have hcard : ((Fintype.card (Fin 64 × Fin 64) : ℕ) : ℝ) = 4096 := by
    rw [Fintype.card_prod, Fintype.card_fin]; norm_num
  have key := Cert.VarLaw.var_ereal (fun p : Fin 64 × Fin 64 => r' p.1 (chan g p.2)) 4096 hcard (by norm_num)
  simp only [Fintype.sum_prod_type] at key
  unfold varK varR sqK
  rw [muR_eq_muK]
  unfold muK gR
  rw [sum_row (fun t c => ((r' t (chan g c) : EReal) - Ideal.div (∑ t : Fin 64, ∑ c : Fin 64, (r' t (chan g c) : EReal)) N)
        * ((r' t (chan g c) : EReal) - Ideal.div (∑ t : Fin 64, ∑ c : Fin 64, (r' t (chan g c) : EReal)) N)),
    Cert.Consts.N_eq]
  exact key

/-- The two normalisations agree on a batch of reals. -/
theorem gnK_eq_gnR (r : Fin 64 → Fin 2048 → EReal) (hr : ∀ t d, ∃ x : ℝ, r t d = (x : EReal)) : gnK r = gnR r := by
  choose r' hr' using hr
  obtain rfl : r = fun t d => (r' t d : EReal) := funext fun t => funext fun d => hr' t d
  funext t d
  unfold gnK gnR
  rw [muR_eq_muK, varK_eq_varR]

end Cert.Law

end
-- ==== Proof.SpecEq.lean ====
/- The two variants of the whole block are the same function of real inputs.

   The scores differ by the side the decay multiplies on, which is commutativity. The scores applied to the values are
   then the same array in both variants, and it is an array of real numbers because every input it is computed from is
   one; on a batch of reals the two normalisations agree (the variance identity), and everything after the
   normalisation is the same expression of it. Only the inputs that reach the normalisation — the activations, the
   three projections' weights and biases and the decay — need to be real: the scale, the shift, the output projection
   and the slope enter after it, identically on both sides. -/
import proofs.«172676_j81381040325184_1_alg».proof.Proof.Spec
import proofs.«172676_j81381040325184_1_alg».proof.Proof.LawReal
import proofs.«172676_j81381040325184_1_alg».proof.Proof.LawGroup

noncomputable section

namespace Cert.Law

open Cert.Spec Idealize.ShloMosaic
open scoped BigOperators

/-- The decay multiplies on either side. -/
theorem scK_eq_scR (q k : Fin 32 → Fin 64 → Fin 2048 → EReal) (dg : Fin 64 → Fin 64 → EReal) : scK q k dg = scR q k dg := by
  funext bb t s
  exact mul_comm _ _

/-- The two variants agree whenever the inputs that reach the normalisation are real, entry by entry. -/
theorem outK_eq_outR_of_real (x : Fin 32 → Fin 64 → Fin 2048 → EReal) (wq wk wv wo : Fin 2048 → Fin 2048 → EReal)
    (bq bk bv bo gw gb : Fin 2048 → EReal) (dg : Fin 64 → Fin 64 → EReal) (a : EReal)
    (hx : ∀ b t i, ∃ r : ℝ, x b t i = (r : EReal))
    (hwq : ∀ o i, ∃ r : ℝ, wq o i = (r : EReal)) (hwk : ∀ o i, ∃ r : ℝ, wk o i = (r : EReal))
    (hwv : ∀ o i, ∃ r : ℝ, wv o i = (r : EReal))
    (hbq : ∀ o, ∃ r : ℝ, bq o = (r : EReal)) (hbk : ∀ o, ∃ r : ℝ, bk o = (r : EReal))
    (hbv : ∀ o, ∃ r : ℝ, bv o = (r : EReal))
    (hdg : ∀ t s, ∃ r : ℝ, dg t s = (r : EReal)) :
    outK x wq wk wv wo bq bk bv bo gw gb dg a = outR x wq wk wv wo bq bk bv bo gw gb dg a := by
  funext bb t n
  unfold outK outR
  rw [scK_eq_scR,
    gnK_eq_gnR (ret (scR (proj x wq bq) (proj x wk bk) dg) (proj x wv bv) bb)
      (ret_real _ _ (scR_real _ _ _ (proj_real x wq bq hx hwq hbq) (proj_real x wk bk hx hwk hbk) hdg)
        (proj_real x wv bv hx hwv hbv) bb)]

/-- The two variants agree at inputs that are all coerced reals. -/
theorem outK_eq_outR (x : Fin 32 → Fin 64 → Fin 2048 → EReal) (wq wk wv wo : Fin 2048 → Fin 2048 → EReal)
    (bq bk bv bo gw gb : Fin 2048 → EReal) (dg : Fin 64 → Fin 64 → EReal) (a : EReal)
    (x' : Fin 32 → Fin 64 → Fin 2048 → ℝ) (wq' wk' wv' wo' : Fin 2048 → Fin 2048 → ℝ)
    (bq' bk' bv' bo' gw' gb' : Fin 2048 → ℝ) (dg' : Fin 64 → Fin 64 → ℝ) (a' : ℝ)
    (hx : x = fun b t i => (x' b t i : EReal))
    (hwq : wq = fun o i => (wq' o i : EReal)) (hwk : wk = fun o i => (wk' o i : EReal))
    (hwv : wv = fun o i => (wv' o i : EReal)) (_hwo : wo = fun o i => (wo' o i : EReal))
    (hbq : bq = fun o => (bq' o : EReal)) (hbk : bk = fun o => (bk' o : EReal))
    (hbv : bv = fun o => (bv' o : EReal)) (_hbo : bo = fun o => (bo' o : EReal))
    (_hgw : gw = fun o => (gw' o : EReal)) (_hgb : gb = fun o => (gb' o : EReal))
    (hdg : dg = fun t s => (dg' t s : EReal)) (_ha : a = (a' : EReal)) :
    outK x wq wk wv wo bq bk bv bo gw gb dg a = outR x wq wk wv wo bq bk bv bo gw gb dg a :=
  outK_eq_outR_of_real x wq wk wv wo bq bk bv bo gw gb dg a
    (fun b t i => ⟨x' b t i, congrFun (congrFun (congrFun hx b) t) i⟩)
    (fun o i => ⟨wq' o i, congrFun (congrFun hwq o) i⟩) (fun o i => ⟨wk' o i, congrFun (congrFun hwk o) i⟩)
    (fun o i => ⟨wv' o i, congrFun (congrFun hwv o) i⟩)
    (fun o => ⟨bq' o, congrFun hbq o⟩) (fun o => ⟨bk' o, congrFun hbk o⟩) (fun o => ⟨bv' o, congrFun hbv o⟩)
    (fun t s => ⟨dg' t s, congrFun (congrFun hdg t) s⟩)

end Cert.Law

end
-- ==== Proof.LawFinite.lean ====
/- Reading "every entry is finite" back out of a compare-and-reduce.

   The word `0x7F800000` denotes `+∞`. An extended real `x` with `max x (−x) < +∞` is neither infinity, so it is a
   real number. A predicate of the form "reduce by `and`, over all axes, of `|x i| < +∞`" that comes out `1` had a
   `1` at every index, so every entry of `x` is a real number; the bound may be any array that is `+∞` everywhere
   (a broadcast of the constant, or the constant itself for a scalar). -/
import Idealize.ShloMosaic.Lib.ReduceAll
import Idealize.ShloMosaic.PureOps.Ideal

noncomputable section

namespace Cert.Finite

open Idealize.ShloMosaic

/-- The word of `+∞`. -/
theorem inf_word : Ideal.ofBits .f32 0x7F800000#32 = (⊤ : EReal) := by
  simp [Ideal.ofBits, Ideal.ieee]

/-- An extended real whose absolute value compares below `+∞` is a real. -/
theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := by
    by_contra hc
    simp [Ideal.cmp, hc] at h
  induction x using EReal.rec
  · simp at hlt
  · exact ⟨_, rfl⟩
  · simp at hlt

/-- An all-axes reduce by `and` of `|x i| < bd i`, with `bd` the word of `+∞` everywhere, that is `1`:
    every entry of `x` is a real. -/
theorem reals_of_all {s t u : Shape} {axes : List (Fin s.rank)} [Subsingleton t.Idx]
    (x bd : FVec Ideal s .f32) (hbd : ∀ i, bd i = Ideal.ofBits .f32 0x7F800000#32)
    (init : IVec u 1) (h : s.ReducesTo axes t) (hu : 0 < u.numel) (j : t.Idx)
    (e : Host.reduce IntOp.andi (cmpf .olt (Host.absf x) bd) init h hu j = 1#1) :
    ∀ i, ∃ r : ℝ, x i = (r : EReal) := fun i => by
  have hi : cmpf .olt (Host.absf x) bd i = 1#1 := Host.reduce_andi_all _ init h hu j e i
  refine real_of_abs_lt (x i) ?_
  rw [← hbd i]
  exact hi

end Cert.Finite

end
-- ==== Proof.Finite.lean ====
/- The precondition decoded: where the finiteness predicate of the thirteen inputs is `1`, every entry of every
   input is a real number.

   The predicate is, per input, "the absolute value is below `+∞` at every index" (a compare against the constant
   `+∞`, broadcast to the input's shape, reduced by `and` over all axes), and the thirteen verdicts are joined by
   `and`, the first input innermost. A conjunction of bits that is `1` has every conjunct `1`; each conjunct is
   then read back entry by entry. The inputs, in the predicate's own order: the activations
   (32 × 4 × 1024 × 32), the decay (64 × 64), then weight and bias of the three input projections and of the output
   projection, the normalisation's scale and shift, and the scalar slope. -/
import proofs.«172676_j81381040325184_1_alg».proof.Pre_finite_inputs
import proofs.«172676_j81381040325184_1_alg».proof.Proof.LawFinite
import Idealize.ShloMosaic.Lib.ValueIdx

noncomputable section

namespace Cert.Finite

open Idealize.ShloMosaic Cert.Pre_finite_inputs

/-- The scalar shape has one index. -/
instance : Subsingleton S_.Idx := ⟨fun _ _ => funext fun d => d.elim0⟩

/-- A pointwise `and` of two bit arrays that is `1` at an index has both `1` there. -/
theorem andi_apply_eq_one {s : Shape} (a b : IVec s 1) (i : s.Idx) (h : andi a b i = 1#1) :
    a i = 1#1 ∧ b i = 1#1 :=
  IntOp.andi_eq_one.1 h

/-- Where the finiteness predicate holds, every entry of every input is a real. -/
theorem reals_of_pre [Cert.Pre_finite_inputs.Facts]
    (A0 : FVec Ideal S32x4x1024x32 .f32) (A1 : FVec Ideal S64x64 .f32) (A2 : FVec Ideal S2048x2048 .f32) (A3 : FVec Ideal S2048 .f32)
    (A4 : FVec Ideal S2048x2048 .f32) (A5 : FVec Ideal S2048 .f32) (A6 : FVec Ideal S2048x2048 .f32) (A7 : FVec Ideal S2048 .f32)
    (A8 : FVec Ideal S2048x2048 .f32) (A9 : FVec Ideal S2048 .f32) (A10 : FVec Ideal S2048 .f32) (A11 : FVec Ideal S2048 .f32) (A12 : FVec Ideal S_ .f32)
    (h : Cert.Pre_finite_inputs.fn (F := Ideal) A0 A1 A2 A3 A4 A5 A6 A7 A8 A9 A10 A11 A12 = fun _ => 1#1) :
    (∀ i, ∃ r : ℝ, A0 i = (r : EReal))
      ∧ (∀ i, ∃ r : ℝ, A1 i = (r : EReal))
      ∧ (∀ i, ∃ r : ℝ, A2 i = (r : EReal))
      ∧ (∀ i, ∃ r : ℝ, A3 i = (r : EReal))
      ∧ (∀ i, ∃ r : ℝ, A4 i = (r : EReal))
      ∧ (∀ i, ∃ r : ℝ, A5 i = (r : EReal))
      ∧ (∀ i, ∃ r : ℝ, A6 i = (r : EReal))
      ∧ (∀ i, ∃ r : ℝ, A7 i = (r : EReal))
      ∧ (∀ i, ∃ r : ℝ, A8 i = (r : EReal))
      ∧ (∀ i, ∃ r : ℝ, A9 i = (r : EReal))
      ∧ (∀ i, ∃ r : ℝ, A10 i = (r : EReal))
      ∧ (∀ i, ∃ r : ℝ, A11 i = (r : EReal))
      ∧ (∀ i, ∃ r : ℝ, A12 i = (r : EReal)) := by
  have h0 := congrFun h ValueIdx.ix0
  dsimp only [Cert.Pre_finite_inputs.fn, fn_part1, fn_part2, fn_part3] at h0
  obtain ⟨h0, h12⟩ := andi_apply_eq_one _ _ _ h0
  obtain ⟨h0, h11⟩ := andi_apply_eq_one _ _ _ h0
  obtain ⟨h0, h10⟩ := andi_apply_eq_one _ _ _ h0
  obtain ⟨h0, h9⟩ := andi_apply_eq_one _ _ _ h0
  obtain ⟨h0, h8⟩ := andi_apply_eq_one _ _ _ h0
  obtain ⟨h0, h7⟩ := andi_apply_eq_one _ _ _ h0
  obtain ⟨h0, h6⟩ := andi_apply_eq_one _ _ _ h0
  obtain ⟨h0, h5⟩ := andi_apply_eq_one _ _ _ h0
  obtain ⟨h0, h4⟩ := andi_apply_eq_one _ _ _ h0
  obtain ⟨h0, h3⟩ := andi_apply_eq_one _ _ _ h0
  obtain ⟨h0, h2⟩ := andi_apply_eq_one _ _ _ h0
  obtain ⟨h0, h1⟩ := andi_apply_eq_one _ _ _ h0
  exact ⟨reals_of_all A0 _ (fun _ => rfl) _ _ _ _ h0,
    reals_of_all A1 _ (fun _ => rfl) _ _ _ _ h1,
    reals_of_all A2 _ (fun _ => rfl) _ _ _ _ h2,
    reals_of_all A3 _ (fun _ => rfl) _ _ _ _ h3,
    reals_of_all A4 _ (fun _ => rfl) _ _ _ _ h4,
    reals_of_all A5 _ (fun _ => rfl) _ _ _ _ h5,
    reals_of_all A6 _ (fun _ => rfl) _ _ _ _ h6,
    reals_of_all A7 _ (fun _ => rfl) _ _ _ _ h7,
    reals_of_all A8 _ (fun _ => rfl) _ _ _ _ h8,
    reals_of_all A9 _ (fun _ => rfl) _ _ _ _ h9,
    reals_of_all A10 _ (fun _ => rfl) _ _ _ _ h10,
    reals_of_all A11 _ (fun _ => rfl) _ _ _ _ h11,
    reals_of_all A12 _ (fun _ => rfl) _ _ _ _ h12⟩

end Cert.Finite

end
-- ==== Proof.lean ====
/-
  The certificate of the retention block: a fused query/key/value projection, decay-masked retention without a
  softmax, group normalisation over 32 groups of 64 channels, an output projection and a parametric rectifier,
  written as two pipelined kernels with layout operations around them, against the same block written with plain
  array operations.

  Frames. The kernel program is five segments: host operations, the projection kernel over six column blocks, host
  operations, the retention kernel over the 32 batch entries, and a last reshape. Each kernel body loads its input
  blocks, computes, and stores one value over its whole output block; the pipeline's launch theorem for several
  regions gives termination without a fault with every buffer at a fold of the segments' effects, and no segment
  writes an argument. This is proved once at any float instance and used for the word-level program and for its
  idealization. The reference is a straight line of array operations with two outlined calls inlined; its run gives
  its frame and its result as one term of the arguments.

  The algebraic claim. At the ideal instance both results, read at the index of (batch b, token t, output n), are one
  specification: q, k, v = x·Wᵀ + bias; ret = ((q·kᵀ) ∘ dg)·v; per group g the mean μ and a variance over the 4096
  entries (token, channel in group); y = (ret − μ)·rsqrt(var + ε)·scale + shift; out = prelu(y·Woᵀ + bias). The two
  programs differ in two ways only. The product with the mask is taken in the other order, which is commutativity.
  And the kernel computes the variance as E[r²] − μ² where the reference computes E[(r − μ)²]: equal for real numbers
  but not at ±∞, so this is where the precondition is used — every input entry is a real number, hence so is every
  entry of q, k, v, the scores and ret, the identity holds in ℝ, and it is carried back to the extended reals. The
  sum over the 64 × 64 (token, channel) pairs and the reference's sum over 4096 positions are one sum re-indexed.
-/
import proofs.«172676_j81381040325184_1_alg».proof.Defs
import proofs.«172676_j81381040325184_1_alg».proof.Proof.Gen.Kernel
import proofs.«172676_j81381040325184_1_alg».proof.Proof.Gen.KernelIdeal
import proofs.«172676_j81381040325184_1_alg».proof.Proof.Gen.ReferenceIdeal
import proofs.«172676_j81381040325184_1_alg».proof.Proof.Gen.Pre_finite_inputs
import proofs.«172676_j81381040325184_1_alg».proof.Proof.BitsFrame
import proofs.«172676_j81381040325184_1_alg».proof.Proof.IdealRunVal
import proofs.«172676_j81381040325184_1_alg».proof.Proof.IdealCompose
import proofs.«172676_j81381040325184_1_alg».proof.Proof.RefValue
import proofs.«172676_j81381040325184_1_alg».proof.Proof.SpecEq
import proofs.«172676_j81381040325184_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs to the end and keeps its arguments. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two idealized programs, from memories agreeing on the arguments all of whose entries are real numbers, end
    with the same result: both are the specification read at each output index, and the specification's two
    spellings of the variance agree on real numbers. -/
theorem algebraic : Cert.algebraic_KernelIdeal_ReferenceIdeal := by
  intro m ρ m' ρ' hpre hagree
  refine ⟨fun c => Cert.KernelIdeal.Frame.W5 (F := Ideal) m ρ c (Proc.devRef .tc Cert.KernelIdeal.main_v19),
    Cert.KernelIdeal.Frame.run_val (F := Ideal) m ρ, ?_⟩
  refine (θ_run Cert.ReferenceIdeal.defs _ _).mono (fun r h c => ⟨(h c).1.trans ?_, (h c).2⟩)
    (Cert.ReferenceIdeal.RefRun.run (F := Ideal) m' ρ')
  obtain ⟨a0, a1, a2, a3, a4, a5, a6, a7, a8, a9, a10, a11, a12⟩ := hagree c
  rw [a0, a1, a2, a3, a4, a5, a6, a7, a8, a9, a10, a11, a12]
  obtain ⟨r0, r1, r2, r3, r4, r5, r6, r7, r8, r9, r10, r11, r12⟩ :=
    Cert.Finite.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (hpre c)
  funext j
  obtain ⟨b, t, n, rfl⟩ := Cert.Inputs.outIdx_surj j
  rw [Cert.ReferenceIdeal.RefRun.refTerm_eq_spec]
  refine Eq.trans ?_ (Cert.KernelIdeal.KValue.W5_out m ρ c b t n).symm
  have hlaw := Cert.Law.outK_eq_outR_of_real
    (Cert.Inputs.xOf (m ((c.tc : Thread Cert.KernelIdeal.nD Cert.KernelIdeal.τ).loc Cert.KernelIdeal.main_arg0))) (Cert.Inputs.wOf (m ((c.tc : Thread Cert.KernelIdeal.nD Cert.KernelIdeal.τ).loc Cert.KernelIdeal.main_arg2))) (Cert.Inputs.wOf (m ((c.tc : Thread Cert.KernelIdeal.nD Cert.KernelIdeal.τ).loc Cert.KernelIdeal.main_arg4))) (Cert.Inputs.wOf (m ((c.tc : Thread Cert.KernelIdeal.nD Cert.KernelIdeal.τ).loc Cert.KernelIdeal.main_arg6))) (Cert.Inputs.wOf (m ((c.tc : Thread Cert.KernelIdeal.nD Cert.KernelIdeal.τ).loc Cert.KernelIdeal.main_arg8)))
    (Cert.Inputs.vOf (m ((c.tc : Thread Cert.KernelIdeal.nD Cert.KernelIdeal.τ).loc Cert.KernelIdeal.main_arg3))) (Cert.Inputs.vOf (m ((c.tc : Thread Cert.KernelIdeal.nD Cert.KernelIdeal.τ).loc Cert.KernelIdeal.main_arg5))) (Cert.Inputs.vOf (m ((c.tc : Thread Cert.KernelIdeal.nD Cert.KernelIdeal.τ).loc Cert.KernelIdeal.main_arg7))) (Cert.Inputs.vOf (m ((c.tc : Thread Cert.KernelIdeal.nD Cert.KernelIdeal.τ).loc Cert.KernelIdeal.main_arg9)))
    (Cert.Inputs.vOf (m ((c.tc : Thread Cert.KernelIdeal.nD Cert.KernelIdeal.τ).loc Cert.KernelIdeal.main_arg10))) (Cert.Inputs.vOf (m ((c.tc : Thread Cert.KernelIdeal.nD Cert.KernelIdeal.τ).loc Cert.KernelIdeal.main_arg11))) (Cert.Inputs.dgOf (m ((c.tc : Thread Cert.KernelIdeal.nD Cert.KernelIdeal.τ).loc Cert.KernelIdeal.main_arg1))) (Cert.Inputs.aOf (m ((c.tc : Thread Cert.KernelIdeal.nD Cert.KernelIdeal.τ).loc Cert.KernelIdeal.main_arg12)))
    (fun b t i => r0 _) (fun o i => r2 _) (fun o i => r4 _) (fun o i => r6 _)
    (fun o => r3 _) (fun o => r5 _) (fun o => r7 _) (fun t s => r1 _)
  exact (congrFun (congrFun (congrFun hlaw b) t) n).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
